-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S2048x2048x1 : Shape := ⟨3, ![2048, 2048, 1]⟩
abbrev S2048x1024x2x1 : Shape := ⟨4, ![2048, 1024, 2, 1]⟩
abbrev S2048x1024x1x1 : Shape := ⟨4, ![2048, 1024, 1, 1]⟩
abbrev S2048x1024x1 : Shape := ⟨3, ![2048, 1024, 1]⟩
abbrev S2048x1024x2 : Shape := ⟨3, ![2048, 1024, 2]⟩
abbrev S2048x512x2x2 : Shape := ⟨4, ![2048, 512, 2, 2]⟩
abbrev S2048x512x1x2 : Shape := ⟨4, ![2048, 512, 1, 2]⟩
abbrev S2048x512x2 : Shape := ⟨3, ![2048, 512, 2]⟩
abbrev S2048x512x4 : Shape := ⟨3, ![2048, 512, 4]⟩
abbrev S2048x256x2x4 : Shape := ⟨4, ![2048, 256, 2, 4]⟩
abbrev S2048x256x1x4 : Shape := ⟨4, ![2048, 256, 1, 4]⟩
abbrev S2048x256x4 : Shape := ⟨3, ![2048, 256, 4]⟩
abbrev S2048x256x8 : Shape := ⟨3, ![2048, 256, 8]⟩
abbrev S2048x128x2x8 : Shape := ⟨4, ![2048, 128, 2, 8]⟩
abbrev S2048x128x1x8 : Shape := ⟨4, ![2048, 128, 1, 8]⟩
abbrev S2048x128x8 : Shape := ⟨3, ![2048, 128, 8]⟩
abbrev S2048x128x16 : Shape := ⟨3, ![2048, 128, 16]⟩
abbrev S2048x64x2x16 : Shape := ⟨4, ![2048, 64, 2, 16]⟩
abbrev S2048x64x1x16 : Shape := ⟨4, ![2048, 64, 1, 16]⟩
abbrev S2048x64x16 : Shape := ⟨3, ![2048, 64, 16]⟩
abbrev S2048x64x32 : Shape := ⟨3, ![2048, 64, 32]⟩
abbrev S2048x32x2x32 : Shape := ⟨4, ![2048, 32, 2, 32]⟩
abbrev S2048x32x1x32 : Shape := ⟨4, ![2048, 32, 1, 32]⟩
abbrev S2048x32x32 : Shape := ⟨3, ![2048, 32, 32]⟩
abbrev S2048x32x64 : Shape := ⟨3, ![2048, 32, 64]⟩
abbrev S2048x16x2x64 : Shape := ⟨4, ![2048, 16, 2, 64]⟩
abbrev S2048x16x1x64 : Shape := ⟨4, ![2048, 16, 1, 64]⟩
abbrev S2048x16x64 : Shape := ⟨3, ![2048, 16, 64]⟩
abbrev S2048x16x128 : Shape := ⟨3, ![2048, 16, 128]⟩
abbrev S2048x8x2x128 : Shape := ⟨4, ![2048, 8, 2, 128]⟩
abbrev S2048x8x1x128 : Shape := ⟨4, ![2048, 8, 1, 128]⟩
abbrev S2048x8x128 : Shape := ⟨3, ![2048, 8, 128]⟩
abbrev S2048x8x256 : Shape := ⟨3, ![2048, 8, 256]⟩
abbrev S2048x4x2x256 : Shape := ⟨4, ![2048, 4, 2, 256]⟩
abbrev S2048x4x1x256 : Shape := ⟨4, ![2048, 4, 1, 256]⟩
abbrev S2048x4x256 : Shape := ⟨3, ![2048, 4, 256]⟩
abbrev S2048x4x512 : Shape := ⟨3, ![2048, 4, 512]⟩
abbrev S2048x2x2x512 : Shape := ⟨4, ![2048, 2, 2, 512]⟩
abbrev S2048x2x1x512 : Shape := ⟨4, ![2048, 2, 1, 512]⟩
abbrev S2048x2x512 : Shape := ⟨3, ![2048, 2, 512]⟩
abbrev S2048x2x1024 : Shape := ⟨3, ![2048, 2, 1024]⟩
abbrev S2048x1x2x1024 : Shape := ⟨4, ![2048, 1, 2, 1024]⟩
abbrev S2048x1x1x1024 : Shape := ⟨4, ![2048, 1, 1, 1024]⟩
abbrev S2048x1x1024 : Shape := ⟨3, ![2048, 1, 1024]⟩
abbrev S2048x1x2048 : Shape := ⟨3, ![2048, 1, 2048]⟩
abbrev S1x2048 : Shape := ⟨2, ![1, 2048]⟩
abbrev S512x2048 : Shape := ⟨2, ![512, 2048]⟩
abbrev S16384x2048 : Shape := ⟨2, ![16384, 2048]⟩
abbrev S1024x2048 : Shape := ⟨2, ![1024, 2048]⟩

abbrev nBuf : Space → Nat
  | .hbm => 148
  | .vmem => 12
  | .smem => 0
  | _ => 0

abbrev hbmTy0_0 (i : Nat) : BufTy := match i % 128 with
  | 0 => ⟨S4x4096x2048, .f32⟩
  | 1 => ⟨S2048x2048, .f32⟩
  | 2 => ⟨S2048, .f32⟩
  | 3 => ⟨S2048x2048, .i32⟩
  | 4 => ⟨S2048x2048, .i32⟩
  | 5 => ⟨S_, .i32⟩
  | 6 => ⟨S2048x2048, .i32⟩
  | 7 => ⟨S2048x2048, .i32⟩
  | 8 => ⟨S2048x2048, .i1⟩
  | 9 => ⟨S2048x2048, .f32⟩
  | 10 => ⟨S2048x2048x1, .f32⟩
  | 11 => ⟨S2048x1024x2x1, .f32⟩
  | 12 => ⟨S2048x1024x1x1, .f32⟩
  | 13 => ⟨S2048x1024x1, .f32⟩
  | 14 => ⟨S2048x1024x1x1, .f32⟩
  | 15 => ⟨S2048x1024x1, .f32⟩
  | 16 => ⟨S2048x1024x1, .f32⟩
  | 17 => ⟨S2048x1024x1, .f32⟩
  | 18 => ⟨S2048x1024x1x1, .f32⟩
  | 19 => ⟨S2048x1024x1x1, .f32⟩
  | 20 => ⟨S2048x1024x2x1, .f32⟩
  | 21 => ⟨S2048x1024x2, .f32⟩
  | 22 => ⟨S2048x512x2x2, .f32⟩
  | 23 => ⟨S2048x512x1x2, .f32⟩
  | 24 => ⟨S2048x512x2, .f32⟩
  | 25 => ⟨S2048x512x1x2, .f32⟩
  | 26 => ⟨S2048x512x2, .f32⟩
  | 27 => ⟨S2048x512x2, .f32⟩
  | 28 => ⟨S2048x512x2, .f32⟩
  | 29 => ⟨S2048x512x1x2, .f32⟩
  | 30 => ⟨S2048x512x1x2, .f32⟩
  | 31 => ⟨S2048x512x2x2, .f32⟩
  | 32 => ⟨S2048x512x4, .f32⟩
  | 33 => ⟨S2048x256x2x4, .f32⟩
  | 34 => ⟨S2048x256x1x4, .f32⟩
  | 35 => ⟨S2048x256x4, .f32⟩
  | 36 => ⟨S2048x256x1x4, .f32⟩
  | 37 => ⟨S2048x256x4, .f32⟩
  | 38 => ⟨S2048x256x4, .f32⟩
  | 39 => ⟨S2048x256x4, .f32⟩
  | 40 => ⟨S2048x256x1x4, .f32⟩
  | 41 => ⟨S2048x256x1x4, .f32⟩
  | 42 => ⟨S2048x256x2x4, .f32⟩
  | 43 => ⟨S2048x256x8, .f32⟩
  | 44 => ⟨S2048x128x2x8, .f32⟩
  | 45 => ⟨S2048x128x1x8, .f32⟩
  | 46 => ⟨S2048x128x8, .f32⟩
  | 47 => ⟨S2048x128x1x8, .f32⟩
  | 48 => ⟨S2048x128x8, .f32⟩
  | 49 => ⟨S2048x128x8, .f32⟩
  | 50 => ⟨S2048x128x8, .f32⟩
  | 51 => ⟨S2048x128x1x8, .f32⟩
  | 52 => ⟨S2048x128x1x8, .f32⟩
  | 53 => ⟨S2048x128x2x8, .f32⟩
  | 54 => ⟨S2048x128x16, .f32⟩
  | 55 => ⟨S2048x64x2x16, .f32⟩
  | 56 => ⟨S2048x64x1x16, .f32⟩
  | 57 => ⟨S2048x64x16, .f32⟩
  | 58 => ⟨S2048x64x1x16, .f32⟩
  | 59 => ⟨S2048x64x16, .f32⟩
  | 60 => ⟨S2048x64x16, .f32⟩
  | 61 => ⟨S2048x64x16, .f32⟩
  | 62 => ⟨S2048x64x1x16, .f32⟩
  | 63 => ⟨S2048x64x1x16, .f32⟩
  | 64 => ⟨S2048x64x2x16, .f32⟩
  | 65 => ⟨S2048x64x32, .f32⟩
  | 66 => ⟨S2048x32x2x32, .f32⟩
  | 67 => ⟨S2048x32x1x32, .f32⟩
  | 68 => ⟨S2048x32x32, .f32⟩
  | 69 => ⟨S2048x32x1x32, .f32⟩
  | 70 => ⟨S2048x32x32, .f32⟩
  | 71 => ⟨S2048x32x32, .f32⟩
  | 72 => ⟨S2048x32x32, .f32⟩
  | 73 => ⟨S2048x32x1x32, .f32⟩
  | 74 => ⟨S2048x32x1x32, .f32⟩
  | 75 => ⟨S2048x32x2x32, .f32⟩
  | 76 => ⟨S2048x32x64, .f32⟩
  | 77 => ⟨S2048x16x2x64, .f32⟩
  | 78 => ⟨S2048x16x1x64, .f32⟩
  | 79 => ⟨S2048x16x64, .f32⟩
  | 80 => ⟨S2048x16x1x64, .f32⟩
  | 81 => ⟨S2048x16x64, .f32⟩
  | 82 => ⟨S2048x16x64, .f32⟩
  | 83 => ⟨S2048x16x64, .f32⟩
  | 84 => ⟨S2048x16x1x64, .f32⟩
  | 85 => ⟨S2048x16x1x64, .f32⟩
  | 86 => ⟨S2048x16x2x64, .f32⟩
  | 87 => ⟨S2048x16x128, .f32⟩
  | 88 => ⟨S2048x8x2x128, .f32⟩
  | 89 => ⟨S2048x8x1x128, .f32⟩
  | 90 => ⟨S2048x8x128, .f32⟩
  | 91 => ⟨S2048x8x1x128, .f32⟩
  | 92 => ⟨S2048x8x128, .f32⟩
  | 93 => ⟨S2048x8x128, .f32⟩
  | 94 => ⟨S2048x8x128, .f32⟩
  | 95 => ⟨S2048x8x1x128, .f32⟩
  | 96 => ⟨S2048x8x1x128, .f32⟩
  | 97 => ⟨S2048x8x2x128, .f32⟩
  | 98 => ⟨S2048x8x256, .f32⟩
  | 99 => ⟨S2048x4x2x256, .f32⟩
  | 100 => ⟨S2048x4x1x256, .f32⟩
  | 101 => ⟨S2048x4x256, .f32⟩
  | 102 => ⟨S2048x4x1x256, .f32⟩
  | 103 => ⟨S2048x4x256, .f32⟩
  | 104 => ⟨S2048x4x256, .f32⟩
  | 105 => ⟨S2048x4x256, .f32⟩
  | 106 => ⟨S2048x4x1x256, .f32⟩
  | 107 => ⟨S2048x4x1x256, .f32⟩
  | 108 => ⟨S2048x4x2x256, .f32⟩
  | 109 => ⟨S2048x4x512, .f32⟩
  | 110 => ⟨S2048x2x2x512, .f32⟩
  | 111 => ⟨S2048x2x1x512, .f32⟩
  | 112 => ⟨S2048x2x512, .f32⟩
  | 113 => ⟨S2048x2x1x512, .f32⟩
  | 114 => ⟨S2048x2x512, .f32⟩
  | 115 => ⟨S2048x2x512, .f32⟩
  | 116 => ⟨S2048x2x512, .f32⟩
  | 117 => ⟨S2048x2x1x512, .f32⟩
  | 118 => ⟨S2048x2x1x512, .f32⟩
  | 119 => ⟨S2048x2x2x512, .f32⟩
  | 120 => ⟨S2048x2x1024, .f32⟩
  | 121 => ⟨S2048x1x2x1024, .f32⟩
  | 122 => ⟨S2048x1x1x1024, .f32⟩
  | 123 => ⟨S2048x1x1024, .f32⟩
  | 124 => ⟨S2048x1x1x1024, .f32⟩
  | 125 => ⟨S2048x1x1024, .f32⟩
  | 126 => ⟨S2048x1x1024, .f32⟩
  | 127 => ⟨S2048x1x1024, .f32⟩
  | _ => ⟨S4x4096x2048, .f32⟩

abbrev hbmTy0_1 (i : Nat) : BufTy := match i % 128 with
  | 0 => ⟨S2048x1x1x1024, .f32⟩
  | 1 => ⟨S2048x1x1x1024, .f32⟩
  | 2 => ⟨S2048x1x2x1024, .f32⟩
  | 3 => ⟨S2048x1x2048, .f32⟩
  | 4 => ⟨S2048x2048, .f32⟩
  | 5 => ⟨S_, .f32⟩
  | 6 => ⟨S2048x2048, .f32⟩
  | 7 => ⟨S2048x2048, .f32⟩
  | 8 => ⟨S2048x2048, .f32⟩
  | 9 => ⟨S_, .f32⟩
  | 10 => ⟨S1x2048, .f32⟩
  | 11 => ⟨S2048x2048, .bf16⟩
  | 12 => ⟨S2048x2048, .bf16⟩
  | 13 => ⟨S2048x2048, .f32⟩
  | 14 => ⟨S16384x2048, .f32⟩
  | 15 => ⟨S16384x2048, .bf16⟩
  | 16 => ⟨S1x2048, .f32⟩
  | 17 => ⟨S2048x2048, .bf16⟩
  | 18 => ⟨S16384x2048, .f32⟩
  | 19 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_cst : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_cst_0 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048x2048 : S_.BroadcastsInDim S2048x2048 (![] : Fin 0 → Fin S2048x2048.rank)
  shapeCasts_S2048x2048_S2048x2048x1 : S2048x2048.ShapeCasts S2048x2048x1
  shapeCasts_S2048x2048x1_S2048x1024x2x1 : S2048x2048x1.ShapeCasts S2048x1024x2x1
  slices_S2048x1024x2x1_S2048x1024x1x1_0_0_0_0 : S2048x1024x2x1.Slices ![0, 0, 0, 0] S2048x1024x1x1
  shapeCasts_S2048x1024x1x1_S2048x1024x1 : S2048x1024x1x1.ShapeCasts S2048x1024x1
  slices_S2048x1024x2x1_S2048x1024x1x1_0_0_1_0 : S2048x1024x2x1.Slices ![0, 0, 1, 0] S2048x1024x1x1
  bcast_S2048x1024x1_S2048x1024x1x1_0_1_3 : S2048x1024x1.BroadcastsInDim S2048x1024x1x1 (![0, 1, 3] : Fin 3 → Fin S2048x1024x1x1.rank)
  concatenates_S2048x1024x1x1_S2048x1024x1x1_S2048x1024x2x1_d2 : Shape.Concatenates [S2048x1024x1x1, S2048x1024x1x1] S2048x1024x2x1 2
  shapeCasts_S2048x1024x2x1_S2048x1024x2 : S2048x1024x2x1.ShapeCasts S2048x1024x2
  shapeCasts_S2048x1024x2_S2048x512x2x2 : S2048x1024x2.ShapeCasts S2048x512x2x2
  slices_S2048x512x2x2_S2048x512x1x2_0_0_0_0 : S2048x512x2x2.Slices ![0, 0, 0, 0] S2048x512x1x2
  shapeCasts_S2048x512x1x2_S2048x512x2 : S2048x512x1x2.ShapeCasts S2048x512x2
  slices_S2048x512x2x2_S2048x512x1x2_0_0_1_0 : S2048x512x2x2.Slices ![0, 0, 1, 0] S2048x512x1x2
  bcast_S2048x512x2_S2048x512x1x2_0_1_3 : S2048x512x2.BroadcastsInDim S2048x512x1x2 (![0, 1, 3] : Fin 3 → Fin S2048x512x1x2.rank)
  concatenates_S2048x512x1x2_S2048x512x1x2_S2048x512x2x2_d2 : Shape.Concatenates [S2048x512x1x2, S2048x512x1x2] S2048x512x2x2 2
  shapeCasts_S2048x512x2x2_S2048x512x4 : S2048x512x2x2.ShapeCasts S2048x512x4
  shapeCasts_S2048x512x4_S2048x256x2x4 : S2048x512x4.ShapeCasts S2048x256x2x4
  slices_S2048x256x2x4_S2048x256x1x4_0_0_0_0 : S2048x256x2x4.Slices ![0, 0, 0, 0] S2048x256x1x4
  shapeCasts_S2048x256x1x4_S2048x256x4 : S2048x256x1x4.ShapeCasts S2048x256x4
  slices_S2048x256x2x4_S2048x256x1x4_0_0_1_0 : S2048x256x2x4.Slices ![0, 0, 1, 0] S2048x256x1x4
  bcast_S2048x256x4_S2048x256x1x4_0_1_3 : S2048x256x4.BroadcastsInDim S2048x256x1x4 (![0, 1, 3] : Fin 3 → Fin S2048x256x1x4.rank)
  concatenates_S2048x256x1x4_S2048x256x1x4_S2048x256x2x4_d2 : Shape.Concatenates [S2048x256x1x4, S2048x256x1x4] S2048x256x2x4 2
  shapeCasts_S2048x256x2x4_S2048x256x8 : S2048x256x2x4.ShapeCasts S2048x256x8
  shapeCasts_S2048x256x8_S2048x128x2x8 : S2048x256x8.ShapeCasts S2048x128x2x8
  slices_S2048x128x2x8_S2048x128x1x8_0_0_0_0 : S2048x128x2x8.Slices ![0, 0, 0, 0] S2048x128x1x8
  shapeCasts_S2048x128x1x8_S2048x128x8 : S2048x128x1x8.ShapeCasts S2048x128x8
  slices_S2048x128x2x8_S2048x128x1x8_0_0_1_0 : S2048x128x2x8.Slices ![0, 0, 1, 0] S2048x128x1x8
  bcast_S2048x128x8_S2048x128x1x8_0_1_3 : S2048x128x8.BroadcastsInDim S2048x128x1x8 (![0, 1, 3] : Fin 3 → Fin S2048x128x1x8.rank)
  concatenates_S2048x128x1x8_S2048x128x1x8_S2048x128x2x8_d2 : Shape.Concatenates [S2048x128x1x8, S2048x128x1x8] S2048x128x2x8 2
  shapeCasts_S2048x128x2x8_S2048x128x16 : S2048x128x2x8.ShapeCasts S2048x128x16
  shapeCasts_S2048x128x16_S2048x64x2x16 : S2048x128x16.ShapeCasts S2048x64x2x16
  slices_S2048x64x2x16_S2048x64x1x16_0_0_0_0 : S2048x64x2x16.Slices ![0, 0, 0, 0] S2048x64x1x16
  shapeCasts_S2048x64x1x16_S2048x64x16 : S2048x64x1x16.ShapeCasts S2048x64x16
  slices_S2048x64x2x16_S2048x64x1x16_0_0_1_0 : S2048x64x2x16.Slices ![0, 0, 1, 0] S2048x64x1x16
  bcast_S2048x64x16_S2048x64x1x16_0_1_3 : S2048x64x16.BroadcastsInDim S2048x64x1x16 (![0, 1, 3] : Fin 3 → Fin S2048x64x1x16.rank)
  concatenates_S2048x64x1x16_S2048x64x1x16_S2048x64x2x16_d2 : Shape.Concatenates [S2048x64x1x16, S2048x64x1x16] S2048x64x2x16 2
  shapeCasts_S2048x64x2x16_S2048x64x32 : S2048x64x2x16.ShapeCasts S2048x64x32
  shapeCasts_S2048x64x32_S2048x32x2x32 : S2048x64x32.ShapeCasts S2048x32x2x32
  slices_S2048x32x2x32_S2048x32x1x32_0_0_0_0 : S2048x32x2x32.Slices ![0, 0, 0, 0] S2048x32x1x32
  shapeCasts_S2048x32x1x32_S2048x32x32 : S2048x32x1x32.ShapeCasts S2048x32x32
  slices_S2048x32x2x32_S2048x32x1x32_0_0_1_0 : S2048x32x2x32.Slices ![0, 0, 1, 0] S2048x32x1x32
  bcast_S2048x32x32_S2048x32x1x32_0_1_3 : S2048x32x32.BroadcastsInDim S2048x32x1x32 (![0, 1, 3] : Fin 3 → Fin S2048x32x1x32.rank)
  concatenates_S2048x32x1x32_S2048x32x1x32_S2048x32x2x32_d2 : Shape.Concatenates [S2048x32x1x32, S2048x32x1x32] S2048x32x2x32 2
  shapeCasts_S2048x32x2x32_S2048x32x64 : S2048x32x2x32.ShapeCasts S2048x32x64
  shapeCasts_S2048x32x64_S2048x16x2x64 : S2048x32x64.ShapeCasts S2048x16x2x64
  slices_S2048x16x2x64_S2048x16x1x64_0_0_0_0 : S2048x16x2x64.Slices ![0, 0, 0, 0] S2048x16x1x64
  shapeCasts_S2048x16x1x64_S2048x16x64 : S2048x16x1x64.ShapeCasts S2048x16x64
  slices_S2048x16x2x64_S2048x16x1x64_0_0_1_0 : S2048x16x2x64.Slices ![0, 0, 1, 0] S2048x16x1x64
  bcast_S2048x16x64_S2048x16x1x64_0_1_3 : S2048x16x64.BroadcastsInDim S2048x16x1x64 (![0, 1, 3] : Fin 3 → Fin S2048x16x1x64.rank)
  concatenates_S2048x16x1x64_S2048x16x1x64_S2048x16x2x64_d2 : Shape.Concatenates [S2048x16x1x64, S2048x16x1x64] S2048x16x2x64 2
  shapeCasts_S2048x16x2x64_S2048x16x128 : S2048x16x2x64.ShapeCasts S2048x16x128
  shapeCasts_S2048x16x128_S2048x8x2x128 : S2048x16x128.ShapeCasts S2048x8x2x128
  slices_S2048x8x2x128_S2048x8x1x128_0_0_0_0 : S2048x8x2x128.Slices ![0, 0, 0, 0] S2048x8x1x128
  shapeCasts_S2048x8x1x128_S2048x8x128 : S2048x8x1x128.ShapeCasts S2048x8x128
  slices_S2048x8x2x128_S2048x8x1x128_0_0_1_0 : S2048x8x2x128.Slices ![0, 0, 1, 0] S2048x8x1x128
  bcast_S2048x8x128_S2048x8x1x128_0_1_3 : S2048x8x128.BroadcastsInDim S2048x8x1x128 (![0, 1, 3] : Fin 3 → Fin S2048x8x1x128.rank)
  concatenates_S2048x8x1x128_S2048x8x1x128_S2048x8x2x128_d2 : Shape.Concatenates [S2048x8x1x128, S2048x8x1x128] S2048x8x2x128 2
  shapeCasts_S2048x8x2x128_S2048x8x256 : S2048x8x2x128.ShapeCasts S2048x8x256
  shapeCasts_S2048x8x256_S2048x4x2x256 : S2048x8x256.ShapeCasts S2048x4x2x256
  slices_S2048x4x2x256_S2048x4x1x256_0_0_0_0 : S2048x4x2x256.Slices ![0, 0, 0, 0] S2048x4x1x256
  shapeCasts_S2048x4x1x256_S2048x4x256 : S2048x4x1x256.ShapeCasts S2048x4x256
  slices_S2048x4x2x256_S2048x4x1x256_0_0_1_0 : S2048x4x2x256.Slices ![0, 0, 1, 0] S2048x4x1x256
  bcast_S2048x4x256_S2048x4x1x256_0_1_3 : S2048x4x256.BroadcastsInDim S2048x4x1x256 (![0, 1, 3] : Fin 3 → Fin S2048x4x1x256.rank)
  concatenates_S2048x4x1x256_S2048x4x1x256_S2048x4x2x256_d2 : Shape.Concatenates [S2048x4x1x256, S2048x4x1x256] S2048x4x2x256 2
  shapeCasts_S2048x4x2x256_S2048x4x512 : S2048x4x2x256.ShapeCasts S2048x4x512
  shapeCasts_S2048x4x512_S2048x2x2x512 : S2048x4x512.ShapeCasts S2048x2x2x512
  slices_S2048x2x2x512_S2048x2x1x512_0_0_0_0 : S2048x2x2x512.Slices ![0, 0, 0, 0] S2048x2x1x512
  shapeCasts_S2048x2x1x512_S2048x2x512 : S2048x2x1x512.ShapeCasts S2048x2x512
  slices_S2048x2x2x512_S2048x2x1x512_0_0_1_0 : S2048x2x2x512.Slices ![0, 0, 1, 0] S2048x2x1x512
  bcast_S2048x2x512_S2048x2x1x512_0_1_3 : S2048x2x512.BroadcastsInDim S2048x2x1x512 (![0, 1, 3] : Fin 3 → Fin S2048x2x1x512.rank)
  concatenates_S2048x2x1x512_S2048x2x1x512_S2048x2x2x512_d2 : Shape.Concatenates [S2048x2x1x512, S2048x2x1x512] S2048x2x2x512 2
  shapeCasts_S2048x2x2x512_S2048x2x1024 : S2048x2x2x512.ShapeCasts S2048x2x1024
  shapeCasts_S2048x2x1024_S2048x1x2x1024 : S2048x2x1024.ShapeCasts S2048x1x2x1024
  slices_S2048x1x2x1024_S2048x1x1x1024_0_0_0_0 : S2048x1x2x1024.Slices ![0, 0, 0, 0] S2048x1x1x1024
  shapeCasts_S2048x1x1x1024_S2048x1x1024 : S2048x1x1x1024.ShapeCasts S2048x1x1024
  slices_S2048x1x2x1024_S2048x1x1x1024_0_0_1_0 : S2048x1x2x1024.Slices ![0, 0, 1, 0] S2048x1x1x1024
  bcast_S2048x1x1024_S2048x1x1x1024_0_1_3 : S2048x1x1024.BroadcastsInDim S2048x1x1x1024 (![0, 1, 3] : Fin 3 → Fin S2048x1x1x1024.rank)
  concatenates_S2048x1x1x1024_S2048x1x1x1024_S2048x1x2x1024_d2 : Shape.Concatenates [S2048x1x1x1024, S2048x1x1x1024] S2048x1x2x1024 2
  shapeCasts_S2048x1x2x1024_S2048x1x2048 : S2048x1x2x1024.ShapeCasts S2048x1x2048
  shapeCasts_S2048x1x2048_S2048x2048 : S2048x1x2048.ShapeCasts S2048x2048
  transposes_S2048x2048_S2048x2048_1_0 : S2048x2048.Transposes [1, 0] S2048x2048
  bcast_S_S1x2048 : S_.BroadcastsInDim S1x2048 (![] : Fin 0 → Fin S1x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4x4096x2048_S16384x2048 : S4x4096x2048.ShapeCasts S16384x2048
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x2048_S1024x2048 : S1x2048.Broadcasts S1024x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .bf16 = 32 ∨ (Rect.block (s := S16384x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x2048.size a
  hwx1_3 : ∀ i : grid1.Coords, EltTy.bits .f32 = 32 ∨ (Rect.block (s := S16384x2048) S1024x2048.size (cc1_transform_3 i) (hinb1_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_v133) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v134) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v132) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v135) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v137) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v139) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v138) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v140) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S16384x2048x1 : Shape := ⟨3, ![16384, 2048, 1]⟩
abbrev S16384x1024x2x1 : Shape := ⟨4, ![16384, 1024, 2, 1]⟩
abbrev S16384x1024x1x1 : Shape := ⟨4, ![16384, 1024, 1, 1]⟩
abbrev S16384x1024x1 : Shape := ⟨3, ![16384, 1024, 1]⟩
abbrev S16384x1024x2 : Shape := ⟨3, ![16384, 1024, 2]⟩
abbrev S16384x512x2x2 : Shape := ⟨4, ![16384, 512, 2, 2]⟩
abbrev S16384x512x1x2 : Shape := ⟨4, ![16384, 512, 1, 2]⟩
abbrev S16384x512x2 : Shape := ⟨3, ![16384, 512, 2]⟩
abbrev S16384x512x4 : Shape := ⟨3, ![16384, 512, 4]⟩
abbrev S16384x256x2x4 : Shape := ⟨4, ![16384, 256, 2, 4]⟩
abbrev S16384x256x1x4 : Shape := ⟨4, ![16384, 256, 1, 4]⟩
abbrev S16384x256x4 : Shape := ⟨3, ![16384, 256, 4]⟩
abbrev S16384x256x8 : Shape := ⟨3, ![16384, 256, 8]⟩
abbrev S16384x128x2x8 : Shape := ⟨4, ![16384, 128, 2, 8]⟩
abbrev S16384x128x1x8 : Shape := ⟨4, ![16384, 128, 1, 8]⟩
abbrev S16384x128x8 : Shape := ⟨3, ![16384, 128, 8]⟩
abbrev S16384x128x16 : Shape := ⟨3, ![16384, 128, 16]⟩
abbrev S16384x64x2x16 : Shape := ⟨4, ![16384, 64, 2, 16]⟩
abbrev S16384x64x1x16 : Shape := ⟨4, ![16384, 64, 1, 16]⟩
abbrev S16384x64x16 : Shape := ⟨3, ![16384, 64, 16]⟩
abbrev S16384x64x32 : Shape := ⟨3, ![16384, 64, 32]⟩
abbrev S16384x32x2x32 : Shape := ⟨4, ![16384, 32, 2, 32]⟩
abbrev S16384x32x1x32 : Shape := ⟨4, ![16384, 32, 1, 32]⟩
abbrev S16384x32x32 : Shape := ⟨3, ![16384, 32, 32]⟩
abbrev S16384x32x64 : Shape := ⟨3, ![16384, 32, 64]⟩
abbrev S16384x16x2x64 : Shape := ⟨4, ![16384, 16, 2, 64]⟩
abbrev S16384x16x1x64 : Shape := ⟨4, ![16384, 16, 1, 64]⟩
abbrev S16384x16x64 : Shape := ⟨3, ![16384, 16, 64]⟩
abbrev S16384x16x128 : Shape := ⟨3, ![16384, 16, 128]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S16384x8x256 : Shape := ⟨3, ![16384, 8, 256]⟩
abbrev S16384x4x2x256 : Shape := ⟨4, ![16384, 4, 2, 256]⟩
abbrev S16384x4x1x256 : Shape := ⟨4, ![16384, 4, 1, 256]⟩
abbrev S16384x4x256 : Shape := ⟨3, ![16384, 4, 256]⟩
abbrev S16384x4x512 : Shape := ⟨3, ![16384, 4, 512]⟩
abbrev S16384x2x2x512 : Shape := ⟨4, ![16384, 2, 2, 512]⟩
abbrev S16384x2x1x512 : Shape := ⟨4, ![16384, 2, 1, 512]⟩
abbrev S16384x2x512 : Shape := ⟨3, ![16384, 2, 512]⟩
abbrev S16384x2x1024 : Shape := ⟨3, ![16384, 2, 1024]⟩
abbrev S16384x1x2x1024 : Shape := ⟨4, ![16384, 1, 2, 1024]⟩
abbrev S16384x1x1x1024 : Shape := ⟨4, ![16384, 1, 1, 1024]⟩
abbrev S16384x1x1024 : Shape := ⟨3, ![16384, 1, 1024]⟩
abbrev S16384x1x2048 : Shape := ⟨3, ![16384, 1, 2048]⟩
abbrev S_ : Shape := ⟨0, ![]⟩
abbrev S1x1x2048 : Shape := ⟨3, ![1, 1, 2048]⟩

abbrev nBuf : Space → Nat
  | .hbm => 133
  | .vmem => 0
  | .smem => 0
  | _ => 0

abbrev hbmTy0_0 (i : Nat) : BufTy := match i % 128 with
  | 0 => ⟨S4x4096x2048, .f32⟩
  | 1 => ⟨S2048x2048, .f32⟩
  | 2 => ⟨S2048, .f32⟩
  | 3 => ⟨S16384x2048x1, .f32⟩
  | 4 => ⟨S16384x1024x2x1, .f32⟩
  | 5 => ⟨S16384x1024x1x1, .f32⟩
  | 6 => ⟨S16384x1024x1, .f32⟩
  | 7 => ⟨S16384x1024x1x1, .f32⟩
  | 8 => ⟨S16384x1024x1, .f32⟩
  | 9 => ⟨S16384x1024x1, .f32⟩
  | 10 => ⟨S16384x1024x1, .f32⟩
  | 11 => ⟨S16384x1024x1x1, .f32⟩
  | 12 => ⟨S16384x1024x1x1, .f32⟩
  | 13 => ⟨S16384x1024x2x1, .f32⟩
  | 14 => ⟨S16384x1024x2, .f32⟩
  | 15 => ⟨S16384x512x2x2, .f32⟩
  | 16 => ⟨S16384x512x1x2, .f32⟩
  | 17 => ⟨S16384x512x2, .f32⟩
  | 18 => ⟨S16384x512x1x2, .f32⟩
  | 19 => ⟨S16384x512x2, .f32⟩
  | 20 => ⟨S16384x512x2, .f32⟩
  | 21 => ⟨S16384x512x2, .f32⟩
  | 22 => ⟨S16384x512x1x2, .f32⟩
  | 23 => ⟨S16384x512x1x2, .f32⟩
  | 24 => ⟨S16384x512x2x2, .f32⟩
  | 25 => ⟨S16384x512x4, .f32⟩
  | 26 => ⟨S16384x256x2x4, .f32⟩
  | 27 => ⟨S16384x256x1x4, .f32⟩
  | 28 => ⟨S16384x256x4, .f32⟩
  | 29 => ⟨S16384x256x1x4, .f32⟩
  | 30 => ⟨S16384x256x4, .f32⟩
  | 31 => ⟨S16384x256x4, .f32⟩
  | 32 => ⟨S16384x256x4, .f32⟩
  | 33 => ⟨S16384x256x1x4, .f32⟩
  | 34 => ⟨S16384x256x1x4, .f32⟩
  | 35 => ⟨S16384x256x2x4, .f32⟩
  | 36 => ⟨S16384x256x8, .f32⟩
  | 37 => ⟨S16384x128x2x8, .f32⟩
  | 38 => ⟨S16384x128x1x8, .f32⟩
  | 39 => ⟨S16384x128x8, .f32⟩
  | 40 => ⟨S16384x128x1x8, .f32⟩
  | 41 => ⟨S16384x128x8, .f32⟩
  | 42 => ⟨S16384x128x8, .f32⟩
  | 43 => ⟨S16384x128x8, .f32⟩
  | 44 => ⟨S16384x128x1x8, .f32⟩
  | 45 => ⟨S16384x128x1x8, .f32⟩
  | 46 => ⟨S16384x128x2x8, .f32⟩
  | 47 => ⟨S16384x128x16, .f32⟩
  | 48 => ⟨S16384x64x2x16, .f32⟩
  | 49 => ⟨S16384x64x1x16, .f32⟩
  | 50 => ⟨S16384x64x16, .f32⟩
  | 51 => ⟨S16384x64x1x16, .f32⟩
  | 52 => ⟨S16384x64x16, .f32⟩
  | 53 => ⟨S16384x64x16, .f32⟩
  | 54 => ⟨S16384x64x16, .f32⟩
  | 55 => ⟨S16384x64x1x16, .f32⟩
  | 56 => ⟨S16384x64x1x16, .f32⟩
  | 57 => ⟨S16384x64x2x16, .f32⟩
  | 58 => ⟨S16384x64x32, .f32⟩
  | 59 => ⟨S16384x32x2x32, .f32⟩
  | 60 => ⟨S16384x32x1x32, .f32⟩
  | 61 => ⟨S16384x32x32, .f32⟩
  | 62 => ⟨S16384x32x1x32, .f32⟩
  | 63 => ⟨S16384x32x32, .f32⟩
  | 64 => ⟨S16384x32x32, .f32⟩
  | 65 => ⟨S16384x32x32, .f32⟩
  | 66 => ⟨S16384x32x1x32, .f32⟩
  | 67 => ⟨S16384x32x1x32, .f32⟩
  | 68 => ⟨S16384x32x2x32, .f32⟩
  | 69 => ⟨S16384x32x64, .f32⟩
  | 70 => ⟨S16384x16x2x64, .f32⟩
  | 71 => ⟨S16384x16x1x64, .f32⟩
  | 72 => ⟨S16384x16x64, .f32⟩
  | 73 => ⟨S16384x16x1x64, .f32⟩
  | 74 => ⟨S16384x16x64, .f32⟩
  | 75 => ⟨S16384x16x64, .f32⟩
  | 76 => ⟨S16384x16x64, .f32⟩
  | 77 => ⟨S16384x16x1x64, .f32⟩
  | 78 => ⟨S16384x16x1x64, .f32⟩
  | 79 => ⟨S16384x16x2x64, .f32⟩
  | 80 => ⟨S16384x16x128, .f32⟩
  | 81 => ⟨S16384x8x2x128, .f32⟩
  | 82 => ⟨S16384x8x1x128, .f32⟩
  | 83 => ⟨S16384x8x128, .f32⟩
  | 84 => ⟨S16384x8x1x128, .f32⟩
  | 85 => ⟨S16384x8x128, .f32⟩
  | 86 => ⟨S16384x8x128, .f32⟩
  | 87 => ⟨S16384x8x128, .f32⟩
  | 88 => ⟨S16384x8x1x128, .f32⟩
  | 89 => ⟨S16384x8x1x128, .f32⟩
  | 90 => ⟨S16384x8x2x128, .f32⟩
  | 91 => ⟨S16384x8x256, .f32⟩
  | 92 => ⟨S16384x4x2x256, .f32⟩
  | 93 => ⟨S16384x4x1x256, .f32⟩
  | 94 => ⟨S16384x4x256, .f32⟩
  | 95 => ⟨S16384x4x1x256, .f32⟩
  | 96 => ⟨S16384x4x256, .f32⟩
  | 97 => ⟨S16384x4x256, .f32⟩
  | 98 => ⟨S16384x4x256, .f32⟩
  | 99 => ⟨S16384x4x1x256, .f32⟩
  | 100 => ⟨S16384x4x1x256, .f32⟩
  | 101 => ⟨S16384x4x2x256, .f32⟩
  | 102 => ⟨S16384x4x512, .f32⟩
  | 103 => ⟨S16384x2x2x512, .f32⟩
  | 104 => ⟨S16384x2x1x512, .f32⟩
  | 105 => ⟨S16384x2x512, .f32⟩
  | 106 => ⟨S16384x2x1x512, .f32⟩
  | 107 => ⟨S16384x2x512, .f32⟩
  | 108 => ⟨S16384x2x512, .f32⟩
  | 109 => ⟨S16384x2x512, .f32⟩
  | 110 => ⟨S16384x2x1x512, .f32⟩
  | 111 => ⟨S16384x2x1x512, .f32⟩
  | 112 => ⟨S16384x2x2x512, .f32⟩
  | 113 => ⟨S16384x2x1024, .f32⟩
  | 114 => ⟨S16384x1x2x1024, .f32⟩
  | 115 => ⟨S16384x1x1x1024, .f32⟩
  | 116 => ⟨S16384x1x1024, .f32⟩
  | 117 => ⟨S16384x1x1x1024, .f32⟩
  | 118 => ⟨S16384x1x1024, .f32⟩
  | 119 => ⟨S16384x1x1024, .f32⟩
  | 120 => ⟨S16384x1x1024, .f32⟩
  | 121 => ⟨S16384x1x1x1024, .f32⟩
  | 122 => ⟨S16384x1x1x1024, .f32⟩
  | 123 => ⟨S16384x1x2x1024, .f32⟩
  | 124 => ⟨S16384x1x2048, .f32⟩
  | 125 => ⟨S4x4096x2048, .f32⟩
  | 126 => ⟨S_, .f32⟩
  | 127 => ⟨S4x4096x2048, .f32⟩
  | _ => ⟨S4x4096x2048, .f32⟩

abbrev hbmTy0_1 (i : Nat) : BufTy := match i % 128 with
  | 0 => ⟨S4x4096x2048, .f32⟩
  | 1 => ⟨S4x4096x2048, .f32⟩
  | 2 => ⟨S1x1x2048, .f32⟩
  | 3 => ⟨S4x4096x2048, .f32⟩
  | 4 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_cst : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩

abbrev nD : Nat := 1
abbrev τ : Topo := Topo.v7x

variable {F : FTy → Type} [FloatOps F]

class Facts₀ : Prop where
  shapeCasts_S4x4096x2048_S16384x2048x1 : S4x4096x2048.ShapeCasts S16384x2048x1
  shapeCasts_S16384x2048x1_S16384x1024x2x1 : S16384x2048x1.ShapeCasts S16384x1024x2x1
  slices_S16384x1024x2x1_S16384x1024x1x1_0_0_0_0 : S16384x1024x2x1.Slices ![0, 0, 0, 0] S16384x1024x1x1
  shapeCasts_S16384x1024x1x1_S16384x1024x1 : S16384x1024x1x1.ShapeCasts S16384x1024x1
  slices_S16384x1024x2x1_S16384x1024x1x1_0_0_1_0 : S16384x1024x2x1.Slices ![0, 0, 1, 0] S16384x1024x1x1
  bcast_S16384x1024x1_S16384x1024x1x1_0_1_3 : S16384x1024x1.BroadcastsInDim S16384x1024x1x1 (![0, 1, 3] : Fin 3 → Fin S16384x1024x1x1.rank)
  concatenates_S16384x1024x1x1_S16384x1024x1x1_S16384x1024x2x1_d2 : Shape.Concatenates [S16384x1024x1x1, S16384x1024x1x1] S16384x1024x2x1 2
  shapeCasts_S16384x1024x2x1_S16384x1024x2 : S16384x1024x2x1.ShapeCasts S16384x1024x2
  shapeCasts_S16384x1024x2_S16384x512x2x2 : S16384x1024x2.ShapeCasts S16384x512x2x2
  slices_S16384x512x2x2_S16384x512x1x2_0_0_0_0 : S16384x512x2x2.Slices ![0, 0, 0, 0] S16384x512x1x2
  shapeCasts_S16384x512x1x2_S16384x512x2 : S16384x512x1x2.ShapeCasts S16384x512x2
  slices_S16384x512x2x2_S16384x512x1x2_0_0_1_0 : S16384x512x2x2.Slices ![0, 0, 1, 0] S16384x512x1x2
  bcast_S16384x512x2_S16384x512x1x2_0_1_3 : S16384x512x2.BroadcastsInDim S16384x512x1x2 (![0, 1, 3] : Fin 3 → Fin S16384x512x1x2.rank)
  concatenates_S16384x512x1x2_S16384x512x1x2_S16384x512x2x2_d2 : Shape.Concatenates [S16384x512x1x2, S16384x512x1x2] S16384x512x2x2 2
  shapeCasts_S16384x512x2x2_S16384x512x4 : S16384x512x2x2.ShapeCasts S16384x512x4
  shapeCasts_S16384x512x4_S16384x256x2x4 : S16384x512x4.ShapeCasts S16384x256x2x4
  slices_S16384x256x2x4_S16384x256x1x4_0_0_0_0 : S16384x256x2x4.Slices ![0, 0, 0, 0] S16384x256x1x4
  shapeCasts_S16384x256x1x4_S16384x256x4 : S16384x256x1x4.ShapeCasts S16384x256x4
  slices_S16384x256x2x4_S16384x256x1x4_0_0_1_0 : S16384x256x2x4.Slices ![0, 0, 1, 0] S16384x256x1x4
  bcast_S16384x256x4_S16384x256x1x4_0_1_3 : S16384x256x4.BroadcastsInDim S16384x256x1x4 (![0, 1, 3] : Fin 3 → Fin S16384x256x1x4.rank)
  concatenates_S16384x256x1x4_S16384x256x1x4_S16384x256x2x4_d2 : Shape.Concatenates [S16384x256x1x4, S16384x256x1x4] S16384x256x2x4 2
  shapeCasts_S16384x256x2x4_S16384x256x8 : S16384x256x2x4.ShapeCasts S16384x256x8
  shapeCasts_S16384x256x8_S16384x128x2x8 : S16384x256x8.ShapeCasts S16384x128x2x8
  slices_S16384x128x2x8_S16384x128x1x8_0_0_0_0 : S16384x128x2x8.Slices ![0, 0, 0, 0] S16384x128x1x8
  shapeCasts_S16384x128x1x8_S16384x128x8 : S16384x128x1x8.ShapeCasts S16384x128x8
  slices_S16384x128x2x8_S16384x128x1x8_0_0_1_0 : S16384x128x2x8.Slices ![0, 0, 1, 0] S16384x128x1x8
  bcast_S16384x128x8_S16384x128x1x8_0_1_3 : S16384x128x8.BroadcastsInDim S16384x128x1x8 (![0, 1, 3] : Fin 3 → Fin S16384x128x1x8.rank)
  concatenates_S16384x128x1x8_S16384x128x1x8_S16384x128x2x8_d2 : Shape.Concatenates [S16384x128x1x8, S16384x128x1x8] S16384x128x2x8 2
  shapeCasts_S16384x128x2x8_S16384x128x16 : S16384x128x2x8.ShapeCasts S16384x128x16
  shapeCasts_S16384x128x16_S16384x64x2x16 : S16384x128x16.ShapeCasts S16384x64x2x16
  slices_S16384x64x2x16_S16384x64x1x16_0_0_0_0 : S16384x64x2x16.Slices ![0, 0, 0, 0] S16384x64x1x16
  shapeCasts_S16384x64x1x16_S16384x64x16 : S16384x64x1x16.ShapeCasts S16384x64x16
  slices_S16384x64x2x16_S16384x64x1x16_0_0_1_0 : S16384x64x2x16.Slices ![0, 0, 1, 0] S16384x64x1x16
  bcast_S16384x64x16_S16384x64x1x16_0_1_3 : S16384x64x16.BroadcastsInDim S16384x64x1x16 (![0, 1, 3] : Fin 3 → Fin S16384x64x1x16.rank)
  concatenates_S16384x64x1x16_S16384x64x1x16_S16384x64x2x16_d2 : Shape.Concatenates [S16384x64x1x16, S16384x64x1x16] S16384x64x2x16 2
  shapeCasts_S16384x64x2x16_S16384x64x32 : S16384x64x2x16.ShapeCasts S16384x64x32
  shapeCasts_S16384x64x32_S16384x32x2x32 : S16384x64x32.ShapeCasts S16384x32x2x32
  slices_S16384x32x2x32_S16384x32x1x32_0_0_0_0 : S16384x32x2x32.Slices ![0, 0, 0, 0] S16384x32x1x32
  shapeCasts_S16384x32x1x32_S16384x32x32 : S16384x32x1x32.ShapeCasts S16384x32x32
  slices_S16384x32x2x32_S16384x32x1x32_0_0_1_0 : S16384x32x2x32.Slices ![0, 0, 1, 0] S16384x32x1x32
  bcast_S16384x32x32_S16384x32x1x32_0_1_3 : S16384x32x32.BroadcastsInDim S16384x32x1x32 (![0, 1, 3] : Fin 3 → Fin S16384x32x1x32.rank)
  concatenates_S16384x32x1x32_S16384x32x1x32_S16384x32x2x32_d2 : Shape.Concatenates [S16384x32x1x32, S16384x32x1x32] S16384x32x2x32 2
  shapeCasts_S16384x32x2x32_S16384x32x64 : S16384x32x2x32.ShapeCasts S16384x32x64
  shapeCasts_S16384x32x64_S16384x16x2x64 : S16384x32x64.ShapeCasts S16384x16x2x64
  slices_S16384x16x2x64_S16384x16x1x64_0_0_0_0 : S16384x16x2x64.Slices ![0, 0, 0, 0] S16384x16x1x64
  shapeCasts_S16384x16x1x64_S16384x16x64 : S16384x16x1x64.ShapeCasts S16384x16x64
  slices_S16384x16x2x64_S16384x16x1x64_0_0_1_0 : S16384x16x2x64.Slices ![0, 0, 1, 0] S16384x16x1x64
  bcast_S16384x16x64_S16384x16x1x64_0_1_3 : S16384x16x64.BroadcastsInDim S16384x16x1x64 (![0, 1, 3] : Fin 3 → Fin S16384x16x1x64.rank)
  concatenates_S16384x16x1x64_S16384x16x1x64_S16384x16x2x64_d2 : Shape.Concatenates [S16384x16x1x64, S16384x16x1x64] S16384x16x2x64 2
  shapeCasts_S16384x16x2x64_S16384x16x128 : S16384x16x2x64.ShapeCasts S16384x16x128
  shapeCasts_S16384x16x128_S16384x8x2x128 : S16384x16x128.ShapeCasts S16384x8x2x128
  slices_S16384x8x2x128_S16384x8x1x128_0_0_0_0 : S16384x8x2x128.Slices ![0, 0, 0, 0] S16384x8x1x128
  shapeCasts_S16384x8x1x128_S16384x8x128 : S16384x8x1x128.ShapeCasts S16384x8x128
  slices_S16384x8x2x128_S16384x8x1x128_0_0_1_0 : S16384x8x2x128.Slices ![0, 0, 1, 0] S16384x8x1x128
  bcast_S16384x8x128_S16384x8x1x128_0_1_3 : S16384x8x128.BroadcastsInDim S16384x8x1x128 (![0, 1, 3] : Fin 3 → Fin S16384x8x1x128.rank)
  concatenates_S16384x8x1x128_S16384x8x1x128_S16384x8x2x128_d2 : Shape.Concatenates [S16384x8x1x128, S16384x8x1x128] S16384x8x2x128 2
  shapeCasts_S16384x8x2x128_S16384x8x256 : S16384x8x2x128.ShapeCasts S16384x8x256
  shapeCasts_S16384x8x256_S16384x4x2x256 : S16384x8x256.ShapeCasts S16384x4x2x256
  slices_S16384x4x2x256_S16384x4x1x256_0_0_0_0 : S16384x4x2x256.Slices ![0, 0, 0, 0] S16384x4x1x256
  shapeCasts_S16384x4x1x256_S16384x4x256 : S16384x4x1x256.ShapeCasts S16384x4x256
  slices_S16384x4x2x256_S16384x4x1x256_0_0_1_0 : S16384x4x2x256.Slices ![0, 0, 1, 0] S16384x4x1x256
  bcast_S16384x4x256_S16384x4x1x256_0_1_3 : S16384x4x256.BroadcastsInDim S16384x4x1x256 (![0, 1, 3] : Fin 3 → Fin S16384x4x1x256.rank)
  concatenates_S16384x4x1x256_S16384x4x1x256_S16384x4x2x256_d2 : Shape.Concatenates [S16384x4x1x256, S16384x4x1x256] S16384x4x2x256 2
  shapeCasts_S16384x4x2x256_S16384x4x512 : S16384x4x2x256.ShapeCasts S16384x4x512
  shapeCasts_S16384x4x512_S16384x2x2x512 : S16384x4x512.ShapeCasts S16384x2x2x512
  slices_S16384x2x2x512_S16384x2x1x512_0_0_0_0 : S16384x2x2x512.Slices ![0, 0, 0, 0] S16384x2x1x512
  shapeCasts_S16384x2x1x512_S16384x2x512 : S16384x2x1x512.ShapeCasts S16384x2x512
  slices_S16384x2x2x512_S16384x2x1x512_0_0_1_0 : S16384x2x2x512.Slices ![0, 0, 1, 0] S16384x2x1x512
  bcast_S16384x2x512_S16384x2x1x512_0_1_3 : S16384x2x512.BroadcastsInDim S16384x2x1x512 (![0, 1, 3] : Fin 3 → Fin S16384x2x1x512.rank)
  concatenates_S16384x2x1x512_S16384x2x1x512_S16384x2x2x512_d2 : Shape.Concatenates [S16384x2x1x512, S16384x2x1x512] S16384x2x2x512 2
  shapeCasts_S16384x2x2x512_S16384x2x1024 : S16384x2x2x512.ShapeCasts S16384x2x1024
  shapeCasts_S16384x2x1024_S16384x1x2x1024 : S16384x2x1024.ShapeCasts S16384x1x2x1024
  slices_S16384x1x2x1024_S16384x1x1x1024_0_0_0_0 : S16384x1x2x1024.Slices ![0, 0, 0, 0] S16384x1x1x1024
  shapeCasts_S16384x1x1x1024_S16384x1x1024 : S16384x1x1x1024.ShapeCasts S16384x1x1024
  slices_S16384x1x2x1024_S16384x1x1x1024_0_0_1_0 : S16384x1x2x1024.Slices ![0, 0, 1, 0] S16384x1x1x1024
  bcast_S16384x1x1024_S16384x1x1x1024_0_1_3 : S16384x1x1024.BroadcastsInDim S16384x1x1x1024 (![0, 1, 3] : Fin 3 → Fin S16384x1x1x1024.rank)
  concatenates_S16384x1x1x1024_S16384x1x1x1024_S16384x1x2x1024_d2 : Shape.Concatenates [S16384x1x1x1024, S16384x1x1x1024] S16384x1x2x1024 2
  shapeCasts_S16384x1x2x1024_S16384x1x2048 : S16384x1x2x1024.ShapeCasts S16384x1x2048
  shapeCasts_S16384x1x2048_S4x4096x2048 : S16384x1x2048.ShapeCasts S4x4096x2048
  bcast_S_S4x4096x2048 : S_.BroadcastsInDim S4x4096x2048 (![] : Fin 0 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.KernelRun.lean ====
/-
  The idealized kernel's run with its RESULT named. @main is five segments: the host operations that build the two
  matrix operands, the first matrix product, the host operations between the products, the second product, and the final
  reshape. The contents of every buffer at each boundary are a fold through the segments (`W1` … `W5` of the generated
  frame module); here the run is stated with the result array at the last boundary's contents, beside the unchanged arguments.
-/
import proofs.«124037_j57294863729375_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the fold
    through the five segments gives it, and the three argument arrays as launched. -/
theorem run : θ_run defs (onTc (τ := τ) (main (F := F))) ⟨m, fun _ => 0, ρ⟩ (fun r => ∀ c : Dev nD,
      r.2.mem ((c.tc : Thread nD τ).loc main_v141) = W5 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v141 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelPayload.lean ====
/-
  What each of the two kernel bodies computes, index by index, at the exact values: the body multiplies its row block
  `a : [M, 2048]` by the whole matrix `b : [2048, 2048]` into a zero accumulator and adds the bias row `β : [1, 2048]`
  to every row, so the entry at row `p`, column `q` is `∑ k, a (p, k) * b (k, q) + β (0, q)`.
-/
import proofs.«124037_j57294863729375_1_alg».proof.Proof.Gen.KernelIdeal.Skeleton
import proofs.«124037_j57294863729375_1_alg».proof.Proof.LibDotRow
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The bias row broadcast to `M` rows reads the row's entry of the column. -/
theorem bias_apply {M : ℕ} (β : (⟨2, ![1, 2048]⟩ : Shape).Idx → EReal) (h : (⟨2, ![1, 2048]⟩ : Shape).Broadcasts ⟨2, ![M, 2048]⟩)
    (p : Fin M) (q : Fin 2048) : broadcastTo (⟨2, ![M, 2048]⟩ : Shape) β h (ix2 p q) = β (ix2 0 q) := by
  refine broadcastTo_apply β h (ix2 p q) (ix2 0 q) fun a => ?_
  match a with
  | ⟨0, _⟩ => rfl
  | ⟨1, _⟩ => rfl

/-- The first product's body at an index. -/
theorem pay0_apply (x0 : Vec Ideal S512x2048 .bf16) (x1 : Vec Ideal S2048x2048 .bf16) (x2 : Vec Ideal S1x2048 .f32)
    (p : Fin 512) (q : Fin 2048) :
    k0_pay1 (F := Ideal) x0 x1 x2 (ix2 p q) = (∑ k : Fin 2048, x0 (ix2 p k) * x1 (ix2 k q)) + x2 (ix2 0 q) := by
  unfold k0_pay1
  rw [shapeCast_self, shapeCast_self, shapeCast_self]
  show FloatOps.matmul (F := Ideal) dot_S512x2048_S2048x2048_S512x2048_1_0_0_1_n_n none x0 x1
      (constant (F := Ideal) S512x2048 .f32 0x00000000#32) (ix2 p q) + broadcastTo S512x2048 x2 broadcasts_S1x2048_S512x2048 (ix2 p q) = _
  rw [Ideal.matmul_constant_zero_apply, bias_apply]
  exact congrArg (· + x2 (ix2 0 q))
    (DotRow.sum_contr dot_S512x2048_S2048x2048_S512x2048_1_0_0_1_n_n rfl rfl rfl rfl (fun _ _ => rfl) (fun _ _ => rfl) x0 x1 p q)

/-- The second product's body at an index. -/
theorem pay1_apply (x0 : Vec Ideal S1024x2048 .bf16) (x1 : Vec Ideal S2048x2048 .bf16) (x2 : Vec Ideal S1x2048 .f32)
    (p : Fin 1024) (q : Fin 2048) :
    k1_pay1 (F := Ideal) x0 x1 x2 (ix2 p q) = (∑ k : Fin 2048, x0 (ix2 p k) * x1 (ix2 k q)) + x2 (ix2 0 q) := by
  unfold k1_pay1
  rw [shapeCast_self, shapeCast_self, shapeCast_self]
  show FloatOps.matmul (F := Ideal) dot_S1024x2048_S2048x2048_S1024x2048_1_0_0_1_n_n none x0 x1
      (constant (F := Ideal) S1024x2048 .f32 0x00000000#32) (ix2 p q) + broadcastTo S1024x2048 x2 broadcasts_S1x2048_S1024x2048 (ix2 p q) = _
  rw [Ideal.matmul_constant_zero_apply, bias_apply]
  exact congrArg (· + x2 (ix2 0 q))
    (DotRow.sum_contr dot_S1024x2048_S2048x2048_S1024x2048_1_0_0_1_n_n rfl rfl rfl rfl (fun _ _ => rfl) (fun _ _ => rfl) x0 x1 p q)

end Cert.KernelIdeal.Payload

end
-- ==== Proof.KernelFun.lean ====
/-
  The idealized kernel's result as a function of its arguments. `rowsTimes A B β` is rows times a matrix plus a bias row:
  entry (r, o) is `∑ k, A (r, k) * B (k, o) + β (0, o)`. The kernel computes the transformed, scaled identity matrix `K · σ`,
  multiplies it by the transposed weight (adding a zero row), multiplies the input, flattened to rows, by that product,
  adds the bias row, and reshapes.
-/
import proofs.«124037_j57294863729375_1_alg».proof.KernelIdeal
import proofs.«124037_j57294863729375_1_alg».proof.Proof.Gen.KernelIdeal
import Idealize.ShloMosaic.Lib.ValueIdx
import Idealize.ShloMosaic.PureOps.Ideal

noncomputable section

namespace Cert.KernelIdeal.RegionValue

open Cert.KernelIdeal Idealize.ShloMosaic Idealize.ShloMosaic.ValueIdx

/-- Rows times a matrix plus a bias row: entry (r, o) is `∑ k, A (r, k) * B (k, o) + β (0, o)`. -/
def rowsTimes {M : ℕ} (A : (⟨2, ![M, 2048]⟩ : Shape).Idx → EReal) (B : (⟨2, ![2048, 2048]⟩ : Shape).Idx → EReal)
    (β : (⟨2, ![1, 2048]⟩ : Shape).Idx → EReal) : (⟨2, ![M, 2048]⟩ : Shape).Idx → EReal :=
  fun i => (∑ k : Fin 2048, A (ix2 (i 0) k) * B (ix2 k (i 1))) + β (ix2 0 (i 1))

end Cert.KernelIdeal.RegionValue

namespace Cert.KernelIdeal.Result

open Cert.KernelIdeal Cert.KernelIdeal.Gen Idealize.ShloMosaic Cert.KernelIdeal.RegionValue

/-- The product of the two products, as a function of the arguments and of the transformed identity matrix `K`. -/
def kernelFun (x : S4x4096x2048.Idx → EReal) (w : S2048x2048.Idx → EReal) (b : S2048.Idx → EReal) (K : S2048x2048.Idx → EReal) :
    S4x4096x2048.Idx → EReal :=
  shapeCast S4x4096x2048
    (rowsTimes (M := 16384) (shapeCast S16384x2048 x shapeCasts_S4x4096x2048_S16384x2048)
      (rowsTimes (M := 2048)
        (mulf (F := Ideal) (φ := .f32) K (broadcastInDim S2048x2048 ![] bcast_S_S2048x2048 (constant (F := Ideal) S_ .f32 0x3CB504F3#32)))
        (transpose S2048x2048 [1, 0] w transposes_S2048x2048_S2048x2048_1_0)
        (broadcastInDim S1x2048 ![] bcast_S_S1x2048 (constant (F := Ideal) S_ .f32 0x00000000#32)))
      (shapeCast S1x2048 b shapeCasts_S2048_S1x2048))
    shapeCasts_S16384x2048_S4x4096x2048

end Cert.KernelIdeal.Result

end
-- ==== Proof.KernelRegions.lean ====
/-
  From blocks to arrays, for the two matrix products of the kernel. Each product runs over a grid of row blocks: point `t`
  multiplies rows `t * T … t * T + T - 1` of the left operand by the whole right operand, adds the bias row to each, and
  writes the block back to the same rows of the output. The blocks tile the output, so after the region the output array
  is ONE function of the three operand arrays: entry (r, o) is `∑ k, A (r, k) * B (k, o) + β (0, o)`.
-/
import proofs.«124037_j57294863729375_1_alg».proof.Proof.Gen.KernelIdeal.Frame
import proofs.«124037_j57294863729375_1_alg».proof.Proof.KernelPayload
import proofs.«124037_j57294863729375_1_alg».proof.Proof.KernelFun
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

theorem hz2 : (![0, 0] : Fin 2 → Nat) = fun _ => 0 := funext fun a => by fin_cases a <;> rfl

variable (V : (c : Dev nD) → (b : Ref sig .tc) → Buf (Elt Ideal) ((c : Thread nD τ).loc b))

/-! ## The first product: [2048, 2048] rows by the whole [2048, 2048] matrix, in 4 row blocks of 512 -/

section Region0

/-- What the first product's output array ends holding, as a function of its three operand arrays as the region finds them. -/
def G0 (c : Dev nD) : S2048x2048.Idx → EReal :=
  rowsTimes (M := 2048) (V c main_v133) (V c main_v134) (V c main_v132)

/-- The printed index maps over the grid: the left operand's row block and the output's row block are the grid point, every
    other block index is zero. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row block is some grid point's. -/
theorem idx_onto0 : ∀ q0 : Fin 4, ∃ t : Fin cfg0.N, win0_3.index t = ![q0.val, 0] :=
  (by decide +kernel : ∀ q0 : Fin 4, ∃ t : Fin grid0.N, win0_3.index t = ![q0.val, 0])

/-- What grid point `t` writes back is block `t` of `G0`: row `p` of the block is row `t * 512 + p` of the left operand, the
    right operand and the bias row are read whole. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts0 t
  funext j
  obtain ⟨p, q, rfl⟩ : ∃ (p : Fin 512) (q : Fin 2048), j = ix2 p q := ⟨j 0, j 1, eq_ix2 j⟩
  show k0_pay1 (F := Ideal) (iblk0 V c 0 t) (iblk0 V c 1 t) (iblk0 V c 2 t) (ix2 p q)
    = G0 V c (((cfg0.win 3).blk t).view.emb (ix2 p q))
  refine (Payload.pay0_apply (iblk0 V c 0 t) (iblk0 V c 1 t) (iblk0 V c 2 t) p q).trans ?_
  have hA : ∀ k : Fin 2048, iblk0 V c 0 t (ix2 p k)
      = V c main_v133 (ix2 ((((cfg0.win 3).blk t).view.emb (ix2 p q)) 0) k) := fun k => by
    show V c main_v133 (((cfg0.win 0).blk t).view.emb (ix2 p k)) = _
    refine congrArg _ (funext fun a => Fin.ext ?_)
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 2048 + 1 * k.val = k.val
      omega
  have hB : ∀ k : Fin 2048, iblk0 V c 1 t (ix2 k q)
      = V c main_v134 (ix2 k ((((cfg0.win 3).blk t).view.emb (ix2 p q)) 1)) := fun k => by
    show V c main_v134 (((cfg0.win 1).blk t).view.emb (ix2 k q)) = _
    refine congrArg _ (funext fun a => Fin.ext ?_)
    match a with
    | ⟨0, _⟩ =>
      show win0_1.index t (0 : Fin 2) * 2048 + 1 * k.val = k.val
      omega
    | ⟨1, _⟩ =>
      show win0_1.index t (1 : Fin 2) * 2048 + 1 * q.val = win0_3.index t (1 : Fin 2) * 2048 + 1 * q.val
      omega
  have hC : iblk0 V c 2 t (ix2 0 q)
      = V c main_v132 (ix2 0 ((((cfg0.win 3).blk t).view.emb (ix2 p q)) 1)) := by
    show V c main_v132 (((cfg0.win 2).blk t).view.emb (ix2 0 q)) = _
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 2048 + 1 * q.val = win0_3.index t (1 : Fin 2) * 2048 + 1 * q.val
      omega
  rw [hC, Finset.sum_congr rfl fun k _ => by rw [hA k, hB k]]
  rfl

/-- An index of the output array is in point `t`'s block iff its row is in the block's range. -/
theorem mem_blk0 (t : Fin cfg0.N) (i : S2048x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v135).slice (win0_3.rect t)).set ↔ _
  rw [View.set_slice_whole, Rect.mem_set_unit]
  exact Iff.rfl

/-- The row blocks tile the output array: row `r` is in the block of point `r / 512`. -/
theorem cover0 (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- The output array after the region: `G0` of the operand arrays as the region found them. -/
theorem final0 (c : Dev nD) : (dat0 V c).arrAt 3 cfg0.N = G0 V c :=
  (dat0 V c).arrAt_eq_of_cover 3 (G0 V c) (fun t _ => flushed0_eq V c t) (cover0)

end Region0

/-! ## The second product: [16384, 2048] rows by the whole [2048, 2048] matrix, in 16 row blocks of 1024 -/

section Region1

/-- What the second product's output array ends holding, as a function of its three operand arrays as the region finds them. -/
def G1 (c : Dev nD) : S16384x2048.Idx → EReal :=
  rowsTimes (M := 16384) (V c main_v137) (V c main_v139) (V c main_v138)

/-- The printed index maps over the grid: the left operand's row block and the output's row block are the grid point, every
    other block index is zero. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 15 :=
  (by decide +kernel : ∀ t : Fin grid1.N, _)

/-- Every row block is some grid point's. -/
theorem idx_onto1 : ∀ q0 : Fin 16, ∃ t : Fin cfg1.N, win1_3.index t = ![q0.val, 0] :=
  (by decide +kernel : ∀ q0 : Fin 16, ∃ t : Fin grid1.N, win1_3.index t = ![q0.val, 0])

/-- What grid point `t` writes back is block `t` of `G1`: row `p` of the block is row `t * 1024 + p` of the left operand, the
    right operand and the bias row are read whole. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S1024x2048) hz2, View.ld_unit_zero (S := S2048x2048) hz2, View.ld_unit_zero (S := S1x2048) hz2]
  obtain ⟨e0, e1, e2, e3, e4, e5, e6, e7⟩ := idx_facts1 t
  funext j
  obtain ⟨p, q, rfl⟩ : ∃ (p : Fin 1024) (q : Fin 2048), j = ix2 p q := ⟨j 0, j 1, eq_ix2 j⟩
  show k1_pay1 (F := Ideal) (iblk1 V c 0 t) (iblk1 V c 1 t) (iblk1 V c 2 t) (ix2 p q)
    = G1 V c (((cfg1.win 3).blk t).view.emb (ix2 p q))
  refine (Payload.pay1_apply (iblk1 V c 0 t) (iblk1 V c 1 t) (iblk1 V c 2 t) p q).trans ?_
  have hA : ∀ k : Fin 2048, iblk1 V c 0 t (ix2 p k)
      = V c main_v137 (ix2 ((((cfg1.win 3).blk t).view.emb (ix2 p q)) 0) k) := fun k => by
    show V c main_v137 (((cfg1.win 0).blk t).view.emb (ix2 p k)) = _
    refine congrArg _ (funext fun a => Fin.ext ?_)
    match a with
    | ⟨0, _⟩ =>
      show win1_0.index t (0 : Fin 2) * 1024 + 1 * p.val = win1_3.index t (0 : Fin 2) * 1024 + 1 * p.val
      omega
    | ⟨1, _⟩ =>
      show win1_0.index t (1 : Fin 2) * 2048 + 1 * k.val = k.val
      omega
  have hB : ∀ k : Fin 2048, iblk1 V c 1 t (ix2 k q)
      = V c main_v139 (ix2 k ((((cfg1.win 3).blk t).view.emb (ix2 p q)) 1)) := fun k => by
    show V c main_v139 (((cfg1.win 1).blk t).view.emb (ix2 k q)) = _
    refine congrArg _ (funext fun a => Fin.ext ?_)
    match a with
    | ⟨0, _⟩ =>
      show win1_1.index t (0 : Fin 2) * 2048 + 1 * k.val = k.val
      omega
    | ⟨1, _⟩ =>
      show win1_1.index t (1 : Fin 2) * 2048 + 1 * q.val = win1_3.index t (1 : Fin 2) * 2048 + 1 * q.val
      omega
  have hC : iblk1 V c 2 t (ix2 0 q)
      = V c main_v138 (ix2 0 ((((cfg1.win 3).blk t).view.emb (ix2 p q)) 1)) := by
    show V c main_v138 (((cfg1.win 2).blk t).view.emb (ix2 0 q)) = _
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 2048 + 1 * q.val = win1_3.index t (1 : Fin 2) * 2048 + 1 * q.val
      omega
  rw [hC, Finset.sum_congr rfl fun k _ => by rw [hA k, hB k]]
  rfl

/-- An index of the output array is in point `t`'s block iff its row is in the block's range. -/
theorem mem_blk1 (t : Fin cfg1.N) (i : S16384x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v140).slice (win1_3.rect t)).set ↔ _
  rw [View.set_slice_whole, Rect.mem_set_unit]
  exact Iff.rfl

/-- The row blocks tile the output array: row `r` is in the block of point `r / 1024`. -/
theorem cover1 (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  obtain ⟨t, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 2048 ≤ (i 1).val ∧ (i 1).val < win1_3.index t (1 : Fin 2) * 2048 + 2048
    omega

/-- The output array after the region: `G1` of the operand arrays as the region found them. -/
theorem final1 (c : Dev nD) : (dat1 V c).arrAt 3 cfg1.N = G1 V c :=
  (dat1 V c).arrAt_eq_of_cover 3 (G1 V c) (fun t _ => flushed1_eq V c t) (cover1)

end Region1

end Cert.KernelIdeal.RegionValue

end
-- ==== Proof.ButterflyDefs.lean ====
/-
  The radix-2 butterfly of a fast Walsh–Hadamard transform, as definitions shared by the modules of this proof.

  * `lin x` reads an array by ROW-MAJOR POSITION: `lin x p` is the entry of `x` whose row-major position is `p`
    (and `0` past the end). A reshape keeps every entry's position, so it does not change `lin`.
  * `bf t g` is one butterfly of stride `t` on a sequence: the positions come in blocks of `2 t`; in the lower half
    of a block (`(p / t) % 2 = 0`) the new entry is `g p + g (p + t)`, in the upper half it is `g (p - t) - g p`.
    `bfE` is the same on the extended reals.
  * `stage X` is how the programs compute one such butterfly on an array `X` of shape `[R, h, 2, t]`: the two slices
    `X[:, :, 0, :]` and `X[:, :, 1, :]`, each reshaped to `[R, h, t]`; their sum and their difference, each given back
    the unit axis; the two concatenated along that axis; and two reshapes of the result.
-/
import Idealize.ShloMosaic.PureOps.Ideal
import Idealize.ShloMosaic.PureOps.ShapeOps
import Idealize.ShloMosaic.PureOps.Vector

noncomputable section

namespace Butterfly

open Idealize.ShloMosaic

/-- One butterfly of stride `t` on a real sequence. -/
def bf (t : ℕ) (g : ℕ → ℝ) : ℕ → ℝ :=
  fun p => if (p / t) % 2 = 0 then g p + g (p + t) else g (p - t) - g p

/-- One butterfly of stride `t` on a sequence of extended reals. -/
def bfE (t : ℕ) (G : ℕ → EReal) : ℕ → EReal :=
  fun p => if (p / t) % 2 = 0 then G p + G (p + t) else G (p - t) - G p

/-- An array read by row-major position (`0` past the end). -/
def lin {s : Shape} (x : s.Idx → EReal) (p : ℕ) : EReal :=
  if h : p < s.numel then x (s.rowMajor.symm ⟨p, h⟩) else 0

/-- The shapes one butterfly passes through, for `R` rows of `h` pairs of runs of length `t`. -/
abbrev S4 (R h t : ℕ) : Shape := ⟨4, ![R, h, 2, t]⟩
abbrev S41 (R h t : ℕ) : Shape := ⟨4, ![R, h, 1, t]⟩
abbrev S3 (R h t : ℕ) : Shape := ⟨3, ![R, h, t]⟩

/-- One butterfly as the programs compute it on `X : [R, h, 2, t]`: slices, sum and difference, concatenation, two reshapes
    (the last into any shape `T` with as many entries). -/
def stage {R h t : ℕ} {S3o T : Shape} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2)
    (h1 : (S4 R h t).ShapeCasts S3o) (h2 : S3o.ShapeCasts T) : T.Idx → EReal :=
  shapeCast T (shapeCast S3o
    (concatenate (S4 R h t) 2
      [⟨S41 R h t, broadcastInDim (S41 R h t) ![0, 1, 3] hb
          (addf (F := Ideal) (φ := .f32) (shapeCast (S3 R h t) (extractStridedSlice (S41 R h t) ![0, 0, 0, 0] X hs0) hc)
                (shapeCast (S3 R h t) (extractStridedSlice (S41 R h t) ![0, 0, 1, 0] X hs1) hc))⟩,
       ⟨S41 R h t, broadcastInDim (S41 R h t) ![0, 1, 3] hb
          (subf (F := Ideal) (φ := .f32) (shapeCast (S3 R h t) (extractStridedSlice (S41 R h t) ![0, 0, 0, 0] X hs0) hc)
                (shapeCast (S3 R h t) (extractStridedSlice (S41 R h t) ![0, 0, 1, 0] X hs1) hc))⟩]
      hcat) h1) h2

end Butterfly

end
-- ==== Proof.KernelHost.lean ====
/-
  What the host operations of the idealized kernel leave in the buffers the two products read, and in the result.
  The first stretch builds the 2048 × 2048 identity matrix, passes its rows through the eleven butterflies (stride 1, 2, …,
  1024), scales by the literal, and transposes the weight; it is read here in chunks — the identity matrix with its two
  reshapes, one chunk per butterfly, the tail — each over ANY contents at the chunk's entry, and the chunks are then chained.
  The second stretch flattens the input's leading axes and reshapes the bias to a row; the last reshapes the result.
-/
import proofs.«124037_j57294863729375_1_alg».proof.Proof.Gen.KernelIdeal.Frame
import proofs.«124037_j57294863729375_1_alg».proof.Proof.ButterflyDefs
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.StableHlo Butterfly

variable {F : FTy → Type} [FloatOps F]

section Generic

/-- The contents after two lines of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first stretch in chunks -/

/-- The identity matrix and its two reshapes. -/
abbrev opsEye : List (HloOp τ sig (Elt F)) :=
  [ StableHlo.nullary main_v0 (iotaInDim S2048x2048 32 0),
    StableHlo.nullary main_v1 (iotaInDim S2048x2048 32 1),
    StableHlo.nullary main_c (constantI S_ 32 0#32),
    StableHlo.unary main_c main_v2 (broadcastInDim S2048x2048 ![] bcast_S_S2048x2048 : (⟨S_, .i32⟩ : BufTy).Contents (Elt F) → (⟨S2048x2048, .i32⟩ : BufTy).Contents (Elt F)),
    StableHlo.binary main_v0 main_v2 main_v3 (addi : (⟨S2048x2048, .i32⟩ : BufTy).Contents (Elt F) → (⟨S2048x2048, .i32⟩ : BufTy).Contents (Elt F) → (⟨S2048x2048, .i32⟩ : BufTy).Contents (Elt F)),
    StableHlo.binary main_v3 main_v1 main_v4 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v4 main_v5 (uitofp .f32 : (⟨S2048x2048, .i1⟩ : BufTy).Contents (Elt F) → (⟨S2048x2048, .f32⟩ : BufTy).Contents (Elt F)),
    StableHlo.reshape main_v5 main_v6 rfl shapeCasts_S2048x2048_S2048x2048x1,
    StableHlo.reshape main_v6 main_v7 rfl shapeCasts_S2048x2048x1_S2048x1024x2x1 ]

/-- Butterfly 1 (stride 1). -/
abbrev opsStage1 : List (HloOp τ sig (Elt F)) :=
  [ StableHlo.unary main_v7 main_v8 ((extractStridedSlice S2048x1024x1x1 ![0, 0, 0, 0] · slices_S2048x1024x2x1_S2048x1024x1x1_0_0_0_0) : (⟨S2048x1024x2x1, .f32⟩ : BufTy).Contents (Elt F) → (⟨S2048x1024x1x1, .f32⟩ : BufTy).Contents (Elt F)),
    StableHlo.reshape main_v8 main_v9 rfl shapeCasts_S2048x1024x1x1_S2048x1024x1,
    StableHlo.unary main_v7 main_v10 ((extractStridedSlice S2048x1024x1x1 ![0, 0, 1, 0] · slices_S2048x1024x2x1_S2048x1024x1x1_0_0_1_0) : (⟨S2048x1024x2x1, .f32⟩ : BufTy).Contents (Elt F) → (⟨S2048x1024x1x1, .f32⟩ : BufTy).Contents (Elt F)),
    StableHlo.reshape main_v10 main_v11 rfl shapeCasts_S2048x1024x1x1_S2048x1024x1,
    StableHlo.binary main_v9 main_v11 main_v12 (addf : (⟨S2048x1024x1, .f32⟩ : BufTy).Contents (Elt F) → (⟨S2048x1024x1, .f32⟩ : BufTy).Contents (Elt F) → (⟨S2048x1024x1, .f32⟩ : BufTy).Contents (Elt F)),
    StableHlo.binary main_v9 main_v11 main_v13 (subf : (⟨S2048x1024x1, .f32⟩ : BufTy).Contents (Elt F) → (⟨S2048x1024x1, .f32⟩ : BufTy).Contents (Elt F) → (⟨S2048x1024x1, .f32⟩ : BufTy).Contents (Elt F)),
    StableHlo.unary main_v12 main_v14 (broadcastInDim S2048x1024x1x1 ![0, 1, 3] bcast_S2048x1024x1_S2048x1024x1x1_0_1_3 : (⟨S2048x1024x1, .f32⟩ : BufTy).Contents (Elt F) → (⟨S2048x1024x1x1, .f32⟩ : BufTy).Contents (Elt F)),
    StableHlo.unary main_v13 main_v15 (broadcastInDim S2048x1024x1x1 ![0, 1, 3] bcast_S2048x1024x1_S2048x1024x1x1_0_1_3 : (⟨S2048x1024x1, .f32⟩ : BufTy).Contents (Elt F) → (⟨S2048x1024x1x1, .f32⟩ : BufTy).Contents (Elt F)),
    StableHlo.binary main_v14 main_v15 main_v16 ((fun a b => concatenate S2048x1024x2x1 2 [⟨S2048x1024x1x1, a⟩, ⟨S2048x1024x1x1, b⟩] concatenates_S2048x1024x1x1_S2048x1024x1x1_S2048x1024x2x1_d2) : (⟨S2048x1024x1x1, .f32⟩ : BufTy).Contents (Elt F) → (⟨S2048x1024x1x1, .f32⟩ : BufTy).Contents (Elt F) → (⟨S2048x1024x2x1, .f32⟩ : BufTy).Contents (Elt F)),
    StableHlo.reshape main_v16 main_v17 rfl shapeCasts_S2048x1024x2x1_S2048x1024x2,
    StableHlo.reshape main_v17 main_v18 rfl shapeCasts_S2048x1024x2_S2048x512x2x2 ]

/-- Butterfly 2 (stride 2). -/
abbrev opsStage2 : List (HloOp τ sig (Elt F)) :=
  [ StableHlo.unary main_v18 main_v19 ((extractStridedSlice S2048x512x1x2 ![0, 0, 0, 0] · slices_S2048x512x2x2_S2048x512x1x2_0_0_0_0) : (⟨S2048x512x2x2, .f32⟩ : BufTy).Contents (Elt F) → (⟨S2048x512x1x2, .f32⟩ : BufTy).Contents (Elt F)),
    StableHlo.reshape main_v19 main_v20 rfl shapeCasts_S2048x512x1x2_S2048x512x2,
    StableHlo.unary main_v18 main_v21 ((extractStridedSlice S2048x512x1x2 ![0, 0, 1, 0] · slices_S2048x512x2x2_S2048x512x1x2_0_0_1_0) : (⟨S2048x512x2x2, .f32⟩ : BufTy).Contents (Elt F) → (⟨S2048x512x1x2, .f32⟩ : BufTy).Contents (Elt F)),
    StableHlo.reshape main_v21 main_v22 rfl shapeCasts_S2048x512x1x2_S2048x512x2,
    StableHlo.binary main_v20 main_v22 main_v23 (addf : (⟨S2048x512x2, .f32⟩ : BufTy).Contents (Elt F) → (⟨S2048x512x2, .f32⟩ : BufTy).Contents (Elt F) → (⟨S2048x512x2, .f32⟩ : BufTy).Contents (Elt F)),
    StableHlo.binary main_v20 main_v22 main_v24 (subf : (⟨S2048x512x2, .f32⟩ : BufTy).Contents (Elt F) → (⟨S2048x512x2, .f32⟩ : BufTy).Contents (Elt F) → (⟨S2048x512x2, .f32⟩ : BufTy).Contents (Elt F)),
    StableHlo.unary main_v23 main_v25 (broadcastInDim S2048x512x1x2 ![0, 1, 3] bcast_S2048x512x2_S2048x512x1x2_0_1_3 : (⟨S2048x512x2, .f32⟩ : BufTy).Contents (Elt F) → (⟨S2048x512x1x2, .f32⟩ : BufTy).Contents (Elt F)),
    StableHlo.unary main_v24 main_v26 (broadcastInDim S2048x512x1x2 ![0, 1, 3] bcast_S2048x512x2_S2048x512x1x2_0_1_3 : (⟨S2048x512x2, .f32⟩ : BufTy).Contents (Elt F) → (⟨S2048x512x1x2, .f32⟩ : BufTy).Contents (Elt F)),
    StableHlo.binary main_v25 main_v26 main_v27 ((fun a b => concatenate S2048x512x2x2 2 [⟨S2048x512x1x2, a⟩, ⟨S2048x512x1x2, b⟩] concatenates_S2048x512x1x2_S2048x512x1x2_S2048x512x2x2_d2) : (⟨S2048x512x1x2, .f32⟩ : BufTy).Contents (Elt F) → (⟨S2048x512x1x2, .f32⟩ : BufTy).Contents (Elt F) → (⟨S2048x512x2x2, .f32⟩ : BufTy).Contents (Elt F)),
    StableHlo.reshape main_v27 main_v28 rfl shapeCasts_S2048x512x2x2_S2048x512x4,
    StableHlo.reshape main_v28 main_v29 rfl shapeCasts_S2048x512x4_S2048x256x2x4 ]

/-- Butterfly 3 (stride 4). -/
abbrev opsStage3 : List (HloOp τ sig (Elt F)) :=
  [ StableHlo.unary main_v29 main_v30 ((extractStridedSlice S2048x256x1x4 ![0, 0, 0, 0] · slices_S2048x256x2x4_S2048x256x1x4_0_0_0_0) : (⟨S2048x256x2x4, .f32⟩ : BufTy).Contents (Elt F) → (⟨S2048x256x1x4, .f32⟩ : BufTy).Contents (Elt F)),
    StableHlo.reshape main_v30 main_v31 rfl shapeCasts_S2048x256x1x4_S2048x256x4,
    StableHlo.unary main_v29 main_v32 ((extractStridedSlice S2048x256x1x4 ![0, 0, 1, 0] · slices_S2048x256x2x4_S2048x256x1x4_0_0_1_0) : (⟨S2048x256x2x4, .f32⟩ : BufTy).Contents (Elt F) → (⟨S2048x256x1x4, .f32⟩ : BufTy).Contents (Elt F)),
    StableHlo.reshape main_v32 main_v33 rfl shapeCasts_S2048x256x1x4_S2048x256x4,
    StableHlo.binary main_v31 main_v33 main_v34 (addf : (⟨S2048x256x4, .f32⟩ : BufTy).Contents (Elt F) → (⟨S2048x256x4, .f32⟩ : BufTy).Contents (Elt F) → (⟨S2048x256x4, .f32⟩ : BufTy).Contents (Elt F)),
    StableHlo.binary main_v31 main_v33 main_v35 (subf : (⟨S2048x256x4, .f32⟩ : BufTy).Contents (Elt F) → (⟨S2048x256x4, .f32⟩ : BufTy).Contents (Elt F) → (⟨S2048x256x4, .f32⟩ : BufTy).Contents (Elt F)),
    StableHlo.unary main_v34 main_v36 (broadcastInDim S2048x256x1x4 ![0, 1, 3] bcast_S2048x256x4_S2048x256x1x4_0_1_3 : (⟨S2048x256x4, .f32⟩ : BufTy).Contents (Elt F) → (⟨S2048x256x1x4, .f32⟩ : BufTy).Contents (Elt F)),
    StableHlo.unary main_v35 main_v37 (broadcastInDim S2048x256x1x4 ![0, 1, 3] bcast_S2048x256x4_S2048x256x1x4_0_1_3 : (⟨S2048x256x4, .f32⟩ : BufTy).Contents (Elt F) → (⟨S2048x256x1x4, .f32⟩ : BufTy).Contents (Elt F)),
    StableHlo.binary main_v36 main_v37 main_v38 ((fun a b => concatenate S2048x256x2x4 2 [⟨S2048x256x1x4, a⟩, ⟨S2048x256x1x4, b⟩] concatenates_S2048x256x1x4_S2048x256x1x4_S2048x256x2x4_d2) : (⟨S2048x256x1x4, .f32⟩ : BufTy).Contents (Elt F) → (⟨S2048x256x1x4, .f32⟩ : BufTy).Contents (Elt F) → (⟨S2048x256x2x4, .f32⟩ : BufTy).Contents (Elt F)),
    StableHlo.reshape main_v38 main_v39 rfl shapeCasts_S2048x256x2x4_S2048x256x8,
    StableHlo.reshape main_v39 main_v40 rfl shapeCasts_S2048x256x8_S2048x128x2x8 ]

/-- Butterfly 4 (stride 8). -/
abbrev opsStage4 : List (HloOp τ sig (Elt F)) :=
  [ StableHlo.unary main_v40 main_v41 ((extractStridedSlice S2048x128x1x8 ![0, 0, 0, 0] · slices_S2048x128x2x8_S2048x128x1x8_0_0_0_0) : (⟨S2048x128x2x8, .f32⟩ : BufTy).Contents (Elt F) → (⟨S2048x128x1x8, .f32⟩ : BufTy).Contents (Elt F)),
    StableHlo.reshape main_v41 main_v42 rfl shapeCasts_S2048x128x1x8_S2048x128x8,
    StableHlo.unary main_v40 main_v43 ((extractStridedSlice S2048x128x1x8 ![0, 0, 1, 0] · slices_S2048x128x2x8_S2048x128x1x8_0_0_1_0) : (⟨S2048x128x2x8, .f32⟩ : BufTy).Contents (Elt F) → (⟨S2048x128x1x8, .f32⟩ : BufTy).Contents (Elt F)),
    StableHlo.reshape main_v43 main_v44 rfl shapeCasts_S2048x128x1x8_S2048x128x8,
    StableHlo.binary main_v42 main_v44 main_v45 (addf : (⟨S2048x128x8, .f32⟩ : BufTy).Contents (Elt F) → (⟨S2048x128x8, .f32⟩ : BufTy).Contents (Elt F) → (⟨S2048x128x8, .f32⟩ : BufTy).Contents (Elt F)),
    StableHlo.binary main_v42 main_v44 main_v46 (subf : (⟨S2048x128x8, .f32⟩ : BufTy).Contents (Elt F) → (⟨S2048x128x8, .f32⟩ : BufTy).Contents (Elt F) → (⟨S2048x128x8, .f32⟩ : BufTy).Contents (Elt F)),
    StableHlo.unary main_v45 main_v47 (broadcastInDim S2048x128x1x8 ![0, 1, 3] bcast_S2048x128x8_S2048x128x1x8_0_1_3 : (⟨S2048x128x8, .f32⟩ : BufTy).Contents (Elt F) → (⟨S2048x128x1x8, .f32⟩ : BufTy).Contents (Elt F)),
    StableHlo.unary main_v46 main_v48 (broadcastInDim S2048x128x1x8 ![0, 1, 3] bcast_S2048x128x8_S2048x128x1x8_0_1_3 : (⟨S2048x128x8, .f32⟩ : BufTy).Contents (Elt F) → (⟨S2048x128x1x8, .f32⟩ : BufTy).Contents (Elt F)),
    StableHlo.binary main_v47 main_v48 main_v49 ((fun a b => concatenate S2048x128x2x8 2 [⟨S2048x128x1x8, a⟩, ⟨S2048x128x1x8, b⟩] concatenates_S2048x128x1x8_S2048x128x1x8_S2048x128x2x8_d2) : (⟨S2048x128x1x8, .f32⟩ : BufTy).Contents (Elt F) → (⟨S2048x128x1x8, .f32⟩ : BufTy).Contents (Elt F) → (⟨S2048x128x2x8, .f32⟩ : BufTy).Contents (Elt F)),
    StableHlo.reshape main_v49 main_v50 rfl shapeCasts_S2048x128x2x8_S2048x128x16,
    StableHlo.reshape main_v50 main_v51 rfl shapeCasts_S2048x128x16_S2048x64x2x16 ]

/-- Butterfly 5 (stride 16). -/
abbrev opsStage5 : List (HloOp τ sig (Elt F)) :=
  [ StableHlo.unary main_v51 main_v52 ((extractStridedSlice S2048x64x1x16 ![0, 0, 0, 0] · slices_S2048x64x2x16_S2048x64x1x16_0_0_0_0) : (⟨S2048x64x2x16, .f32⟩ : BufTy).Contents (Elt F) → (⟨S2048x64x1x16, .f32⟩ : BufTy).Contents (Elt F)),
    StableHlo.reshape main_v52 main_v53 rfl shapeCasts_S2048x64x1x16_S2048x64x16,
    StableHlo.unary main_v51 main_v54 ((extractStridedSlice S2048x64x1x16 ![0, 0, 1, 0] · slices_S2048x64x2x16_S2048x64x1x16_0_0_1_0) : (⟨S2048x64x2x16, .f32⟩ : BufTy).Contents (Elt F) → (⟨S2048x64x1x16, .f32⟩ : BufTy).Contents (Elt F)),
    StableHlo.reshape main_v54 main_v55 rfl shapeCasts_S2048x64x1x16_S2048x64x16,
    StableHlo.binary main_v53 main_v55 main_v56 (addf : (⟨S2048x64x16, .f32⟩ : BufTy).Contents (Elt F) → (⟨S2048x64x16, .f32⟩ : BufTy).Contents (Elt F) → (⟨S2048x64x16, .f32⟩ : BufTy).Contents (Elt F)),
    StableHlo.binary main_v53 main_v55 main_v57 (subf : (⟨S2048x64x16, .f32⟩ : BufTy).Contents (Elt F) → (⟨S2048x64x16, .f32⟩ : BufTy).Contents (Elt F) → (⟨S2048x64x16, .f32⟩ : BufTy).Contents (Elt F)),
    StableHlo.unary main_v56 main_v58 (broadcastInDim S2048x64x1x16 ![0, 1, 3] bcast_S2048x64x16_S2048x64x1x16_0_1_3 : (⟨S2048x64x16, .f32⟩ : BufTy).Contents (Elt F) → (⟨S2048x64x1x16, .f32⟩ : BufTy).Contents (Elt F)),
    StableHlo.unary main_v57 main_v59 (broadcastInDim S2048x64x1x16 ![0, 1, 3] bcast_S2048x64x16_S2048x64x1x16_0_1_3 : (⟨S2048x64x16, .f32⟩ : BufTy).Contents (Elt F) → (⟨S2048x64x1x16, .f32⟩ : BufTy).Contents (Elt F)),
    StableHlo.binary main_v58 main_v59 main_v60 ((fun a b => concatenate S2048x64x2x16 2 [⟨S2048x64x1x16, a⟩, ⟨S2048x64x1x16, b⟩] concatenates_S2048x64x1x16_S2048x64x1x16_S2048x64x2x16_d2) : (⟨S2048x64x1x16, .f32⟩ : BufTy).Contents (Elt F) → (⟨S2048x64x1x16, .f32⟩ : BufTy).Contents (Elt F) → (⟨S2048x64x2x16, .f32⟩ : BufTy).Contents (Elt F)),
    StableHlo.reshape main_v60 main_v61 rfl shapeCasts_S2048x64x2x16_S2048x64x32,
    StableHlo.reshape main_v61 main_v62 rfl shapeCasts_S2048x64x32_S2048x32x2x32 ]

/-- Butterfly 6 (stride 32). -/
abbrev opsStage6 : List (HloOp τ sig (Elt F)) :=
  [ StableHlo.unary main_v62 main_v63 ((extractStridedSlice S2048x32x1x32 ![0, 0, 0, 0] · slices_S2048x32x2x32_S2048x32x1x32_0_0_0_0) : (⟨S2048x32x2x32, .f32⟩ : BufTy).Contents (Elt F) → (⟨S2048x32x1x32, .f32⟩ : BufTy).Contents (Elt F)),
    StableHlo.reshape main_v63 main_v64 rfl shapeCasts_S2048x32x1x32_S2048x32x32,
    StableHlo.unary main_v62 main_v65 ((extractStridedSlice S2048x32x1x32 ![0, 0, 1, 0] · slices_S2048x32x2x32_S2048x32x1x32_0_0_1_0) : (⟨S2048x32x2x32, .f32⟩ : BufTy).Contents (Elt F) → (⟨S2048x32x1x32, .f32⟩ : BufTy).Contents (Elt F)),
    StableHlo.reshape main_v65 main_v66 rfl shapeCasts_S2048x32x1x32_S2048x32x32,
    StableHlo.binary main_v64 main_v66 main_v67 (addf : (⟨S2048x32x32, .f32⟩ : BufTy).Contents (Elt F) → (⟨S2048x32x32, .f32⟩ : BufTy).Contents (Elt F) → (⟨S2048x32x32, .f32⟩ : BufTy).Contents (Elt F)),
    StableHlo.binary main_v64 main_v66 main_v68 (subf : (⟨S2048x32x32, .f32⟩ : BufTy).Contents (Elt F) → (⟨S2048x32x32, .f32⟩ : BufTy).Contents (Elt F) → (⟨S2048x32x32, .f32⟩ : BufTy).Contents (Elt F)),
    StableHlo.unary main_v67 main_v69 (broadcastInDim S2048x32x1x32 ![0, 1, 3] bcast_S2048x32x32_S2048x32x1x32_0_1_3 : (⟨S2048x32x32, .f32⟩ : BufTy).Contents (Elt F) → (⟨S2048x32x1x32, .f32⟩ : BufTy).Contents (Elt F)),
    StableHlo.unary main_v68 main_v70 (broadcastInDim S2048x32x1x32 ![0, 1, 3] bcast_S2048x32x32_S2048x32x1x32_0_1_3 : (⟨S2048x32x32, .f32⟩ : BufTy).Contents (Elt F) → (⟨S2048x32x1x32, .f32⟩ : BufTy).Contents (Elt F)),
    StableHlo.binary main_v69 main_v70 main_v71 ((fun a b => concatenate S2048x32x2x32 2 [⟨S2048x32x1x32, a⟩, ⟨S2048x32x1x32, b⟩] concatenates_S2048x32x1x32_S2048x32x1x32_S2048x32x2x32_d2) : (⟨S2048x32x1x32, .f32⟩ : BufTy).Contents (Elt F) → (⟨S2048x32x1x32, .f32⟩ : BufTy).Contents (Elt F) → (⟨S2048x32x2x32, .f32⟩ : BufTy).Contents (Elt F)),
    StableHlo.reshape main_v71 main_v72 rfl shapeCasts_S2048x32x2x32_S2048x32x64,
    StableHlo.reshape main_v72 main_v73 rfl shapeCasts_S2048x32x64_S2048x16x2x64 ]

/-- Butterfly 7 (stride 64). -/
abbrev opsStage7 : List (HloOp τ sig (Elt F)) :=
  [ StableHlo.unary main_v73 main_v74 ((extractStridedSlice S2048x16x1x64 ![0, 0, 0, 0] · slices_S2048x16x2x64_S2048x16x1x64_0_0_0_0) : (⟨S2048x16x2x64, .f32⟩ : BufTy).Contents (Elt F) → (⟨S2048x16x1x64, .f32⟩ : BufTy).Contents (Elt F)),
    StableHlo.reshape main_v74 main_v75 rfl shapeCasts_S2048x16x1x64_S2048x16x64,
    StableHlo.unary main_v73 main_v76 ((extractStridedSlice S2048x16x1x64 ![0, 0, 1, 0] · slices_S2048x16x2x64_S2048x16x1x64_0_0_1_0) : (⟨S2048x16x2x64, .f32⟩ : BufTy).Contents (Elt F) → (⟨S2048x16x1x64, .f32⟩ : BufTy).Contents (Elt F)),
    StableHlo.reshape main_v76 main_v77 rfl shapeCasts_S2048x16x1x64_S2048x16x64,
    StableHlo.binary main_v75 main_v77 main_v78 (addf : (⟨S2048x16x64, .f32⟩ : BufTy).Contents (Elt F) → (⟨S2048x16x64, .f32⟩ : BufTy).Contents (Elt F) → (⟨S2048x16x64, .f32⟩ : BufTy).Contents (Elt F)),
    StableHlo.binary main_v75 main_v77 main_v79 (subf : (⟨S2048x16x64, .f32⟩ : BufTy).Contents (Elt F) → (⟨S2048x16x64, .f32⟩ : BufTy).Contents (Elt F) → (⟨S2048x16x64, .f32⟩ : BufTy).Contents (Elt F)),
    StableHlo.unary main_v78 main_v80 (broadcastInDim S2048x16x1x64 ![0, 1, 3] bcast_S2048x16x64_S2048x16x1x64_0_1_3 : (⟨S2048x16x64, .f32⟩ : BufTy).Contents (Elt F) → (⟨S2048x16x1x64, .f32⟩ : BufTy).Contents (Elt F)),
    StableHlo.unary main_v79 main_v81 (broadcastInDim S2048x16x1x64 ![0, 1, 3] bcast_S2048x16x64_S2048x16x1x64_0_1_3 : (⟨S2048x16x64, .f32⟩ : BufTy).Contents (Elt F) → (⟨S2048x16x1x64, .f32⟩ : BufTy).Contents (Elt F)),
    StableHlo.binary main_v80 main_v81 main_v82 ((fun a b => concatenate S2048x16x2x64 2 [⟨S2048x16x1x64, a⟩, ⟨S2048x16x1x64, b⟩] concatenates_S2048x16x1x64_S2048x16x1x64_S2048x16x2x64_d2) : (⟨S2048x16x1x64, .f32⟩ : BufTy).Contents (Elt F) → (⟨S2048x16x1x64, .f32⟩ : BufTy).Contents (Elt F) → (⟨S2048x16x2x64, .f32⟩ : BufTy).Contents (Elt F)),
    StableHlo.reshape main_v82 main_v83 rfl shapeCasts_S2048x16x2x64_S2048x16x128,
    StableHlo.reshape main_v83 main_v84 rfl shapeCasts_S2048x16x128_S2048x8x2x128 ]

/-- Butterfly 8 (stride 128). -/
abbrev opsStage8 : List (HloOp τ sig (Elt F)) :=
  [ StableHlo.unary main_v84 main_v85 ((extractStridedSlice S2048x8x1x128 ![0, 0, 0, 0] · slices_S2048x8x2x128_S2048x8x1x128_0_0_0_0) : (⟨S2048x8x2x128, .f32⟩ : BufTy).Contents (Elt F) → (⟨S2048x8x1x128, .f32⟩ : BufTy).Contents (Elt F)),
    StableHlo.reshape main_v85 main_v86 rfl shapeCasts_S2048x8x1x128_S2048x8x128,
    StableHlo.unary main_v84 main_v87 ((extractStridedSlice S2048x8x1x128 ![0, 0, 1, 0] · slices_S2048x8x2x128_S2048x8x1x128_0_0_1_0) : (⟨S2048x8x2x128, .f32⟩ : BufTy).Contents (Elt F) → (⟨S2048x8x1x128, .f32⟩ : BufTy).Contents (Elt F)),
    StableHlo.reshape main_v87 main_v88 rfl shapeCasts_S2048x8x1x128_S2048x8x128,
    StableHlo.binary main_v86 main_v88 main_v89 (addf : (⟨S2048x8x128, .f32⟩ : BufTy).Contents (Elt F) → (⟨S2048x8x128, .f32⟩ : BufTy).Contents (Elt F) → (⟨S2048x8x128, .f32⟩ : BufTy).Contents (Elt F)),
    StableHlo.binary main_v86 main_v88 main_v90 (subf : (⟨S2048x8x128, .f32⟩ : BufTy).Contents (Elt F) → (⟨S2048x8x128, .f32⟩ : BufTy).Contents (Elt F) → (⟨S2048x8x128, .f32⟩ : BufTy).Contents (Elt F)),
    StableHlo.unary main_v89 main_v91 (broadcastInDim S2048x8x1x128 ![0, 1, 3] bcast_S2048x8x128_S2048x8x1x128_0_1_3 : (⟨S2048x8x128, .f32⟩ : BufTy).Contents (Elt F) → (⟨S2048x8x1x128, .f32⟩ : BufTy).Contents (Elt F)),
    StableHlo.unary main_v90 main_v92 (broadcastInDim S2048x8x1x128 ![0, 1, 3] bcast_S2048x8x128_S2048x8x1x128_0_1_3 : (⟨S2048x8x128, .f32⟩ : BufTy).Contents (Elt F) → (⟨S2048x8x1x128, .f32⟩ : BufTy).Contents (Elt F)),
    StableHlo.binary main_v91 main_v92 main_v93 ((fun a b => concatenate S2048x8x2x128 2 [⟨S2048x8x1x128, a⟩, ⟨S2048x8x1x128, b⟩] concatenates_S2048x8x1x128_S2048x8x1x128_S2048x8x2x128_d2) : (⟨S2048x8x1x128, .f32⟩ : BufTy).Contents (Elt F) → (⟨S2048x8x1x128, .f32⟩ : BufTy).Contents (Elt F) → (⟨S2048x8x2x128, .f32⟩ : BufTy).Contents (Elt F)),
    StableHlo.reshape main_v93 main_v94 rfl shapeCasts_S2048x8x2x128_S2048x8x256,
    StableHlo.reshape main_v94 main_v95 rfl shapeCasts_S2048x8x256_S2048x4x2x256 ]

/-- Butterfly 9 (stride 256). -/
abbrev opsStage9 : List (HloOp τ sig (Elt F)) :=
  [ StableHlo.unary main_v95 main_v96 ((extractStridedSlice S2048x4x1x256 ![0, 0, 0, 0] · slices_S2048x4x2x256_S2048x4x1x256_0_0_0_0) : (⟨S2048x4x2x256, .f32⟩ : BufTy).Contents (Elt F) → (⟨S2048x4x1x256, .f32⟩ : BufTy).Contents (Elt F)),
    StableHlo.reshape main_v96 main_v97 rfl shapeCasts_S2048x4x1x256_S2048x4x256,
    StableHlo.unary main_v95 main_v98 ((extractStridedSlice S2048x4x1x256 ![0, 0, 1, 0] · slices_S2048x4x2x256_S2048x4x1x256_0_0_1_0) : (⟨S2048x4x2x256, .f32⟩ : BufTy).Contents (Elt F) → (⟨S2048x4x1x256, .f32⟩ : BufTy).Contents (Elt F)),
    StableHlo.reshape main_v98 main_v99 rfl shapeCasts_S2048x4x1x256_S2048x4x256,
    StableHlo.binary main_v97 main_v99 main_v100 (addf : (⟨S2048x4x256, .f32⟩ : BufTy).Contents (Elt F) → (⟨S2048x4x256, .f32⟩ : BufTy).Contents (Elt F) → (⟨S2048x4x256, .f32⟩ : BufTy).Contents (Elt F)),
    StableHlo.binary main_v97 main_v99 main_v101 (subf : (⟨S2048x4x256, .f32⟩ : BufTy).Contents (Elt F) → (⟨S2048x4x256, .f32⟩ : BufTy).Contents (Elt F) → (⟨S2048x4x256, .f32⟩ : BufTy).Contents (Elt F)),
    StableHlo.unary main_v100 main_v102 (broadcastInDim S2048x4x1x256 ![0, 1, 3] bcast_S2048x4x256_S2048x4x1x256_0_1_3 : (⟨S2048x4x256, .f32⟩ : BufTy).Contents (Elt F) → (⟨S2048x4x1x256, .f32⟩ : BufTy).Contents (Elt F)),
    StableHlo.unary main_v101 main_v103 (broadcastInDim S2048x4x1x256 ![0, 1, 3] bcast_S2048x4x256_S2048x4x1x256_0_1_3 : (⟨S2048x4x256, .f32⟩ : BufTy).Contents (Elt F) → (⟨S2048x4x1x256, .f32⟩ : BufTy).Contents (Elt F)),
    StableHlo.binary main_v102 main_v103 main_v104 ((fun a b => concatenate S2048x4x2x256 2 [⟨S2048x4x1x256, a⟩, ⟨S2048x4x1x256, b⟩] concatenates_S2048x4x1x256_S2048x4x1x256_S2048x4x2x256_d2) : (⟨S2048x4x1x256, .f32⟩ : BufTy).Contents (Elt F) → (⟨S2048x4x1x256, .f32⟩ : BufTy).Contents (Elt F) → (⟨S2048x4x2x256, .f32⟩ : BufTy).Contents (Elt F)),
    StableHlo.reshape main_v104 main_v105 rfl shapeCasts_S2048x4x2x256_S2048x4x512,
    StableHlo.reshape main_v105 main_v106 rfl shapeCasts_S2048x4x512_S2048x2x2x512 ]

/-- Butterfly 10 (stride 512). -/
abbrev opsStage10 : List (HloOp τ sig (Elt F)) :=
  [ StableHlo.unary main_v106 main_v107 ((extractStridedSlice S2048x2x1x512 ![0, 0, 0, 0] · slices_S2048x2x2x512_S2048x2x1x512_0_0_0_0) : (⟨S2048x2x2x512, .f32⟩ : BufTy).Contents (Elt F) → (⟨S2048x2x1x512, .f32⟩ : BufTy).Contents (Elt F)),
    StableHlo.reshape main_v107 main_v108 rfl shapeCasts_S2048x2x1x512_S2048x2x512,
    StableHlo.unary main_v106 main_v109 ((extractStridedSlice S2048x2x1x512 ![0, 0, 1, 0] · slices_S2048x2x2x512_S2048x2x1x512_0_0_1_0) : (⟨S2048x2x2x512, .f32⟩ : BufTy).Contents (Elt F) → (⟨S2048x2x1x512, .f32⟩ : BufTy).Contents (Elt F)),
    StableHlo.reshape main_v109 main_v110 rfl shapeCasts_S2048x2x1x512_S2048x2x512,
    StableHlo.binary main_v108 main_v110 main_v111 (addf : (⟨S2048x2x512, .f32⟩ : BufTy).Contents (Elt F) → (⟨S2048x2x512, .f32⟩ : BufTy).Contents (Elt F) → (⟨S2048x2x512, .f32⟩ : BufTy).Contents (Elt F)),
    StableHlo.binary main_v108 main_v110 main_v112 (subf : (⟨S2048x2x512, .f32⟩ : BufTy).Contents (Elt F) → (⟨S2048x2x512, .f32⟩ : BufTy).Contents (Elt F) → (⟨S2048x2x512, .f32⟩ : BufTy).Contents (Elt F)),
    StableHlo.unary main_v111 main_v113 (broadcastInDim S2048x2x1x512 ![0, 1, 3] bcast_S2048x2x512_S2048x2x1x512_0_1_3 : (⟨S2048x2x512, .f32⟩ : BufTy).Contents (Elt F) → (⟨S2048x2x1x512, .f32⟩ : BufTy).Contents (Elt F)),
    StableHlo.unary main_v112 main_v114 (broadcastInDim S2048x2x1x512 ![0, 1, 3] bcast_S2048x2x512_S2048x2x1x512_0_1_3 : (⟨S2048x2x512, .f32⟩ : BufTy).Contents (Elt F) → (⟨S2048x2x1x512, .f32⟩ : BufTy).Contents (Elt F)),
    StableHlo.binary main_v113 main_v114 main_v115 ((fun a b => concatenate S2048x2x2x512 2 [⟨S2048x2x1x512, a⟩, ⟨S2048x2x1x512, b⟩] concatenates_S2048x2x1x512_S2048x2x1x512_S2048x2x2x512_d2) : (⟨S2048x2x1x512, .f32⟩ : BufTy).Contents (Elt F) → (⟨S2048x2x1x512, .f32⟩ : BufTy).Contents (Elt F) → (⟨S2048x2x2x512, .f32⟩ : BufTy).Contents (Elt F)),
    StableHlo.reshape main_v115 main_v116 rfl shapeCasts_S2048x2x2x512_S2048x2x1024,
    StableHlo.reshape main_v116 main_v117 rfl shapeCasts_S2048x2x1024_S2048x1x2x1024 ]

/-- Butterfly 11 (stride 1024). -/
abbrev opsStage11 : List (HloOp τ sig (Elt F)) :=
  [ StableHlo.unary main_v117 main_v118 ((extractStridedSlice S2048x1x1x1024 ![0, 0, 0, 0] · slices_S2048x1x2x1024_S2048x1x1x1024_0_0_0_0) : (⟨S2048x1x2x1024, .f32⟩ : BufTy).Contents (Elt F) → (⟨S2048x1x1x1024, .f32⟩ : BufTy).Contents (Elt F)),
    StableHlo.reshape main_v118 main_v119 rfl shapeCasts_S2048x1x1x1024_S2048x1x1024,
    StableHlo.unary main_v117 main_v120 ((extractStridedSlice S2048x1x1x1024 ![0, 0, 1, 0] · slices_S2048x1x2x1024_S2048x1x1x1024_0_0_1_0) : (⟨S2048x1x2x1024, .f32⟩ : BufTy).Contents (Elt F) → (⟨S2048x1x1x1024, .f32⟩ : BufTy).Contents (Elt F)),
    StableHlo.reshape main_v120 main_v121 rfl shapeCasts_S2048x1x1x1024_S2048x1x1024,
    StableHlo.binary main_v119 main_v121 main_v122 (addf : (⟨S2048x1x1024, .f32⟩ : BufTy).Contents (Elt F) → (⟨S2048x1x1024, .f32⟩ : BufTy).Contents (Elt F) → (⟨S2048x1x1024, .f32⟩ : BufTy).Contents (Elt F)),
    StableHlo.binary main_v119 main_v121 main_v123 (subf : (⟨S2048x1x1024, .f32⟩ : BufTy).Contents (Elt F) → (⟨S2048x1x1024, .f32⟩ : BufTy).Contents (Elt F) → (⟨S2048x1x1024, .f32⟩ : BufTy).Contents (Elt F)),
    StableHlo.unary main_v122 main_v124 (broadcastInDim S2048x1x1x1024 ![0, 1, 3] bcast_S2048x1x1024_S2048x1x1x1024_0_1_3 : (⟨S2048x1x1024, .f32⟩ : BufTy).Contents (Elt F) → (⟨S2048x1x1x1024, .f32⟩ : BufTy).Contents (Elt F)),
    StableHlo.unary main_v123 main_v125 (broadcastInDim S2048x1x1x1024 ![0, 1, 3] bcast_S2048x1x1024_S2048x1x1x1024_0_1_3 : (⟨S2048x1x1024, .f32⟩ : BufTy).Contents (Elt F) → (⟨S2048x1x1x1024, .f32⟩ : BufTy).Contents (Elt F)),
    StableHlo.binary main_v124 main_v125 main_v126 ((fun a b => concatenate S2048x1x2x1024 2 [⟨S2048x1x1x1024, a⟩, ⟨S2048x1x1x1024, b⟩] concatenates_S2048x1x1x1024_S2048x1x1x1024_S2048x1x2x1024_d2) : (⟨S2048x1x1x1024, .f32⟩ : BufTy).Contents (Elt F) → (⟨S2048x1x1x1024, .f32⟩ : BufTy).Contents (Elt F) → (⟨S2048x1x2x1024, .f32⟩ : BufTy).Contents (Elt F)),
    StableHlo.reshape main_v126 main_v127 rfl shapeCasts_S2048x1x2x1024_S2048x1x2048,
    StableHlo.reshape main_v127 main_v128 rfl shapeCasts_S2048x1x2048_S2048x2048 ]

/-- The scale, the transposed weight, the zero bias row and the two roundings. -/
abbrev opsTail : List (HloOp τ sig (Elt F)) :=
  [ StableHlo.nullary main_cst (constant S_ .f32 0x3CB504F3#32),
    StableHlo.unary main_cst main_v129 (broadcastInDim S2048x2048 ![] bcast_S_S2048x2048 : (⟨S_, .f32⟩ : BufTy).Contents (Elt F) → (⟨S2048x2048, .f32⟩ : BufTy).Contents (Elt F)),
    StableHlo.binary main_v128 main_v129 main_v130 (mulf : (⟨S2048x2048, .f32⟩ : BufTy).Contents (Elt F) → (⟨S2048x2048, .f32⟩ : BufTy).Contents (Elt F) → (⟨S2048x2048, .f32⟩ : BufTy).Contents (Elt F)),
    StableHlo.unary main_arg1 main_v131 ((transpose S2048x2048 [1, 0] · transposes_S2048x2048_S2048x2048_1_0) : (⟨S2048x2048, .f32⟩ : BufTy).Contents (Elt F) → (⟨S2048x2048, .f32⟩ : BufTy).Contents (Elt F)),
    StableHlo.nullary main_cst_0 (constant S_ .f32 0x00000000#32),
    StableHlo.unary main_cst_0 main_v132 (broadcastInDim S1x2048 ![] bcast_S_S1x2048 : (⟨S_, .f32⟩ : BufTy).Contents (Elt F) → (⟨S1x2048, .f32⟩ : BufTy).Contents (Elt F)),
    StableHlo.unary main_v130 main_v133 ((truncf .bf16 · bitsLt_bf16_f32) : (⟨S2048x2048, .f32⟩ : BufTy).Contents (Elt F) → (⟨S2048x2048, .bf16⟩ : BufTy).Contents (Elt F)),
    StableHlo.unary main_v131 main_v134 ((truncf .bf16 · bitsLt_bf16_f32) : (⟨S2048x2048, .f32⟩ : BufTy).Contents (Elt F) → (⟨S2048x2048, .bf16⟩ : BufTy).Contents (Elt F)) ]

theorem hostOps0_eq : (hostOps0 : List (HloOp τ sig (Elt F))) =
    opsEye ++ (opsStage1 ++ (opsStage2 ++ (opsStage3 ++ (opsStage4 ++ (opsStage5 ++ (opsStage6 ++ (opsStage7 ++ (opsStage8 ++ (opsStage9 ++ (opsStage10 ++ (opsStage11 ++ opsTail))))))))))) := rfl

end Generic

local notation "𝕀" => Ideal

/-- The identity matrix as the host builds it: the comparison of the row number with the column number, converted. -/
def eye : S2048x2048.Idx → EReal :=
  uitofp (F := 𝕀) .f32 (cmpi .eq (addi (iotaInDim S2048x2048 32 0) (broadcastInDim S2048x2048 ![] bcast_S_S2048x2048 (constantI S_ 32 0#32))) (iotaInDim S2048x2048 32 1))

/-- The contents at each chunk boundary, from contents `V0` at the launch. -/
def Ue (V0 : Valuation τ sig (Elt 𝕀)) : Valuation τ sig (Elt 𝕀) := after (opsEye (F := 𝕀)) V0
def Us1 (V0 : Valuation τ sig (Elt 𝕀)) : Valuation τ sig (Elt 𝕀) := after (opsStage1 (F := 𝕀)) (Ue V0)
def Us2 (V0 : Valuation τ sig (Elt 𝕀)) : Valuation τ sig (Elt 𝕀) := after (opsStage2 (F := 𝕀)) (Us1 V0)
def Us3 (V0 : Valuation τ sig (Elt 𝕀)) : Valuation τ sig (Elt 𝕀) := after (opsStage3 (F := 𝕀)) (Us2 V0)
def Us4 (V0 : Valuation τ sig (Elt 𝕀)) : Valuation τ sig (Elt 𝕀) := after (opsStage4 (F := 𝕀)) (Us3 V0)
def Us5 (V0 : Valuation τ sig (Elt 𝕀)) : Valuation τ sig (Elt 𝕀) := after (opsStage5 (F := 𝕀)) (Us4 V0)
def Us6 (V0 : Valuation τ sig (Elt 𝕀)) : Valuation τ sig (Elt 𝕀) := after (opsStage6 (F := 𝕀)) (Us5 V0)
def Us7 (V0 : Valuation τ sig (Elt 𝕀)) : Valuation τ sig (Elt 𝕀) := after (opsStage7 (F := 𝕀)) (Us6 V0)
def Us8 (V0 : Valuation τ sig (Elt 𝕀)) : Valuation τ sig (Elt 𝕀) := after (opsStage8 (F := 𝕀)) (Us7 V0)
def Us9 (V0 : Valuation τ sig (Elt 𝕀)) : Valuation τ sig (Elt 𝕀) := after (opsStage9 (F := 𝕀)) (Us8 V0)
def Us10 (V0 : Valuation τ sig (Elt 𝕀)) : Valuation τ sig (Elt 𝕀) := after (opsStage10 (F := 𝕀)) (Us9 V0)
def Us11 (V0 : Valuation τ sig (Elt 𝕀)) : Valuation τ sig (Elt 𝕀) := after (opsStage11 (F := 𝕀)) (Us10 V0)

theorem after_hostOps0 (V0 : Valuation τ sig (Elt 𝕀)) : after (hostOps0 (F := 𝕀)) V0 = after (opsTail (F := 𝕀)) (Us11 V0) := by
  rw [hostOps0_eq]
  simp only [after_append]
  rfl

/-- The array entering butterfly `k + 1` (after `k` butterflies), as shape `[2048, 1024 / 2^k, 2, 2^k]`; the last one is the
    transformed matrix `[2048, 2048]`. -/
def KX0 (V0 : Valuation τ sig (Elt 𝕀)) : (S4 2048 1024 1).Idx → EReal := Ue V0 (Proc.devRef .tc main_v7)
def KX1 (V0 : Valuation τ sig (Elt 𝕀)) : (S4 2048 512 2).Idx → EReal := Us1 V0 (Proc.devRef .tc main_v18)
def KX2 (V0 : Valuation τ sig (Elt 𝕀)) : (S4 2048 256 4).Idx → EReal := Us2 V0 (Proc.devRef .tc main_v29)
def KX3 (V0 : Valuation τ sig (Elt 𝕀)) : (S4 2048 128 8).Idx → EReal := Us3 V0 (Proc.devRef .tc main_v40)
def KX4 (V0 : Valuation τ sig (Elt 𝕀)) : (S4 2048 64 16).Idx → EReal := Us4 V0 (Proc.devRef .tc main_v51)
def KX5 (V0 : Valuation τ sig (Elt 𝕀)) : (S4 2048 32 32).Idx → EReal := Us5 V0 (Proc.devRef .tc main_v62)
def KX6 (V0 : Valuation τ sig (Elt 𝕀)) : (S4 2048 16 64).Idx → EReal := Us6 V0 (Proc.devRef .tc main_v73)
def KX7 (V0 : Valuation τ sig (Elt 𝕀)) : (S4 2048 8 128).Idx → EReal := Us7 V0 (Proc.devRef .tc main_v84)
def KX8 (V0 : Valuation τ sig (Elt 𝕀)) : (S4 2048 4 256).Idx → EReal := Us8 V0 (Proc.devRef .tc main_v95)
def KX9 (V0 : Valuation τ sig (Elt 𝕀)) : (S4 2048 2 512).Idx → EReal := Us9 V0 (Proc.devRef .tc main_v106)
def KX10 (V0 : Valuation τ sig (Elt 𝕀)) : (S4 2048 1 1024).Idx → EReal := Us10 V0 (Proc.devRef .tc main_v117)
def KX11 (V0 : Valuation τ sig (Elt 𝕀)) : S2048x2048.Idx → EReal := Us11 V0 (Proc.devRef .tc main_v128)

theorem KX0_eq (V0 : Valuation τ sig (Elt 𝕀)) :
    KX0 V0 = shapeCast S2048x1024x2x1 (shapeCast S2048x2048x1 eye shapeCasts_S2048x2048_S2048x2048x1) shapeCasts_S2048x2048x1_S2048x1024x2x1 := by
  unfold KX0 Ue
  after_results
  rfl

theorem KX1_eq (V0 : Valuation τ sig (Elt 𝕀)) :
    KX1 V0 = stage (R := 2048) (h := 1024) (t := 1) (S3o := S2048x1024x2) (T := S2048x512x2x2) (KX0 V0)
      (by decide) (by decide) (by decide) (by decide) (by decide) (by decide) (by decide) := by
  unfold KX1 Us1 KX0
  generalize Ue V0 = U
  after_results
  rfl

theorem KX2_eq (V0 : Valuation τ sig (Elt 𝕀)) :
    KX2 V0 = stage (R := 2048) (h := 512) (t := 2) (S3o := S2048x512x4) (T := S2048x256x2x4) (KX1 V0)
      (by decide) (by decide) (by decide) (by decide) (by decide) (by decide) (by decide) := by
  unfold KX2 Us2 KX1
  generalize Us1 V0 = U
  after_results
  rfl

theorem KX3_eq (V0 : Valuation τ sig (Elt 𝕀)) :
    KX3 V0 = stage (R := 2048) (h := 256) (t := 4) (S3o := S2048x256x8) (T := S2048x128x2x8) (KX2 V0)
      (by decide) (by decide) (by decide) (by decide) (by decide) (by decide) (by decide) := by
  unfold KX3 Us3 KX2
  generalize Us2 V0 = U
  after_results
  rfl

theorem KX4_eq (V0 : Valuation τ sig (Elt 𝕀)) :
    KX4 V0 = stage (R := 2048) (h := 128) (t := 8) (S3o := S2048x128x16) (T := S2048x64x2x16) (KX3 V0)
      (by decide) (by decide) (by decide) (by decide) (by decide) (by decide) (by decide) := by
  unfold KX4 Us4 KX3
  generalize Us3 V0 = U
  after_results
  rfl

theorem KX5_eq (V0 : Valuation τ sig (Elt 𝕀)) :
    KX5 V0 = stage (R := 2048) (h := 64) (t := 16) (S3o := S2048x64x32) (T := S2048x32x2x32) (KX4 V0)
      (by decide) (by decide) (by decide) (by decide) (by decide) (by decide) (by decide) := by
  unfold KX5 Us5 KX4
  generalize Us4 V0 = U
  after_results
  rfl

theorem KX6_eq (V0 : Valuation τ sig (Elt 𝕀)) :
    KX6 V0 = stage (R := 2048) (h := 32) (t := 32) (S3o := S2048x32x64) (T := S2048x16x2x64) (KX5 V0)
      (by decide) (by decide) (by decide) (by decide) (by decide) (by decide) (by decide) := by
  unfold KX6 Us6 KX5
  generalize Us5 V0 = U
  after_results
  rfl

theorem KX7_eq (V0 : Valuation τ sig (Elt 𝕀)) :
    KX7 V0 = stage (R := 2048) (h := 16) (t := 64) (S3o := S2048x16x128) (T := S2048x8x2x128) (KX6 V0)
      (by decide) (by decide) (by decide) (by decide) (by decide) (by decide) (by decide) := by
  unfold KX7 Us7 KX6
  generalize Us6 V0 = U
  after_results
  rfl

theorem KX8_eq (V0 : Valuation τ sig (Elt 𝕀)) :
    KX8 V0 = stage (R := 2048) (h := 8) (t := 128) (S3o := S2048x8x256) (T := S2048x4x2x256) (KX7 V0)
      (by decide) (by decide) (by decide) (by decide) (by decide) (by decide) (by decide) := by
  unfold KX8 Us8 KX7
  generalize Us7 V0 = U
  after_results
  rfl

theorem KX9_eq (V0 : Valuation τ sig (Elt 𝕀)) :
    KX9 V0 = stage (R := 2048) (h := 4) (t := 256) (S3o := S2048x4x512) (T := S2048x2x2x512) (KX8 V0)
      (by decide) (by decide) (by decide) (by decide) (by decide) (by decide) (by decide) := by
  unfold KX9 Us9 KX8
  generalize Us8 V0 = U
  after_results
  rfl

theorem KX10_eq (V0 : Valuation τ sig (Elt 𝕀)) :
    KX10 V0 = stage (R := 2048) (h := 2) (t := 512) (S3o := S2048x2x1024) (T := S2048x1x2x1024) (KX9 V0)
      (by decide) (by decide) (by decide) (by decide) (by decide) (by decide) (by decide) := by
  unfold KX10 Us10 KX9
  generalize Us9 V0 = U
  after_results
  rfl

theorem KX11_eq (V0 : Valuation τ sig (Elt 𝕀)) :
    KX11 V0 = stage (R := 2048) (h := 1) (t := 1024) (S3o := S2048x1x2048) (T := S2048x2048) (KX10 V0)
      (by decide) (by decide) (by decide) (by decide) (by decide) (by decide) (by decide) := by
  unfold KX11 Us11 KX10
  generalize Us10 V0 = U
  after_results
  rfl

/-! ## What the first product reads -/

theorem tail_v133 (U : Valuation τ sig (Elt 𝕀)) :
    after (opsTail (F := 𝕀)) U (Proc.devRef .tc main_v133)
      = mulf (F := 𝕀) (φ := .f32) (U (Proc.devRef .tc main_v128)) (broadcastInDim S2048x2048 ![] bcast_S_S2048x2048 (constant (F := 𝕀) S_ .f32 0x3CB504F3#32)) := by
  after_results
  rfl

theorem tail_v134 (U : Valuation τ sig (Elt 𝕀)) :
    after (opsTail (F := 𝕀)) U (Proc.devRef .tc main_v134)
      = transpose S2048x2048 [1, 0] (U (Proc.devRef .tc main_arg1)) transposes_S2048x2048_S2048x2048_1_0 := by
  after_results
  rfl

theorem tail_v132 (U : Valuation τ sig (Elt 𝕀)) :
    after (opsTail (F := 𝕀)) U (Proc.devRef .tc main_v132)
      = broadcastInDim S1x2048 ![] bcast_S_S1x2048 (constant (F := 𝕀) S_ .f32 0x00000000#32) := by
  after_results

end Cert.KernelIdeal.HostValue

end
-- ==== Proof.KernelResult.lean ====
/-
  The idealized kernel's result as ONE function of its three arguments. Chaining the five segments: the result is the
  reshape of the second product's output; that product multiplies the input, flattened to rows, by the first product's
  output and adds the bias row; the first product multiplies the transformed, scaled identity matrix by the transposed
  weight and adds a zero row. (Rounding an operand to the narrower format is the identity at the exact values.)
-/
import proofs.«124037_j57294863729375_1_alg».proof.Proof.KernelRun
import proofs.«124037_j57294863729375_1_alg».proof.Proof.KernelRegions
import proofs.«124037_j57294863729375_1_alg».proof.Proof.KernelHost

set_option maxRecDepth 16384

noncomputable section

namespace Cert.KernelIdeal.Result

open Cert.KernelIdeal Cert.KernelIdeal.Gen Idealize.ShloMosaic Idealize.ShloMosaic.TcCoe Idealize.ShloMosaic.StableHlo Idealize.SL.Sem
open Cert.KernelIdeal.RegionValue Cert.KernelIdeal.HostValue

variable (m : (ℓ : Loc nD τ sig) → Buf (Elt Ideal) ℓ) (ρ : Dev nD → PrngReg)

/-! ## No operation of the first stretch writes an argument -/

theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## What the first product reads, and what it leaves -/

theorem V1_v133 (c : Dev nD) : V1 m ρ c main_v133
    = mulf (F := Ideal) (φ := .f32) (KX11 (W0 m ρ c)) (broadcastInDim S2048x2048 ![] bcast_S_S2048x2048 (constant (F := Ideal) S_ .f32 0x3CB504F3#32)) := by
  show after hostOps0 (W0 m ρ c) (Proc.devRef .tc main_v133) = _
  rw [after_hostOps0, tail_v133]
  rfl

/-- The weight reaches the tail of the first stretch as launched. -/
theorem Us11_arg1 (V0 : Valuation τ sig (Elt Ideal)) : Us11 V0 (Proc.devRef .tc main_arg1) = V0 (Proc.devRef .tc main_arg1) := by
  unfold Us11 Us10 Us9 Us8 Us7 Us6 Us5 Us4 Us3 Us2 Us1 Ue
  simp only [← after_append]
  exact StableHlo.after_of_forall_not_mem (b := Proc.devRef .tc main_arg1) _ _ (List.forall_iff_forall_mem.mp (by
    simp only [opsEye, opsStage1, opsStage2, opsStage3, opsStage4, opsStage5, opsStage6, opsStage7, opsStage8, opsStage9, opsStage10, opsStage11,
      List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

theorem V1_v134 (c : Dev nD) : V1 m ρ c main_v134
    = transpose S2048x2048 [1, 0] (m ((c : Thread nD τ).loc main_arg1)) transposes_S2048x2048_S2048x2048_1_0 := by
  show after hostOps0 (W0 m ρ c) (Proc.devRef .tc main_v134) = _
  rw [after_hostOps0, tail_v134, Us11_arg1]

theorem V1_v132 (c : Dev nD) : V1 m ρ c main_v132
    = broadcastInDim S1x2048 ![] bcast_S_S1x2048 (constant (F := Ideal) S_ .f32 0x00000000#32) := by
  show after hostOps0 (W0 m ρ c) (Proc.devRef .tc main_v132) = _
  rw [after_hostOps0]
  exact tail_v132 _

/-- The first product's output after its region. -/
theorem W2_v135 (c : Dev nD) : W2 m ρ c (Proc.devRef .tc main_v135)
    = rowsTimes (M := 2048)
        (mulf (F := Ideal) (φ := .f32) (KX11 (W0 m ρ c)) (broadcastInDim S2048x2048 ![] bcast_S_S2048x2048 (constant (F := Ideal) S_ .f32 0x3CB504F3#32)))
        (transpose S2048x2048 [1, 0] (m ((c : Thread nD τ).loc main_arg1)) transposes_S2048x2048_S2048x2048_1_0)
        (broadcastInDim S1x2048 ![] bcast_S_S1x2048 (constant (F := Ideal) S_ .f32 0x00000000#32)) := by
  refine (W2_arr m ρ c 3).trans ?_
  rw [final0]
  unfold G0
  rw [V1_v133, V1_v134, V1_v132]

/-! ## What the second product reads, and the result -/

theorem V3_v137 (c : Dev nD) : V3 m ρ c main_v137
    = shapeCast S16384x2048 (m ((c : Thread nD τ).loc main_arg0)) shapeCasts_S4x4096x2048_S16384x2048 := by
  have h : after hostOps1 (W2 m ρ c) (Proc.devRef .tc main_v137)
      = shapeCast S16384x2048 (W2 m ρ c (Proc.devRef .tc main_arg0)) shapeCasts_S4x4096x2048_S16384x2048 := by
    after_results
    rfl
  refine h.trans ?_
  rw [W2_of_ne m ρ c main_arg0 (by decide), W1_arg0]

theorem V3_v138 (c : Dev nD) : V3 m ρ c main_v138
    = shapeCast S1x2048 (m ((c : Thread nD τ).loc main_arg2)) shapeCasts_S2048_S1x2048 := by
  have h : after hostOps1 (W2 m ρ c) (Proc.devRef .tc main_v138)
      = shapeCast S1x2048 (W2 m ρ c (Proc.devRef .tc main_arg2)) shapeCasts_S2048_S1x2048 := by
    after_results
    rfl
  refine h.trans ?_
  rw [W2_of_ne m ρ c main_arg2 (by decide), W1_arg2]

theorem V3_v139 (c : Dev nD) : V3 m ρ c main_v139 = W2 m ρ c (Proc.devRef .tc main_v135) := by
  show after hostOps1 (W2 m ρ c) (Proc.devRef .tc main_v139) = _
  after_results
  rfl

/-- THE RESULT: the last boundary's contents of the result array are `kernelFun` of the launched arguments. -/
theorem result_eq (c : Dev nD) : W5 m ρ c (Proc.devRef .tc main_v141)
    = kernelFun (m ((c : Thread nD τ).loc main_arg0)) (m ((c : Thread nD τ).loc main_arg1)) (m ((c : Thread nD τ).loc main_arg2))
        (KX11 (W0 m ρ c)) := by
  have h5 : after hostOps2 (W4 m ρ c) (Proc.devRef .tc main_v141)
      = shapeCast S4x4096x2048 (W4 m ρ c (Proc.devRef .tc main_v140)) shapeCasts_S16384x2048_S4x4096x2048 := by
    after_results
    rfl
  refine h5.trans ?_
  unfold kernelFun
  refine congrArg (fun y => shapeCast S4x4096x2048 y shapeCasts_S16384x2048_S4x4096x2048) ?_
  refine (W4_arr m ρ c 3).trans ?_
  rw [final1]
  unfold G1
  rw [V3_v137, V3_v138, V3_v139, W2_v135]

/-- The run with the result named by that function. -/
theorem run : θ_run defs (onTc (τ := τ) (main (F := Ideal))) ⟨m, fun _ => 0, ρ⟩ (fun r => ∀ c : Dev nD,
      r.2.mem ((c.tc : Thread nD τ).loc main_v141)
        = kernelFun (m ((c : Thread nD τ).loc main_arg0)) (m ((c : Thread nD τ).loc main_arg1)) (m ((c : Thread nD τ).loc main_arg2))
            (KX11 (W0 m ρ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (RunValue.run m ρ)

end Cert.KernelIdeal.Result

end
-- ==== Proof.LibFlatButterfly.lean ====
/-
  Reading arrays by row-major position, and one radix-2 butterfly of a fast Walsh–Hadamard transform in that reading.

  * An array read at the row-major position of an index is the array at that index; below the number of entries,
    the reading at a position is the array at the index with that position (`lin_rowMajor`, `lin_of_lt`).
  * A reshape keeps each entry's row-major position, so it does not change the reading (`lin_shapeCast`).
  * On an array `X` of shape `[R, h, 2, t]` the position of `(r, a, e, c)` is `((r h + a) 2 + e) t + c`. The sum
    `X[:, :, 0, :] + X[:, :, 1, :]` placed at `e = 0` and the difference `X[:, :, 0, :] - X[:, :, 1, :]` placed at `e = 1`
    therefore hold, at position `p`, the value `X(p) + X(p + t)` when `(p / t) % 2 = 0` and `X(p - t) - X(p)` otherwise:
    one butterfly of stride `t` (`stage_lin`, and `stage_coe` for an array of finite reals).
-/
import proofs.«124037_j57294863729375_1_alg».proof.Proof.ButterflyDefs
import Idealize.ShloMosaic.Lib.Pipeline.Value
import Idealize.ShloMosaic.Lib.ValueIdx
import Idealize.ShloMosaic.PureOps.Ideal

noncomputable section

namespace Butterfly

open Idealize.ShloMosaic Idealize.ShloMosaic.ValueIdx

/-- An array read at the row-major position of an index is the array at that index. -/
theorem lin_rowMajor {s : Shape} (x : s.Idx → EReal) (i : s.Idx) : lin x (s.rowMajor i).val = x i := by
  unfold lin
  rw [dif_pos (s.rowMajor i).isLt]
  exact congrArg x (s.rowMajor.symm_apply_apply i)

/-- Below the number of entries, the reading at a position is the array at the index with that position. -/
theorem lin_of_lt {s : Shape} (x : s.Idx → EReal) (p : ℕ) (h : p < s.numel) :
    lin x p = x (s.rowMajor.symm ⟨p, h⟩) := by
  unfold lin
  rw [dif_pos h]

/-- Past the last entry the reading is zero. -/
theorem lin_of_ge {s : Shape} (x : s.Idx → EReal) (p : ℕ) (h : s.numel ≤ p) : lin x p = 0 := by
  unfold lin
  rw [dif_neg (Nat.not_lt.2 h)]

/-- A reshape keeps every entry's row-major position, so the reading by position is unchanged. -/
theorem lin_shapeCast {s t : Shape} (x : s.Idx → EReal) (h : s.ShapeCasts t) : lin (shapeCast t x h) = lin x := by
  funext p
  have hn : t.numel = s.numel := h
  by_cases hp : p < t.numel
  · have hp' : p < s.numel := hn ▸ hp
    rw [lin_of_lt _ p hp, lin_of_lt _ p hp']
    refine shapeCast_apply x h _ _ ?_
    simp
  · have hp' : ¬ p < s.numel := hn ▸ hp
    rw [lin_of_ge _ p (Nat.not_lt.1 hp), lin_of_ge _ p (Nat.not_lt.1 hp')]

/-- The number of entries of `[R, h, 2, t]`. -/
theorem numel_S4 (R h t : ℕ) : (S4 R h t).numel = R * h * 2 * t := by
  simp [Shape.numel, Fin.prod_univ_succ, Nat.mul_assoc]

/-- The entry `(r, a, e, c)` of an array of shape `[R, h, 2, t]` sits at position `((r h + a) 2 + e) t + c`. -/
theorem lin_ix4 {R h t : ℕ} (X : (S4 R h t).Idx → EReal) (r : Fin R) (a : Fin h) (e : Fin 2) (c : Fin t) :
    lin X (((r.val * h + a.val) * 2 + e.val) * t + c.val) = X (ix4 r a e c) := by
  have hpos : ((S4 R h t).rowMajor (ix4 r a e c)).val = ((r.val * h + a.val) * 2 + e.val) * t + c.val :=
    Shape.rowMajor_val_four _
  rw [← hpos]
  exact lin_rowMajor X _

/-- Every position below `R h 2 t` is the position `((r h + a) 2 + e) t + c` of one index `(r, a, e, c)`. -/
theorem exists_coords {R h t : ℕ} (p : ℕ) (hp : p < R * h * 2 * t) :
    ∃ (r : Fin R) (a : Fin h) (e : Fin 2) (c : Fin t), p = ((r.val * h + a.val) * 2 + e.val) * t + c.val := by
  have hp4 : p < (S4 R h t).numel := by rw [numel_S4]; exact hp
  let j : (S4 R h t).Idx := (S4 R h t).rowMajor.symm ⟨p, hp4⟩
  have hj : ((S4 R h t).rowMajor j).val = p := by
    show ((S4 R h t).rowMajor ((S4 R h t).rowMajor.symm ⟨p, hp4⟩)).val = p
    rw [Equiv.apply_symm_apply]
  refine ⟨j 0, j 1, j 2, j 3, ?_⟩
  rw [← hj]
  exact Shape.rowMajor_val_four j

/-- The slice `X[:, :, o, :]` (`o = 0` or `1`) reshaped to `[R, h, t]`, read at `(r, a, c)`, is `X (r, a, o, c)`. -/
theorem slice_apply {R h t : ℕ} (X : (S4 R h t).Idx → EReal) (o : ℕ)
    (hs : (S4 R h t).Slices ![0, 0, o, 0] (S41 R h t)) (hc : (S41 R h t).ShapeCasts (S3 R h t))
    (r : Fin R) (a : Fin h) (c : Fin t) (e : Fin 2) (he : e.val = o) :
    shapeCast (S3 R h t) (extractStridedSlice (S41 R h t) ![0, 0, o, 0] X hs) hc (ix3 r a c) = X (ix4 r a e c) := by
  refine (shapeCast_apply _ hc (ix3 r a c) (ix4 r a (0 : Fin 1) c) ?_).trans ?_
  · rw [Shape.rowMajor_val_four, Shape.rowMajor_val_three]
    show ((r.val * h + a.val) * 1 + 0) * t + c.val = (r.val * h + a.val) * t + c.val
    rw [Nat.mul_one, Nat.add_zero]
  · refine extractStridedSlice_apply _ X hs _ (ix4 r a e c) fun b => ?_
    match b with
    | ⟨0, _⟩ => show r.val = 0 + r.val; omega
    | ⟨1, _⟩ => show a.val = 0 + a.val; omega
    | ⟨2, _⟩ => show e.val = o + 0; omega
    | ⟨3, _⟩ => show c.val = 0 + c.val; omega

/-- An array of shape `[R, h, t]` given a unit axis in third place, read at `(r, a, 0, c)`, is the array at `(r, a, c)`. -/
theorem bcast_apply {R h t : ℕ} (Y : (S3 R h t).Idx → EReal) (hb : (S3 R h t).BroadcastsInDim (S41 R h t) ![0, 1, 3])
    (r : Fin R) (a : Fin h) (z : Fin 1) (c : Fin t) :
    broadcastInDim (S41 R h t) ![0, 1, 3] hb Y (ix4 r a z c) = Y (ix3 r a c) := by
  refine broadcastInDim_apply _ hb Y _ (ix3 r a c) fun b => ?_
  match b with
  | ⟨0, _⟩ =>
    show r.val = if R = 1 then 0 else r.val
    split_ifs with h1
    · have := r.isLt; omega
    · rfl
  | ⟨1, _⟩ =>
    show a.val = if h = 1 then 0 else a.val
    split_ifs with h1
    · have := a.isLt; omega
    · rfl
  | ⟨2, _⟩ =>
    show c.val = if t = 1 then 0 else c.val
    split_ifs with h1
    · have := c.isLt; omega
    · rfl

/-- Two arrays of shape `[R, h, 1, t]` concatenated along the unit axis: at `(r, a, 0, c)` the first one. -/
theorem concat_lo {R h t : ℕ} (A B : (S41 R h t).Idx → EReal)
    (hcat : Shape.Concatenates [S41 R h t, S41 R h t] (S4 R h t) 2) (r : Fin R) (a : Fin h) (c : Fin t) :
    concatenate (S4 R h t) 2 [⟨S41 R h t, A⟩, ⟨S41 R h t, B⟩] hcat (ix4 r a (0 : Fin 2) c) = A (ix4 r a (0 : Fin 1) c) := by
  refine concatenate_pair_apply_left (2 : Fin (S4 R h t).rank) A B hcat _ rfl (ix4 r a (0 : Fin 1) c) fun b => ?_
  match b with
  | ⟨0, _⟩ => rfl
  | ⟨1, _⟩ => rfl
  | ⟨2, _⟩ => rfl
  | ⟨3, _⟩ => rfl

/-- Two arrays of shape `[R, h, 1, t]` concatenated along the unit axis: at `(r, a, 1, c)` the second one. -/
theorem concat_hi {R h t : ℕ} (A B : (S41 R h t).Idx → EReal)
    (hcat : Shape.Concatenates [S41 R h t, S41 R h t] (S4 R h t) 2) (r : Fin R) (a : Fin h) (c : Fin t) :
    concatenate (S4 R h t) 2 [⟨S41 R h t, A⟩, ⟨S41 R h t, B⟩] hcat (ix4 r a (1 : Fin 2) c) = B (ix4 r a (0 : Fin 1) c) := by
  refine concatenate_pair_apply_right (2 : Fin (S4 R h t).rank) A B hcat _ rfl rfl (ix4 r a (0 : Fin 1) c) (fun b hb => ?_) rfl
  match b, hb with
  | ⟨0, _⟩, _ => rfl
  | ⟨1, _⟩, _ => rfl
  | ⟨2, _⟩, hb => exact absurd rfl hb
  | ⟨3, _⟩, _ => rfl

/-- The stage before its two final reshapes: the sum and the difference of the two slices, concatenated. -/
def stageCore {R h t : ℕ} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2) : (S4 R h t).Idx → EReal :=
  concatenate (S4 R h t) 2
    [⟨S41 R h t, broadcastInDim (S41 R h t) ![0, 1, 3] hb
        (addf (F := Ideal) (φ := .f32) (shapeCast (S3 R h t) (extractStridedSlice (S41 R h t) ![0, 0, 0, 0] X hs0) hc)
              (shapeCast (S3 R h t) (extractStridedSlice (S41 R h t) ![0, 0, 1, 0] X hs1) hc))⟩,
     ⟨S41 R h t, broadcastInDim (S41 R h t) ![0, 1, 3] hb
        (subf (F := Ideal) (φ := .f32) (shapeCast (S3 R h t) (extractStridedSlice (S41 R h t) ![0, 0, 0, 0] X hs0) hc)
              (shapeCast (S3 R h t) (extractStridedSlice (S41 R h t) ![0, 0, 1, 0] X hs1) hc))⟩]
    hcat

/-- The stage is two reshapes of `stageCore`. -/
theorem stage_eq_stageCore {R h t : ℕ} {S3o T : Shape} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2)
    (h1 : (S4 R h t).ShapeCasts S3o) (h2 : S3o.ShapeCasts T) :
    stage X hs0 hs1 hc hb hcat h1 h2 = shapeCast T (shapeCast S3o (stageCore X hs0 hs1 hc hb hcat) h1) h2 := rfl

/-- The stage in coordinates, lower half: at `(r, a, 0, c)` it holds `X (r, a, 0, c) + X (r, a, 1, c)`. -/
theorem stageCore_lo {R h t : ℕ} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2) (r : Fin R) (a : Fin h) (c : Fin t) :
    stageCore X hs0 hs1 hc hb hcat (ix4 r a (0 : Fin 2) c) = X (ix4 r a (0 : Fin 2) c) + X (ix4 r a (1 : Fin 2) c) := by
  unfold stageCore
  rw [concat_lo, bcast_apply]
  show shapeCast (S3 R h t) (extractStridedSlice (S41 R h t) ![0, 0, 0, 0] X hs0) hc (ix3 r a c)
      + shapeCast (S3 R h t) (extractStridedSlice (S41 R h t) ![0, 0, 1, 0] X hs1) hc (ix3 r a c) = _
  rw [slice_apply X 0 hs0 hc r a c (0 : Fin 2) rfl, slice_apply X 1 hs1 hc r a c (1 : Fin 2) rfl]

/-- The stage in coordinates, upper half: at `(r, a, 1, c)` it holds `X (r, a, 0, c) - X (r, a, 1, c)`. -/
theorem stageCore_hi {R h t : ℕ} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2) (r : Fin R) (a : Fin h) (c : Fin t) :
    stageCore X hs0 hs1 hc hb hcat (ix4 r a (1 : Fin 2) c) = X (ix4 r a (0 : Fin 2) c) - X (ix4 r a (1 : Fin 2) c) := by
  unfold stageCore
  rw [concat_hi, bcast_apply]
  show shapeCast (S3 R h t) (extractStridedSlice (S41 R h t) ![0, 0, 0, 0] X hs0) hc (ix3 r a c)
      - shapeCast (S3 R h t) (extractStridedSlice (S41 R h t) ![0, 0, 1, 0] X hs1) hc (ix3 r a c) = _
  rw [slice_apply X 0 hs0 hc r a c (0 : Fin 2) rfl, slice_apply X 1 hs1 hc r a c (1 : Fin 2) rfl]

/-- With `c < t` and `e < 2`, the position `(m 2 + e) t + c` has `(p / t) % 2 = e`. -/
theorem pos_parity (m e c t : ℕ) (hc : c < t) (he : e < 2) : (((m * 2 + e) * t + c) / t) % 2 = e := by
  have ht : 0 < t := Nat.lt_of_le_of_lt (Nat.zero_le _) hc
  rw [Nat.add_comm, Nat.add_mul_div_right _ _ ht, Nat.div_eq_of_lt hc, Nat.zero_add]
  omega

/-- One stage read by position is one butterfly of stride `t` of the operand read by position. -/
theorem stage_lin {R h t : ℕ} {S3o T : Shape} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2)
    (h1 : (S4 R h t).ShapeCasts S3o) (h2 : S3o.ShapeCasts T) (p : ℕ) (hp : p < R * h * 2 * t) :
    lin (stage X hs0 hs1 hc hb hcat h1 h2) p = bfE t (lin X) p := by
  rw [stage_eq_stageCore, lin_shapeCast, lin_shapeCast]
  obtain ⟨r, a, e, c, rfl⟩ := exists_coords (R := R) (h := h) (t := t) p hp
  rw [lin_ix4]
  unfold bfE
  match e with
  | ⟨0, _⟩ =>
    have hpar := pos_parity (r.val * h + a.val) 0 c.val t c.isLt (by omega)
    show stageCore X hs0 hs1 hc hb hcat (ix4 r a (0 : Fin 2) c)
      = if (((r.val * h + a.val) * 2 + 0) * t + c.val) / t % 2 = 0
        then lin X (((r.val * h + a.val) * 2 + 0) * t + c.val) + lin X (((r.val * h + a.val) * 2 + 0) * t + c.val + t)
        else lin X (((r.val * h + a.val) * 2 + 0) * t + c.val - t) - lin X (((r.val * h + a.val) * 2 + 0) * t + c.val)
    rw [if_pos hpar, stageCore_lo]
    have e0 : lin X (((r.val * h + a.val) * 2 + 0) * t + c.val) = X (ix4 r a (0 : Fin 2) c) := lin_ix4 X r a 0 c
    have e1 : lin X (((r.val * h + a.val) * 2 + 1) * t + c.val) = X (ix4 r a (1 : Fin 2) c) := lin_ix4 X r a 1 c
    have hpt : ((r.val * h + a.val) * 2 + 0) * t + c.val + t = ((r.val * h + a.val) * 2 + 1) * t + c.val := by ring
    rw [hpt, e0, e1]
  | ⟨1, _⟩ =>
    have hpar := pos_parity (r.val * h + a.val) 1 c.val t c.isLt (by omega)
    show stageCore X hs0 hs1 hc hb hcat (ix4 r a (1 : Fin 2) c)
      = if (((r.val * h + a.val) * 2 + 1) * t + c.val) / t % 2 = 0
        then lin X (((r.val * h + a.val) * 2 + 1) * t + c.val) + lin X (((r.val * h + a.val) * 2 + 1) * t + c.val + t)
        else lin X (((r.val * h + a.val) * 2 + 1) * t + c.val - t) - lin X (((r.val * h + a.val) * 2 + 1) * t + c.val)
    rw [if_neg (by rw [hpar]; exact Nat.one_ne_zero), stageCore_hi]
    have e0 : lin X (((r.val * h + a.val) * 2 + 0) * t + c.val) = X (ix4 r a (0 : Fin 2) c) := lin_ix4 X r a 0 c
    have e1 : lin X (((r.val * h + a.val) * 2 + 1) * t + c.val) = X (ix4 r a (1 : Fin 2) c) := lin_ix4 X r a 1 c
    have hpt : ((r.val * h + a.val) * 2 + 1) * t + c.val - t = ((r.val * h + a.val) * 2 + 0) * t + c.val := by
      apply Nat.sub_eq_of_eq_add; ring
    rw [hpt, e0, e1]

/-- In the lower half of a block the partner position `p + t` is still inside the array: `p / t` is even and below the
    even number `R h 2`, so `p / t + 2 ≤ R h 2`, and `p + t < (p / t + 2) t`. -/
theorem partner_lt (R h t p : ℕ) (hp : p < R * h * 2 * t) (hpar : (p / t) % 2 = 0) : p + t < R * h * 2 * t := by
  have ht : 0 < t := by
    rcases Nat.eq_zero_or_pos t with h0 | h0
    · subst h0; simp at hp
    · exact h0
  have hq : p / t < R * h * 2 := (Nat.div_lt_iff_lt_mul ht).2 hp
  have hq2 : p / t + 2 ≤ R * h * 2 := by
    generalize R * h = M at hq ⊢
    omega
  have hdm := Nat.div_add_mod p t
  have hm := Nat.mod_lt p ht
  have hle := Nat.mul_le_mul_left t hq2
  rw [Nat.mul_add] at hle
  rw [Nat.mul_comm (R * h * 2) t]
  omega

/-- One stage on an array of finite reals: if the operand read by position is the real sequence `g`, the stage read by
    position is the real butterfly `bf t g` (no infinity arises, so sum and difference are the real ones). -/
theorem stage_coe {R h t : ℕ} {S3o T : Shape} (X : (S4 R h t).Idx → EReal)
    (hs0 : (S4 R h t).Slices ![0, 0, 0, 0] (S41 R h t)) (hs1 : (S4 R h t).Slices ![0, 0, 1, 0] (S41 R h t))
    (hc : (S41 R h t).ShapeCasts (S3 R h t)) (hb : (S3 R h t).BroadcastsInDim (S41 R h t) ![0, 1, 3])
    (hcat : Shape.Concatenates [S41 R h t, S41 R h t] (S4 R h t) 2)
    (h1 : (S4 R h t).ShapeCasts S3o) (h2 : S3o.ShapeCasts T) (g : ℕ → ℝ)
    (H : ∀ p, p < R * h * 2 * t → lin X p = ((g p : ℝ) : EReal))
    (p : ℕ) (hp : p < R * h * 2 * t) :
    lin (stage X hs0 hs1 hc hb hcat h1 h2) p = ((bf t g p : ℝ) : EReal) := by
  rw [stage_lin X hs0 hs1 hc hb hcat h1 h2 p hp]
  unfold bfE bf
  by_cases hpar : (p / t) % 2 = 0
  · rw [if_pos hpar, if_pos hpar, H p hp, H (p + t) (partner_lt R h t p hp hpar), EReal.coe_add]
  · rw [if_neg hpar, if_neg hpar, H p hp, H (p - t) (Nat.lt_of_le_of_lt (Nat.sub_le p t) hp), EReal.coe_sub]

end Butterfly

end
-- ==== Proof.LibHadamardRows.lean ====
/-
  The fast Walsh–Hadamard transform on rows stored one after another is one linear map applied to every row.

  A sequence holds rows of length 2048 one after another: row r occupies the positions r·2048, …, r·2048 + 2047.
  One butterfly of stride t (t a power of two dividing 1024) pairs the positions p and p + t whose quotient p / t is
  even.  Because 2t divides the row length, the parity of p / t depends only on the offset of p inside its row, a
  lower partner's upper partner is in the same row, and an upper partner's lower partner is in the same row.  These
  three facts are collected in Stride.

  The invariant carried through one butterfly (bf_rows): if every entry of row r of G is the combination
  Σ_i a_i · D(i·n + j) of the entries at the same offset j of the rows of D, with coefficients a_i that do not depend
  on j, then the same holds, with the same coefficients, after one butterfly has been applied to G and to D.

  Starting from the identity matrix delta stored row after row (row r of any g is Σ_i g(r·2048 + i) · row i of delta)
  and passing through the eleven butterflies of strides 1, 2, …, 1024 gives (fwht_rows):
       fwht g (r·2048 + d) = Σ_{i < 2048} g (r·2048 + i) · fwht delta (i·2048 + d),
  so the transformed identity matrix is the matrix of the transform.

  The last part is the law that joins a contraction with a scaled matrix to a scaled contraction followed by the
  second contraction: Σ_i a_i · (Σ_k (H_{ik} s) w_k + 0) + β = Σ_d ((Σ_i a_i H_{id}) s) w_d + β, over the reals and,
  when every number is a real number read as an extended real, over the extended reals.
-/
import proofs.«124037_j57294863729375_1_alg».proof.Proof.ButterflyDefs
import Mathlib.Algebra.BigOperators.Fin
import Mathlib.Algebra.BigOperators.Ring.Finset
import Mathlib.Data.EReal.Basic
import Mathlib.Tactic.Ring

noncomputable section

namespace Butterfly

open Finset

/-- What a butterfly of stride t needs from rows of length n: the half (lower or upper) a position lies in is
    decided by its offset in the row, and both partners of a pair lie in the same row. -/
structure Stride (n t : ℕ) : Prop where
  /-- the parity of the quotient by t is that of the offset in the row -/
  par : ∀ r j, ((r * n + j) / t) % 2 = (j / t) % 2
  /-- a lower partner's upper partner is in the row -/
  up : ∀ j, j < n → (j / t) % 2 = 0 → j + t < n
  /-- an upper partner is at offset at least t, so that its lower partner is in the row -/
  dn : ∀ j, (j / t) % 2 ≠ 0 → t ≤ j

/-- Every power of two up to 1024 is a stride for rows of length 2048. -/
theorem stride_2048 : ∀ t ∈ [1, 2, 4, 8, 16, 32, 64, 128, 256, 512, 1024], Stride 2048 t := by
  intro t ht
  simp only [List.mem_cons, List.mem_nil_iff, or_false] at ht
  -- for each literal stride the three facts are linear arithmetic with division by a literal
  rcases ht with rfl | rfl | rfl | rfl | rfl | rfl | rfl | rfl | rfl | rfl | rfl <;>
    exact ⟨fun r j => by omega, fun j hj h => by omega, fun j h => by omega⟩

/-- One butterfly keeps "row r of G is the combination, with coefficients a, of the rows of D". -/
theorem bf_rows {n t : ℕ} (hs : Stride n t) (a : ℕ → ℝ) (G D : ℕ → ℝ) (r : ℕ)
    (H : ∀ j, j < n → G (r * n + j) = ∑ i ∈ Finset.range n, a i * D (i * n + j)) :
    ∀ j, j < n → bf t G (r * n + j) = ∑ i ∈ Finset.range n, a i * bf t D (i * n + j) := by
  intro j hj
  by_cases hp : (j / t) % 2 = 0
  · -- lower half: the new entry is the sum of the entries at offsets j and j + t, in every row
    have hjt : j + t < n := hs.up j hj hp
    have hL : bf t G (r * n + j) = G (r * n + j) + G (r * n + (j + t)) := by
      simp only [bf]
      rw [if_pos (by rw [hs.par]; exact hp), Nat.add_assoc]
    have hR : ∀ i ∈ Finset.range n,
        a i * bf t D (i * n + j) = a i * D (i * n + j) + a i * D (i * n + (j + t)) := by
      intro i _
      simp only [bf]
      rw [if_pos (by rw [hs.par]; exact hp), Nat.add_assoc, mul_add]
    rw [hL, Finset.sum_congr rfl hR, Finset.sum_add_distrib, H j hj, H (j + t) hjt]
  · -- upper half: the new entry is the entry at offset j − t minus the entry at offset j, in every row
    have htj : t ≤ j := hs.dn j hp
    have hjt : j - t < n := lt_of_le_of_lt (Nat.sub_le j t) hj
    have hL : bf t G (r * n + j) = G (r * n + (j - t)) - G (r * n + j) := by
      simp only [bf]
      rw [if_neg (by rw [hs.par]; exact hp), Nat.add_sub_assoc htj]
    have hR : ∀ i ∈ Finset.range n,
        a i * bf t D (i * n + j) = a i * D (i * n + (j - t)) - a i * D (i * n + j) := by
      intro i _
      simp only [bf]
      rw [if_neg (by rw [hs.par]; exact hp), Nat.add_sub_assoc htj, mul_sub]
    rw [hL, Finset.sum_congr rfl hR, Finset.sum_sub_distrib, H (j - t) hjt, H j hj]

/-- The eleven butterflies of strides 1, 2, 4, …, 1024: the fast Walsh–Hadamard transform of rows of length 2048. -/
def fwht (g : ℕ → ℝ) : ℕ → ℝ :=
  bf 1024 (bf 512 (bf 256 (bf 128 (bf 64 (bf 32 (bf 16 (bf 8 (bf 4 (bf 2 (bf 1 g))))))))))

/-- The 2048 × 2048 identity matrix stored row after row. -/
def delta : ℕ → ℝ := fun p => if p / 2048 = p % 2048 then 1 else 0

/-- Every row is the combination of the rows of the identity matrix with the row's own entries as coefficients. -/
theorem delta_rows (g : ℕ → ℝ) (r : ℕ) :
    ∀ j, j < 2048 → g (r * 2048 + j) = ∑ i ∈ Finset.range 2048, g (r * 2048 + i) * delta (i * 2048 + j) := by
  intro j hj
  -- only the term i = j is not zero
  rw [Finset.sum_eq_single j]
  · have h1 : (j * 2048 + j) / 2048 = (j * 2048 + j) % 2048 := by omega
    simp only [delta]
    rw [if_pos h1, mul_one]
  · intro i _ hij
    have h1 : ¬ ((i * 2048 + j) / 2048 = (i * 2048 + j) % 2048) := by omega
    simp only [delta]
    rw [if_neg h1, mul_zero]
  · intro hn
    exact absurd (Finset.mem_range.mpr hj) hn

/-- The transform of a row is the combination of the transformed rows of the identity matrix: the transformed
    identity matrix is the matrix of the transform. -/
theorem fwht_rows (g : ℕ → ℝ) (r d : ℕ) (hd : d < 2048) :
    fwht g (r * 2048 + d) = ∑ i ∈ Finset.range 2048, g (r * 2048 + i) * fwht delta (i * 2048 + d) := by
  -- one butterfly, with the coefficients of row r fixed
  have step : ∀ t, Stride 2048 t → ∀ G D : ℕ → ℝ,
      (∀ j, j < 2048 → G (r * 2048 + j) = ∑ i ∈ Finset.range 2048, g (r * 2048 + i) * D (i * 2048 + j)) →
      (∀ j, j < 2048 → bf t G (r * 2048 + j)
          = ∑ i ∈ Finset.range 2048, g (r * 2048 + i) * bf t D (i * 2048 + j)) :=
    fun t hs G D H => bf_rows hs (fun i => g (r * 2048 + i)) G D r H
  have s : ∀ t, t ∈ [1, 2, 4, 8, 16, 32, 64, 128, 256, 512, 1024] → Stride 2048 t := stride_2048
  unfold fwht
  exact step 1024 (s _ (by simp)) _ _ (step 512 (s _ (by simp)) _ _ (step 256 (s _ (by simp)) _ _
    (step 128 (s _ (by simp)) _ _ (step 64 (s _ (by simp)) _ _ (step 32 (s _ (by simp)) _ _
    (step 16 (s _ (by simp)) _ _ (step 8 (s _ (by simp)) _ _ (step 4 (s _ (by simp)) _ _
    (step 2 (s _ (by simp)) _ _ (step 1 (s _ (by simp)) _ _ (delta_rows g r))))))))))) d hd

/-- The same with the sum taken over the finite type of offsets. -/
theorem fwht_rows_fin (g : ℕ → ℝ) (r d : ℕ) (hd : d < 2048) :
    fwht g (r * 2048 + d) = ∑ i : Fin 2048, g (r * 2048 + i.val) * fwht delta (i.val * 2048 + d) := by
  rw [fwht_rows g r d hd, Finset.sum_range]

/-- Contracting with a scaled matrix and then with a second vector is contracting with the matrix, scaling, and
    contracting with the second vector. -/
theorem assoc_scale {ι : Type} [Fintype ι] (a : ι → ℝ) (Hd : ι → ι → ℝ) (w : ι → ℝ) (s β : ℝ) :
    (∑ i, a i * ((∑ k, (Hd i k * s) * w k) + 0)) + β = (∑ d, ((∑ i, a i * Hd i d) * s) * w d) + β := by
  congr 1
  simp only [add_zero, Finset.mul_sum, Finset.sum_mul]
  -- both sides are the double sum of a i · H i d · s · w d; exchange the order of summation
  rw [Finset.sum_comm]
  exact Finset.sum_congr rfl (fun d _ => Finset.sum_congr rfl (fun i _ => by ring))

/-- A finite sum of real numbers read as extended reals is the real sum read as an extended real. -/
theorem coe_sum {α : Type} (s : Finset α) (f : α → ℝ) :
    (∑ i ∈ s, ((f i : ℝ) : EReal)) = ((∑ i ∈ s, f i : ℝ) : EReal) := by
  classical
  -- by induction on the index set: reading a real as an extended real keeps 0 and sums
  refine Finset.induction_on s ?_ ?_
  · simp
  · intro b s hb ih
    rw [Finset.sum_insert hb, Finset.sum_insert hb, ih, EReal.coe_add]

/-- A contraction of real numbers formed on the extended reals is the real contraction. -/
theorem coe_sum_mul {α : Type} (s : Finset α) (f g : α → ℝ) :
    (∑ i ∈ s, ((f i : ℝ) : EReal) * ((g i : ℝ) : EReal)) = ((∑ i ∈ s, f i * g i : ℝ) : EReal) := by
  rw [← coe_sum s (fun i => f i * g i)]
  exact Finset.sum_congr rfl (fun i _ => (EReal.coe_mul (f i) (g i)).symm)

/-- The left side of the joining law, formed on the extended reals from real numbers, is the real left side. -/
theorem assoc_scale_left_coe {ι : Type} [Fintype ι] (a : ι → ℝ) (Hd : ι → ι → ℝ) (w : ι → ℝ) (s β : ℝ) :
    (∑ i, ((a i : ℝ) : EReal)
        * ((∑ k, (((Hd i k : ℝ) : EReal) * ((s : ℝ) : EReal)) * ((w k : ℝ) : EReal)) + ((0 : ℝ) : EReal)))
      + ((β : ℝ) : EReal)
    = (((∑ i, a i * ((∑ k, (Hd i k * s) * w k) + 0)) + β : ℝ) : EReal) := by
  simp only [← EReal.coe_mul, coe_sum, ← EReal.coe_add]

/-- The right side of the joining law, formed on the extended reals from real numbers, is the real right side. -/
theorem assoc_scale_right_coe {ι : Type} [Fintype ι] (a : ι → ℝ) (Hd : ι → ι → ℝ) (w : ι → ℝ) (s β : ℝ) :
    (∑ d, ((∑ i, ((a i : ℝ) : EReal) * ((Hd i d : ℝ) : EReal)) * ((s : ℝ) : EReal)) * ((w d : ℝ) : EReal))
      + ((β : ℝ) : EReal)
    = (((∑ d, ((∑ i, a i * Hd i d) * s) * w d) + β : ℝ) : EReal) := by
  simp only [← EReal.coe_mul, coe_sum, ← EReal.coe_add]

/-- The joining law on the extended reals, every number a real number read as an extended real. -/
theorem assoc_scale_coe {ι : Type} [Fintype ι] (a : ι → ℝ) (Hd : ι → ι → ℝ) (w : ι → ℝ) (s β : ℝ) :
    (∑ i, ((a i : ℝ) : EReal)
        * ((∑ k, (((Hd i k : ℝ) : EReal) * ((s : ℝ) : EReal)) * ((w k : ℝ) : EReal)) + ((0 : ℝ) : EReal)))
      + ((β : ℝ) : EReal)
    = (∑ d, ((∑ i, ((a i : ℝ) : EReal) * ((Hd i d : ℝ) : EReal)) * ((s : ℝ) : EReal)) * ((w d : ℝ) : EReal))
      + ((β : ℝ) : EReal) := by
  rw [assoc_scale_left_coe, assoc_scale_right_coe, assoc_scale]

/-- The joining law on the extended reals with the added zero written as the extended real 0. -/
theorem assoc_scale_coe' {ι : Type} [Fintype ι] (a : ι → ℝ) (Hd : ι → ι → ℝ) (w : ι → ℝ) (s β : ℝ) :
    (∑ i, ((a i : ℝ) : EReal)
        * ((∑ k, (((Hd i k : ℝ) : EReal) * ((s : ℝ) : EReal)) * ((w k : ℝ) : EReal)) + (0 : EReal)))
      + ((β : ℝ) : EReal)
    = (∑ d, ((∑ i, ((a i : ℝ) : EReal) * ((Hd i d : ℝ) : EReal)) * ((s : ℝ) : EReal)) * ((w d : ℝ) : EReal))
      + ((β : ℝ) : EReal) := by
  rw [← EReal.coe_zero]
  exact assoc_scale_coe a Hd w s β

end Butterfly

end
-- ==== Proof.IdentityMatrix.lean ====
/-
  The identity matrix the kernel's host program builds, read entry by entry and by row-major position.

  The host program forms the 2048 × 2048 array whose entry (i, k) is the 32-bit comparison "i + 0 = k" of the two
  coordinate arrays, turned from one bit into a number: 1 where i = k and 0 elsewhere.  Coordinates below 2048 are
  kept exactly by 32-bit words, so the comparison of the words is the comparison of the coordinates.  The entry
  (i, k) sits at row-major position i · 2048 + k; hence the array read by position is the sequence that is 1 at the
  positions p with p / 2048 = p % 2048 and 0 elsewhere.
-/
import proofs.«124037_j57294863729375_1_alg».proof.Proof.ButterflyDefs
import proofs.«124037_j57294863729375_1_alg».proof.Proof.LibHadamardRows
import Idealize.ShloMosaic.Lib.Pipeline.Value
import Idealize.ShloMosaic.Lib.ValueIdx
import Idealize.ShloMosaic.PureOps.Ideal

noncomputable section

namespace Cert.IdentityMatrix

open Idealize.ShloMosaic Idealize.ShloMosaic.ValueIdx

/-- The matrix's shape and the scalar shape. -/
abbrev S : Shape := ⟨2, ![2048, 2048]⟩
abbrev S_ : Shape := ⟨0, ![]⟩

/-- The host program's identity matrix: the comparison of the row coordinate plus zero with the column coordinate,
    converted from a bit to a number. -/
abbrev E (h : S_.BroadcastsInDim S ![]) : S.Idx → EReal :=
  uitofp (F := Ideal) .f32
    (cmpi .eq (addi (iotaInDim S 32 0) (broadcastInDim S ![] h (constantI S_ 32 0#32))) (iotaInDim S 32 1))

/-- Words of coordinates below 2048 are equal only for equal coordinates. -/
theorem ofNat_inj (i k : Fin 2048) (hh : BitVec.ofNat 32 i.val = BitVec.ofNat 32 k.val) : i = k := by
  have h1 := congrArg BitVec.toNat hh
  simp only [BitVec.toNat_ofNat] at h1
  have hi := i.isLt
  have hk := k.isLt
  rw [Nat.mod_eq_of_lt (by omega), Nat.mod_eq_of_lt (by omega)] at h1
  exact Fin.ext h1

/-- The entry (i, k) of the host program's matrix is 1 on the diagonal and 0 off it. -/
theorem E_apply (h : S_.BroadcastsInDim S ![]) (i k : Fin 2048) :
    E h (ix2 i k) = if i = k then (1 : EReal) else 0 := by
  have e : E h (ix2 i k)
      = (((BitVec.ofBool (BitVec.ofNat 32 i.val + 0#32 == BitVec.ofNat 32 k.val)).toNat : ℝ) : EReal) := rfl
  rw [e, BitVec.add_zero]
  by_cases hik : i = k
  · subst hik
    rw [if_pos rfl]
    simp
  · have hne : (BitVec.ofNat 32 i.val == BitVec.ofNat 32 k.val) = false := by
      rw [beq_eq_false_iff_ne]
      exact fun hh => hik (ofNat_inj i k hh)
    rw [hne, if_neg hik]
    simp

/-- Read by row-major position, the host program's matrix is the identity matrix stored row after row. -/
theorem lin_E (h : S_.BroadcastsInDim S ![]) (p : ℕ) (hp : p < 2048 * 2048) :
    Butterfly.lin (E h) p = ((Butterfly.delta p : ℝ) : EReal) := by
  have hn : S.numel = 2048 * 2048 := by decide
  have hp' : p < S.numel := by rw [hn]; exact hp
  have hi : p / 2048 < 2048 := by omega
  have hk : p % 2048 < 2048 := by omega
  -- the index at position p is (p / 2048, p % 2048)
  have hidx : S.rowMajor.symm ⟨p, hp'⟩ = ix2 (⟨p / 2048, hi⟩ : Fin 2048) (⟨p % 2048, hk⟩ : Fin 2048) := by
    rw [Equiv.symm_apply_eq]
    apply Fin.ext
    rw [Shape.rowMajor_val_two]
    show p = p / 2048 * 2048 + p % 2048
    omega
  unfold Butterfly.lin
  rw [dif_pos hp', hidx, E_apply]
  simp only [Butterfly.delta]
  by_cases hq : p / 2048 = p % 2048
  · rw [if_pos (Fin.ext hq), if_pos hq, EReal.coe_one]
  · rw [if_neg (fun hh => hq (congrArg Fin.val hh)), if_neg hq, EReal.coe_zero]

end Cert.IdentityMatrix

end
-- ==== Proof.KernelChain.lean ====
/-
  The kernel's transformed identity matrix, read by row-major position, is the eleven butterflies of the identity matrix's
  0/1 sequence: the identity matrix holds real numbers, each butterfly of an array of coerced reals is the butterfly of the
  real sequence, and a reshape does not move a position.
-/
import proofs.«124037_j57294863729375_1_alg».proof.Proof.KernelHost
import proofs.«124037_j57294863729375_1_alg».proof.Proof.LibFlatButterfly
import proofs.«124037_j57294863729375_1_alg».proof.Proof.LibHadamardRows
import proofs.«124037_j57294863729375_1_alg».proof.Proof.IdentityMatrix

set_option maxRecDepth 16384

noncomputable section

namespace Cert.KernelIdeal.Chain

open Cert.KernelIdeal Cert.KernelIdeal.Gen Cert.KernelIdeal.HostValue Idealize.ShloMosaic Idealize.ShloMosaic.StableHlo Butterfly

/-- The identity matrix with its two reshapes, by position, is the 0/1 sequence `delta`. -/
theorem lin_KX0 (V0 : Valuation τ sig (Elt Ideal)) (p : ℕ) (hp : p < 2048 * 2048) :
    lin (KX0 V0) p = ((delta p : ℝ) : EReal) := by
  rw [KX0_eq, lin_shapeCast, lin_shapeCast]
  exact Cert.IdentityMatrix.lin_E _ p hp

/-- After the eleven butterflies: the transformed matrix, by position, is `fwht delta`. -/
theorem lin_KX11 (V0 : Valuation τ sig (Elt Ideal)) (p : ℕ) (hp : p < 2048 * 2048) :
    lin (KX11 V0) p = ((fwht delta p : ℝ) : EReal) := by
  have h0 : ∀ p, p < 2048 * 1024 * 2 * 1 → lin (KX0 V0) p = ((delta p : ℝ) : EReal) :=
    fun p hp => lin_KX0 V0 p (by omega)
  have h1 : ∀ p, p < 2048 * 512 * 2 * 2 → lin (KX1 V0) p = ((bf 1 (delta) p : ℝ) : EReal) := fun p hp => by
    rw [KX1_eq]
    exact stage_coe _ _ _ _ _ _ _ _ (delta) h0 p (by omega)
  have h2 : ∀ p, p < 2048 * 256 * 2 * 4 → lin (KX2 V0) p = ((bf 2 (bf 1 (delta)) p : ℝ) : EReal) := fun p hp => by
    rw [KX2_eq]
    exact stage_coe _ _ _ _ _ _ _ _ (bf 1 (delta)) h1 p (by omega)
  have h3 : ∀ p, p < 2048 * 128 * 2 * 8 → lin (KX3 V0) p = ((bf 4 (bf 2 (bf 1 (delta))) p : ℝ) : EReal) := fun p hp => by
    rw [KX3_eq]
    exact stage_coe _ _ _ _ _ _ _ _ (bf 2 (bf 1 (delta))) h2 p (by omega)
  have h4 : ∀ p, p < 2048 * 64 * 2 * 16 → lin (KX4 V0) p = ((bf 8 (bf 4 (bf 2 (bf 1 (delta)))) p : ℝ) : EReal) := fun p hp => by
    rw [KX4_eq]
    exact stage_coe _ _ _ _ _ _ _ _ (bf 4 (bf 2 (bf 1 (delta)))) h3 p (by omega)
  have h5 : ∀ p, p < 2048 * 32 * 2 * 32 → lin (KX5 V0) p = ((bf 16 (bf 8 (bf 4 (bf 2 (bf 1 (delta))))) p : ℝ) : EReal) := fun p hp => by
    rw [KX5_eq]
    exact stage_coe _ _ _ _ _ _ _ _ (bf 8 (bf 4 (bf 2 (bf 1 (delta))))) h4 p (by omega)
  have h6 : ∀ p, p < 2048 * 16 * 2 * 64 → lin (KX6 V0) p = ((bf 32 (bf 16 (bf 8 (bf 4 (bf 2 (bf 1 (delta)))))) p : ℝ) : EReal) := fun p hp => by
    rw [KX6_eq]
    exact stage_coe _ _ _ _ _ _ _ _ (bf 16 (bf 8 (bf 4 (bf 2 (bf 1 (delta)))))) h5 p (by omega)
  have h7 : ∀ p, p < 2048 * 8 * 2 * 128 → lin (KX7 V0) p = ((bf 64 (bf 32 (bf 16 (bf 8 (bf 4 (bf 2 (bf 1 (delta))))))) p : ℝ) : EReal) := fun p hp => by
    rw [KX7_eq]
    exact stage_coe _ _ _ _ _ _ _ _ (bf 32 (bf 16 (bf 8 (bf 4 (bf 2 (bf 1 (delta))))))) h6 p (by omega)
  have h8 : ∀ p, p < 2048 * 4 * 2 * 256 → lin (KX8 V0) p = ((bf 128 (bf 64 (bf 32 (bf 16 (bf 8 (bf 4 (bf 2 (bf 1 (delta)))))))) p : ℝ) : EReal) := fun p hp => by
    rw [KX8_eq]
    exact stage_coe _ _ _ _ _ _ _ _ (bf 64 (bf 32 (bf 16 (bf 8 (bf 4 (bf 2 (bf 1 (delta)))))))) h7 p (by omega)
  have h9 : ∀ p, p < 2048 * 2 * 2 * 512 → lin (KX9 V0) p = ((bf 256 (bf 128 (bf 64 (bf 32 (bf 16 (bf 8 (bf 4 (bf 2 (bf 1 (delta))))))))) p : ℝ) : EReal) := fun p hp => by
    rw [KX9_eq]
    exact stage_coe _ _ _ _ _ _ _ _ (bf 128 (bf 64 (bf 32 (bf 16 (bf 8 (bf 4 (bf 2 (bf 1 (delta))))))))) h8 p (by omega)
  have h10 : ∀ p, p < 2048 * 1 * 2 * 1024 → lin (KX10 V0) p = ((bf 512 (bf 256 (bf 128 (bf 64 (bf 32 (bf 16 (bf 8 (bf 4 (bf 2 (bf 1 (delta)))))))))) p : ℝ) : EReal) := fun p hp => by
    rw [KX10_eq]
    exact stage_coe _ _ _ _ _ _ _ _ (bf 256 (bf 128 (bf 64 (bf 32 (bf 16 (bf 8 (bf 4 (bf 2 (bf 1 (delta)))))))))) h9 p (by omega)
  have h11 : ∀ p, p < 2048 * 2048 → lin (KX11 V0) p = ((bf 1024 (bf 512 (bf 256 (bf 128 (bf 64 (bf 32 (bf 16 (bf 8 (bf 4 (bf 2 (bf 1 (delta))))))))))) p : ℝ) : EReal) := fun p hp => by
    rw [KX11_eq]
    exact stage_coe _ _ _ _ _ _ _ _ (bf 512 (bf 256 (bf 128 (bf 64 (bf 32 (bf 16 (bf 8 (bf 4 (bf 2 (bf 1 (delta))))))))))) h10 p (by omega)
  exact h11 p hp

end Cert.KernelIdeal.Chain

end
-- ==== Proof.RefRunBase.lean ====
/-
  The reference program's @main as the list of its 130 host operations, in the order the program runs them, and what
  a run of it leaves behind: every weakly fair execution terminates, and each buffer of each device then holds what
  the operations, applied one after the other to the contents at the launch, put there.

  The operations are: two reshapes of the input into `[16384, 1024, 2, 1]`; eleven butterflies of eleven operations each
  (two slices, each reshaped; their sum and difference; each given back a unit axis; the concatenation; two reshapes);
  the scale constant, its broadcast and the product; the contraction with the weight; the bias broadcast twice; the sum.
-/
import proofs.«124037_j57294863729375_1_alg».proof.Proof.Gen.ReferenceIdeal
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 130 operations, in order. -/
abbrev ops : List (HloOp τ sig (Elt F)) :=
  ( StableHlo.reshape main_arg0 main_v0 rfl shapeCasts_S4x4096x2048_S16384x2048x1
  :: StableHlo.reshape main_v0 main_v1 rfl shapeCasts_S16384x2048x1_S16384x1024x2x1
  :: StableHlo.unary main_v1 main_v2 ((extractStridedSlice S16384x1024x1x1 ![0, 0, 0, 0] · slices_S16384x1024x2x1_S16384x1024x1x1_0_0_0_0) : (⟨S16384x1024x2x1, .f32⟩ : BufTy).Contents (Elt F) → (⟨S16384x1024x1x1, .f32⟩ : BufTy).Contents (Elt F))
  :: StableHlo.reshape main_v2 main_v3 rfl shapeCasts_S16384x1024x1x1_S16384x1024x1
  :: StableHlo.unary main_v1 main_v4 ((extractStridedSlice S16384x1024x1x1 ![0, 0, 1, 0] · slices_S16384x1024x2x1_S16384x1024x1x1_0_0_1_0) : (⟨S16384x1024x2x1, .f32⟩ : BufTy).Contents (Elt F) → (⟨S16384x1024x1x1, .f32⟩ : BufTy).Contents (Elt F))
  :: StableHlo.reshape main_v4 main_v5 rfl shapeCasts_S16384x1024x1x1_S16384x1024x1
  :: StableHlo.binary main_v3 main_v5 main_v6 (addf : (⟨S16384x1024x1, .f32⟩ : BufTy).Contents (Elt F) → (⟨S16384x1024x1, .f32⟩ : BufTy).Contents (Elt F) → (⟨S16384x1024x1, .f32⟩ : BufTy).Contents (Elt F))
  :: StableHlo.binary main_v3 main_v5 main_v7 (subf : (⟨S16384x1024x1, .f32⟩ : BufTy).Contents (Elt F) → (⟨S16384x1024x1, .f32⟩ : BufTy).Contents (Elt F) → (⟨S16384x1024x1, .f32⟩ : BufTy).Contents (Elt F))
  :: StableHlo.unary main_v6 main_v8 (broadcastInDim S16384x1024x1x1 ![0, 1, 3] bcast_S16384x1024x1_S16384x1024x1x1_0_1_3 : (⟨S16384x1024x1, .f32⟩ : BufTy).Contents (Elt F) → (⟨S16384x1024x1x1, .f32⟩ : BufTy).Contents (Elt F))
  :: StableHlo.unary main_v7 main_v9 (broadcastInDim S16384x1024x1x1 ![0, 1, 3] bcast_S16384x1024x1_S16384x1024x1x1_0_1_3 : (⟨S16384x1024x1, .f32⟩ : BufTy).Contents (Elt F) → (⟨S16384x1024x1x1, .f32⟩ : BufTy).Contents (Elt F))
  :: StableHlo.binary main_v8 main_v9 main_v10 ((fun a b => concatenate S16384x1024x2x1 2 [⟨S16384x1024x1x1, a⟩, ⟨S16384x1024x1x1, b⟩] concatenates_S16384x1024x1x1_S16384x1024x1x1_S16384x1024x2x1_d2) : (⟨S16384x1024x1x1, .f32⟩ : BufTy).Contents (Elt F) → (⟨S16384x1024x1x1, .f32⟩ : BufTy).Contents (Elt F) → (⟨S16384x1024x2x1, .f32⟩ : BufTy).Contents (Elt F))
  :: StableHlo.reshape main_v10 main_v11 rfl shapeCasts_S16384x1024x2x1_S16384x1024x2
  :: StableHlo.reshape main_v11 main_v12 rfl shapeCasts_S16384x1024x2_S16384x512x2x2
  :: StableHlo.unary main_v12 main_v13 ((extractStridedSlice S16384x512x1x2 ![0, 0, 0, 0] · slices_S16384x512x2x2_S16384x512x1x2_0_0_0_0) : (⟨S16384x512x2x2, .f32⟩ : BufTy).Contents (Elt F) → (⟨S16384x512x1x2, .f32⟩ : BufTy).Contents (Elt F))
  :: StableHlo.reshape main_v13 main_v14 rfl shapeCasts_S16384x512x1x2_S16384x512x2
  :: StableHlo.unary main_v12 main_v15 ((extractStridedSlice S16384x512x1x2 ![0, 0, 1, 0] · slices_S16384x512x2x2_S16384x512x1x2_0_0_1_0) : (⟨S16384x512x2x2, .f32⟩ : BufTy).Contents (Elt F) → (⟨S16384x512x1x2, .f32⟩ : BufTy).Contents (Elt F))
  :: StableHlo.reshape main_v15 main_v16 rfl shapeCasts_S16384x512x1x2_S16384x512x2
  :: StableHlo.binary main_v14 main_v16 main_v17 (addf : (⟨S16384x512x2, .f32⟩ : BufTy).Contents (Elt F) → (⟨S16384x512x2, .f32⟩ : BufTy).Contents (Elt F) → (⟨S16384x512x2, .f32⟩ : BufTy).Contents (Elt F))
  :: StableHlo.binary main_v14 main_v16 main_v18 (subf : (⟨S16384x512x2, .f32⟩ : BufTy).Contents (Elt F) → (⟨S16384x512x2, .f32⟩ : BufTy).Contents (Elt F) → (⟨S16384x512x2, .f32⟩ : BufTy).Contents (Elt F))
  :: StableHlo.unary main_v17 main_v19 (broadcastInDim S16384x512x1x2 ![0, 1, 3] bcast_S16384x512x2_S16384x512x1x2_0_1_3 : (⟨S16384x512x2, .f32⟩ : BufTy).Contents (Elt F) → (⟨S16384x512x1x2, .f32⟩ : BufTy).Contents (Elt F))
  :: StableHlo.unary main_v18 main_v20 (broadcastInDim S16384x512x1x2 ![0, 1, 3] bcast_S16384x512x2_S16384x512x1x2_0_1_3 : (⟨S16384x512x2, .f32⟩ : BufTy).Contents (Elt F) → (⟨S16384x512x1x2, .f32⟩ : BufTy).Contents (Elt F))
  :: StableHlo.binary main_v19 main_v20 main_v21 ((fun a b => concatenate S16384x512x2x2 2 [⟨S16384x512x1x2, a⟩, ⟨S16384x512x1x2, b⟩] concatenates_S16384x512x1x2_S16384x512x1x2_S16384x512x2x2_d2) : (⟨S16384x512x1x2, .f32⟩ : BufTy).Contents (Elt F) → (⟨S16384x512x1x2, .f32⟩ : BufTy).Contents (Elt F) → (⟨S16384x512x2x2, .f32⟩ : BufTy).Contents (Elt F))
  :: StableHlo.reshape main_v21 main_v22 rfl shapeCasts_S16384x512x2x2_S16384x512x4
  :: StableHlo.reshape main_v22 main_v23 rfl shapeCasts_S16384x512x4_S16384x256x2x4
  :: StableHlo.unary main_v23 main_v24 ((extractStridedSlice S16384x256x1x4 ![0, 0, 0, 0] · slices_S16384x256x2x4_S16384x256x1x4_0_0_0_0) : (⟨S16384x256x2x4, .f32⟩ : BufTy).Contents (Elt F) → (⟨S16384x256x1x4, .f32⟩ : BufTy).Contents (Elt F))
  :: StableHlo.reshape main_v24 main_v25 rfl shapeCasts_S16384x256x1x4_S16384x256x4
  :: StableHlo.unary main_v23 main_v26 ((extractStridedSlice S16384x256x1x4 ![0, 0, 1, 0] · slices_S16384x256x2x4_S16384x256x1x4_0_0_1_0) : (⟨S16384x256x2x4, .f32⟩ : BufTy).Contents (Elt F) → (⟨S16384x256x1x4, .f32⟩ : BufTy).Contents (Elt F))
  :: StableHlo.reshape main_v26 main_v27 rfl shapeCasts_S16384x256x1x4_S16384x256x4
  :: StableHlo.binary main_v25 main_v27 main_v28 (addf : (⟨S16384x256x4, .f32⟩ : BufTy).Contents (Elt F) → (⟨S16384x256x4, .f32⟩ : BufTy).Contents (Elt F) → (⟨S16384x256x4, .f32⟩ : BufTy).Contents (Elt F))
  :: StableHlo.binary main_v25 main_v27 main_v29 (subf : (⟨S16384x256x4, .f32⟩ : BufTy).Contents (Elt F) → (⟨S16384x256x4, .f32⟩ : BufTy).Contents (Elt F) → (⟨S16384x256x4, .f32⟩ : BufTy).Contents (Elt F))
  :: StableHlo.unary main_v28 main_v30 (broadcastInDim S16384x256x1x4 ![0, 1, 3] bcast_S16384x256x4_S16384x256x1x4_0_1_3 : (⟨S16384x256x4, .f32⟩ : BufTy).Contents (Elt F) → (⟨S16384x256x1x4, .f32⟩ : BufTy).Contents (Elt F))
  :: StableHlo.unary main_v29 main_v31 (broadcastInDim S16384x256x1x4 ![0, 1, 3] bcast_S16384x256x4_S16384x256x1x4_0_1_3 : (⟨S16384x256x4, .f32⟩ : BufTy).Contents (Elt F) → (⟨S16384x256x1x4, .f32⟩ : BufTy).Contents (Elt F))
  :: StableHlo.binary main_v30 main_v31 main_v32 ((fun a b => concatenate S16384x256x2x4 2 [⟨S16384x256x1x4, a⟩, ⟨S16384x256x1x4, b⟩] concatenates_S16384x256x1x4_S16384x256x1x4_S16384x256x2x4_d2) : (⟨S16384x256x1x4, .f32⟩ : BufTy).Contents (Elt F) → (⟨S16384x256x1x4, .f32⟩ : BufTy).Contents (Elt F) → (⟨S16384x256x2x4, .f32⟩ : BufTy).Contents (Elt F))
  :: StableHlo.reshape main_v32 main_v33 rfl shapeCasts_S16384x256x2x4_S16384x256x8
  :: StableHlo.reshape main_v33 main_v34 rfl shapeCasts_S16384x256x8_S16384x128x2x8
  :: StableHlo.unary main_v34 main_v35 ((extractStridedSlice S16384x128x1x8 ![0, 0, 0, 0] · slices_S16384x128x2x8_S16384x128x1x8_0_0_0_0) : (⟨S16384x128x2x8, .f32⟩ : BufTy).Contents (Elt F) → (⟨S16384x128x1x8, .f32⟩ : BufTy).Contents (Elt F))
  :: StableHlo.reshape main_v35 main_v36 rfl shapeCasts_S16384x128x1x8_S16384x128x8
  :: StableHlo.unary main_v34 main_v37 ((extractStridedSlice S16384x128x1x8 ![0, 0, 1, 0] · slices_S16384x128x2x8_S16384x128x1x8_0_0_1_0) : (⟨S16384x128x2x8, .f32⟩ : BufTy).Contents (Elt F) → (⟨S16384x128x1x8, .f32⟩ : BufTy).Contents (Elt F))
  :: StableHlo.reshape main_v37 main_v38 rfl shapeCasts_S16384x128x1x8_S16384x128x8
  :: StableHlo.binary main_v36 main_v38 main_v39 (addf : (⟨S16384x128x8, .f32⟩ : BufTy).Contents (Elt F) → (⟨S16384x128x8, .f32⟩ : BufTy).Contents (Elt F) → (⟨S16384x128x8, .f32⟩ : BufTy).Contents (Elt F))
  :: StableHlo.binary main_v36 main_v38 main_v40 (subf : (⟨S16384x128x8, .f32⟩ : BufTy).Contents (Elt F) → (⟨S16384x128x8, .f32⟩ : BufTy).Contents (Elt F) → (⟨S16384x128x8, .f32⟩ : BufTy).Contents (Elt F))
  :: StableHlo.unary main_v39 main_v41 (broadcastInDim S16384x128x1x8 ![0, 1, 3] bcast_S16384x128x8_S16384x128x1x8_0_1_3 : (⟨S16384x128x8, .f32⟩ : BufTy).Contents (Elt F) → (⟨S16384x128x1x8, .f32⟩ : BufTy).Contents (Elt F))
  :: StableHlo.unary main_v40 main_v42 (broadcastInDim S16384x128x1x8 ![0, 1, 3] bcast_S16384x128x8_S16384x128x1x8_0_1_3 : (⟨S16384x128x8, .f32⟩ : BufTy).Contents (Elt F) → (⟨S16384x128x1x8, .f32⟩ : BufTy).Contents (Elt F))
  :: StableHlo.binary main_v41 main_v42 main_v43 ((fun a b => concatenate S16384x128x2x8 2 [⟨S16384x128x1x8, a⟩, ⟨S16384x128x1x8, b⟩] concatenates_S16384x128x1x8_S16384x128x1x8_S16384x128x2x8_d2) : (⟨S16384x128x1x8, .f32⟩ : BufTy).Contents (Elt F) → (⟨S16384x128x1x8, .f32⟩ : BufTy).Contents (Elt F) → (⟨S16384x128x2x8, .f32⟩ : BufTy).Contents (Elt F))
  :: StableHlo.reshape main_v43 main_v44 rfl shapeCasts_S16384x128x2x8_S16384x128x16
  :: StableHlo.reshape main_v44 main_v45 rfl shapeCasts_S16384x128x16_S16384x64x2x16
  :: StableHlo.unary main_v45 main_v46 ((extractStridedSlice S16384x64x1x16 ![0, 0, 0, 0] · slices_S16384x64x2x16_S16384x64x1x16_0_0_0_0) : (⟨S16384x64x2x16, .f32⟩ : BufTy).Contents (Elt F) → (⟨S16384x64x1x16, .f32⟩ : BufTy).Contents (Elt F))
  :: StableHlo.reshape main_v46 main_v47 rfl shapeCasts_S16384x64x1x16_S16384x64x16
  :: StableHlo.unary main_v45 main_v48 ((extractStridedSlice S16384x64x1x16 ![0, 0, 1, 0] · slices_S16384x64x2x16_S16384x64x1x16_0_0_1_0) : (⟨S16384x64x2x16, .f32⟩ : BufTy).Contents (Elt F) → (⟨S16384x64x1x16, .f32⟩ : BufTy).Contents (Elt F))
  :: StableHlo.reshape main_v48 main_v49 rfl shapeCasts_S16384x64x1x16_S16384x64x16
  :: StableHlo.binary main_v47 main_v49 main_v50 (addf : (⟨S16384x64x16, .f32⟩ : BufTy).Contents (Elt F) → (⟨S16384x64x16, .f32⟩ : BufTy).Contents (Elt F) → (⟨S16384x64x16, .f32⟩ : BufTy).Contents (Elt F))
  :: StableHlo.binary main_v47 main_v49 main_v51 (subf : (⟨S16384x64x16, .f32⟩ : BufTy).Contents (Elt F) → (⟨S16384x64x16, .f32⟩ : BufTy).Contents (Elt F) → (⟨S16384x64x16, .f32⟩ : BufTy).Contents (Elt F))
  :: StableHlo.unary main_v50 main_v52 (broadcastInDim S16384x64x1x16 ![0, 1, 3] bcast_S16384x64x16_S16384x64x1x16_0_1_3 : (⟨S16384x64x16, .f32⟩ : BufTy).Contents (Elt F) → (⟨S16384x64x1x16, .f32⟩ : BufTy).Contents (Elt F))
  :: StableHlo.unary main_v51 main_v53 (broadcastInDim S16384x64x1x16 ![0, 1, 3] bcast_S16384x64x16_S16384x64x1x16_0_1_3 : (⟨S16384x64x16, .f32⟩ : BufTy).Contents (Elt F) → (⟨S16384x64x1x16, .f32⟩ : BufTy).Contents (Elt F))
  :: StableHlo.binary main_v52 main_v53 main_v54 ((fun a b => concatenate S16384x64x2x16 2 [⟨S16384x64x1x16, a⟩, ⟨S16384x64x1x16, b⟩] concatenates_S16384x64x1x16_S16384x64x1x16_S16384x64x2x16_d2) : (⟨S16384x64x1x16, .f32⟩ : BufTy).Contents (Elt F) → (⟨S16384x64x1x16, .f32⟩ : BufTy).Contents (Elt F) → (⟨S16384x64x2x16, .f32⟩ : BufTy).Contents (Elt F))
  :: StableHlo.reshape main_v54 main_v55 rfl shapeCasts_S16384x64x2x16_S16384x64x32
  :: StableHlo.reshape main_v55 main_v56 rfl shapeCasts_S16384x64x32_S16384x32x2x32
  :: StableHlo.unary main_v56 main_v57 ((extractStridedSlice S16384x32x1x32 ![0, 0, 0, 0] · slices_S16384x32x2x32_S16384x32x1x32_0_0_0_0) : (⟨S16384x32x2x32, .f32⟩ : BufTy).Contents (Elt F) → (⟨S16384x32x1x32, .f32⟩ : BufTy).Contents (Elt F))
  :: StableHlo.reshape main_v57 main_v58 rfl shapeCasts_S16384x32x1x32_S16384x32x32
  :: StableHlo.unary main_v56 main_v59 ((extractStridedSlice S16384x32x1x32 ![0, 0, 1, 0] · slices_S16384x32x2x32_S16384x32x1x32_0_0_1_0) : (⟨S16384x32x2x32, .f32⟩ : BufTy).Contents (Elt F) → (⟨S16384x32x1x32, .f32⟩ : BufTy).Contents (Elt F))
  :: StableHlo.reshape main_v59 main_v60 rfl shapeCasts_S16384x32x1x32_S16384x32x32
  :: StableHlo.binary main_v58 main_v60 main_v61 (addf : (⟨S16384x32x32, .f32⟩ : BufTy).Contents (Elt F) → (⟨S16384x32x32, .f32⟩ : BufTy).Contents (Elt F) → (⟨S16384x32x32, .f32⟩ : BufTy).Contents (Elt F))
  :: StableHlo.binary main_v58 main_v60 main_v62 (subf : (⟨S16384x32x32, .f32⟩ : BufTy).Contents (Elt F) → (⟨S16384x32x32, .f32⟩ : BufTy).Contents (Elt F) → (⟨S16384x32x32, .f32⟩ : BufTy).Contents (Elt F))
  :: StableHlo.unary main_v61 main_v63 (broadcastInDim S16384x32x1x32 ![0, 1, 3] bcast_S16384x32x32_S16384x32x1x32_0_1_3 : (⟨S16384x32x32, .f32⟩ : BufTy).Contents (Elt F) → (⟨S16384x32x1x32, .f32⟩ : BufTy).Contents (Elt F))
  :: StableHlo.unary main_v62 main_v64 (broadcastInDim S16384x32x1x32 ![0, 1, 3] bcast_S16384x32x32_S16384x32x1x32_0_1_3 : (⟨S16384x32x32, .f32⟩ : BufTy).Contents (Elt F) → (⟨S16384x32x1x32, .f32⟩ : BufTy).Contents (Elt F))
  :: StableHlo.binary main_v63 main_v64 main_v65 ((fun a b => concatenate S16384x32x2x32 2 [⟨S16384x32x1x32, a⟩, ⟨S16384x32x1x32, b⟩] concatenates_S16384x32x1x32_S16384x32x1x32_S16384x32x2x32_d2) : (⟨S16384x32x1x32, .f32⟩ : BufTy).Contents (Elt F) → (⟨S16384x32x1x32, .f32⟩ : BufTy).Contents (Elt F) → (⟨S16384x32x2x32, .f32⟩ : BufTy).Contents (Elt F))
  :: StableHlo.reshape main_v65 main_v66 rfl shapeCasts_S16384x32x2x32_S16384x32x64
  :: StableHlo.reshape main_v66 main_v67 rfl shapeCasts_S16384x32x64_S16384x16x2x64
  :: StableHlo.unary main_v67 main_v68 ((extractStridedSlice S16384x16x1x64 ![0, 0, 0, 0] · slices_S16384x16x2x64_S16384x16x1x64_0_0_0_0) : (⟨S16384x16x2x64, .f32⟩ : BufTy).Contents (Elt F) → (⟨S16384x16x1x64, .f32⟩ : BufTy).Contents (Elt F))
  :: StableHlo.reshape main_v68 main_v69 rfl shapeCasts_S16384x16x1x64_S16384x16x64
  :: StableHlo.unary main_v67 main_v70 ((extractStridedSlice S16384x16x1x64 ![0, 0, 1, 0] · slices_S16384x16x2x64_S16384x16x1x64_0_0_1_0) : (⟨S16384x16x2x64, .f32⟩ : BufTy).Contents (Elt F) → (⟨S16384x16x1x64, .f32⟩ : BufTy).Contents (Elt F))
  :: StableHlo.reshape main_v70 main_v71 rfl shapeCasts_S16384x16x1x64_S16384x16x64
  :: StableHlo.binary main_v69 main_v71 main_v72 (addf : (⟨S16384x16x64, .f32⟩ : BufTy).Contents (Elt F) → (⟨S16384x16x64, .f32⟩ : BufTy).Contents (Elt F) → (⟨S16384x16x64, .f32⟩ : BufTy).Contents (Elt F))
  :: StableHlo.binary main_v69 main_v71 main_v73 (subf : (⟨S16384x16x64, .f32⟩ : BufTy).Contents (Elt F) → (⟨S16384x16x64, .f32⟩ : BufTy).Contents (Elt F) → (⟨S16384x16x64, .f32⟩ : BufTy).Contents (Elt F))
  :: StableHlo.unary main_v72 main_v74 (broadcastInDim S16384x16x1x64 ![0, 1, 3] bcast_S16384x16x64_S16384x16x1x64_0_1_3 : (⟨S16384x16x64, .f32⟩ : BufTy).Contents (Elt F) → (⟨S16384x16x1x64, .f32⟩ : BufTy).Contents (Elt F))
  :: StableHlo.unary main_v73 main_v75 (broadcastInDim S16384x16x1x64 ![0, 1, 3] bcast_S16384x16x64_S16384x16x1x64_0_1_3 : (⟨S16384x16x64, .f32⟩ : BufTy).Contents (Elt F) → (⟨S16384x16x1x64, .f32⟩ : BufTy).Contents (Elt F))
  :: StableHlo.binary main_v74 main_v75 main_v76 ((fun a b => concatenate S16384x16x2x64 2 [⟨S16384x16x1x64, a⟩, ⟨S16384x16x1x64, b⟩] concatenates_S16384x16x1x64_S16384x16x1x64_S16384x16x2x64_d2) : (⟨S16384x16x1x64, .f32⟩ : BufTy).Contents (Elt F) → (⟨S16384x16x1x64, .f32⟩ : BufTy).Contents (Elt F) → (⟨S16384x16x2x64, .f32⟩ : BufTy).Contents (Elt F))
  :: StableHlo.reshape main_v76 main_v77 rfl shapeCasts_S16384x16x2x64_S16384x16x128
  :: StableHlo.reshape main_v77 main_v78 rfl shapeCasts_S16384x16x128_S16384x8x2x128
  :: StableHlo.unary main_v78 main_v79 ((extractStridedSlice S16384x8x1x128 ![0, 0, 0, 0] · slices_S16384x8x2x128_S16384x8x1x128_0_0_0_0) : (⟨S16384x8x2x128, .f32⟩ : BufTy).Contents (Elt F) → (⟨S16384x8x1x128, .f32⟩ : BufTy).Contents (Elt F))
  :: StableHlo.reshape main_v79 main_v80 rfl shapeCasts_S16384x8x1x128_S16384x8x128
  :: StableHlo.unary main_v78 main_v81 ((extractStridedSlice S16384x8x1x128 ![0, 0, 1, 0] · slices_S16384x8x2x128_S16384x8x1x128_0_0_1_0) : (⟨S16384x8x2x128, .f32⟩ : BufTy).Contents (Elt F) → (⟨S16384x8x1x128, .f32⟩ : BufTy).Contents (Elt F))
  :: StableHlo.reshape main_v81 main_v82 rfl shapeCasts_S16384x8x1x128_S16384x8x128
  :: StableHlo.binary main_v80 main_v82 main_v83 (addf : (⟨S16384x8x128, .f32⟩ : BufTy).Contents (Elt F) → (⟨S16384x8x128, .f32⟩ : BufTy).Contents (Elt F) → (⟨S16384x8x128, .f32⟩ : BufTy).Contents (Elt F))
  :: StableHlo.binary main_v80 main_v82 main_v84 (subf : (⟨S16384x8x128, .f32⟩ : BufTy).Contents (Elt F) → (⟨S16384x8x128, .f32⟩ : BufTy).Contents (Elt F) → (⟨S16384x8x128, .f32⟩ : BufTy).Contents (Elt F))
  :: StableHlo.unary main_v83 main_v85 (broadcastInDim S16384x8x1x128 ![0, 1, 3] bcast_S16384x8x128_S16384x8x1x128_0_1_3 : (⟨S16384x8x128, .f32⟩ : BufTy).Contents (Elt F) → (⟨S16384x8x1x128, .f32⟩ : BufTy).Contents (Elt F))
  :: StableHlo.unary main_v84 main_v86 (broadcastInDim S16384x8x1x128 ![0, 1, 3] bcast_S16384x8x128_S16384x8x1x128_0_1_3 : (⟨S16384x8x128, .f32⟩ : BufTy).Contents (Elt F) → (⟨S16384x8x1x128, .f32⟩ : BufTy).Contents (Elt F))
  :: StableHlo.binary main_v85 main_v86 main_v87 ((fun a b => concatenate S16384x8x2x128 2 [⟨S16384x8x1x128, a⟩, ⟨S16384x8x1x128, b⟩] concatenates_S16384x8x1x128_S16384x8x1x128_S16384x8x2x128_d2) : (⟨S16384x8x1x128, .f32⟩ : BufTy).Contents (Elt F) → (⟨S16384x8x1x128, .f32⟩ : BufTy).Contents (Elt F) → (⟨S16384x8x2x128, .f32⟩ : BufTy).Contents (Elt F))
  :: StableHlo.reshape main_v87 main_v88 rfl shapeCasts_S16384x8x2x128_S16384x8x256
  :: StableHlo.reshape main_v88 main_v89 rfl shapeCasts_S16384x8x256_S16384x4x2x256
  :: StableHlo.unary main_v89 main_v90 ((extractStridedSlice S16384x4x1x256 ![0, 0, 0, 0] · slices_S16384x4x2x256_S16384x4x1x256_0_0_0_0) : (⟨S16384x4x2x256, .f32⟩ : BufTy).Contents (Elt F) → (⟨S16384x4x1x256, .f32⟩ : BufTy).Contents (Elt F))
  :: StableHlo.reshape main_v90 main_v91 rfl shapeCasts_S16384x4x1x256_S16384x4x256
  :: StableHlo.unary main_v89 main_v92 ((extractStridedSlice S16384x4x1x256 ![0, 0, 1, 0] · slices_S16384x4x2x256_S16384x4x1x256_0_0_1_0) : (⟨S16384x4x2x256, .f32⟩ : BufTy).Contents (Elt F) → (⟨S16384x4x1x256, .f32⟩ : BufTy).Contents (Elt F))
  :: StableHlo.reshape main_v92 main_v93 rfl shapeCasts_S16384x4x1x256_S16384x4x256
  :: StableHlo.binary main_v91 main_v93 main_v94 (addf : (⟨S16384x4x256, .f32⟩ : BufTy).Contents (Elt F) → (⟨S16384x4x256, .f32⟩ : BufTy).Contents (Elt F) → (⟨S16384x4x256, .f32⟩ : BufTy).Contents (Elt F))
  :: StableHlo.binary main_v91 main_v93 main_v95 (subf : (⟨S16384x4x256, .f32⟩ : BufTy).Contents (Elt F) → (⟨S16384x4x256, .f32⟩ : BufTy).Contents (Elt F) → (⟨S16384x4x256, .f32⟩ : BufTy).Contents (Elt F))
  :: StableHlo.unary main_v94 main_v96 (broadcastInDim S16384x4x1x256 ![0, 1, 3] bcast_S16384x4x256_S16384x4x1x256_0_1_3 : (⟨S16384x4x256, .f32⟩ : BufTy).Contents (Elt F) → (⟨S16384x4x1x256, .f32⟩ : BufTy).Contents (Elt F))
  :: StableHlo.unary main_v95 main_v97 (broadcastInDim S16384x4x1x256 ![0, 1, 3] bcast_S16384x4x256_S16384x4x1x256_0_1_3 : (⟨S16384x4x256, .f32⟩ : BufTy).Contents (Elt F) → (⟨S16384x4x1x256, .f32⟩ : BufTy).Contents (Elt F))
  :: StableHlo.binary main_v96 main_v97 main_v98 ((fun a b => concatenate S16384x4x2x256 2 [⟨S16384x4x1x256, a⟩, ⟨S16384x4x1x256, b⟩] concatenates_S16384x4x1x256_S16384x4x1x256_S16384x4x2x256_d2) : (⟨S16384x4x1x256, .f32⟩ : BufTy).Contents (Elt F) → (⟨S16384x4x1x256, .f32⟩ : BufTy).Contents (Elt F) → (⟨S16384x4x2x256, .f32⟩ : BufTy).Contents (Elt F))
  :: StableHlo.reshape main_v98 main_v99 rfl shapeCasts_S16384x4x2x256_S16384x4x512
  :: StableHlo.reshape main_v99 main_v100 rfl shapeCasts_S16384x4x512_S16384x2x2x512
  :: StableHlo.unary main_v100 main_v101 ((extractStridedSlice S16384x2x1x512 ![0, 0, 0, 0] · slices_S16384x2x2x512_S16384x2x1x512_0_0_0_0) : (⟨S16384x2x2x512, .f32⟩ : BufTy).Contents (Elt F) → (⟨S16384x2x1x512, .f32⟩ : BufTy).Contents (Elt F))
  :: StableHlo.reshape main_v101 main_v102 rfl shapeCasts_S16384x2x1x512_S16384x2x512
  :: StableHlo.unary main_v100 main_v103 ((extractStridedSlice S16384x2x1x512 ![0, 0, 1, 0] · slices_S16384x2x2x512_S16384x2x1x512_0_0_1_0) : (⟨S16384x2x2x512, .f32⟩ : BufTy).Contents (Elt F) → (⟨S16384x2x1x512, .f32⟩ : BufTy).Contents (Elt F))
  :: StableHlo.reshape main_v103 main_v104 rfl shapeCasts_S16384x2x1x512_S16384x2x512
  :: StableHlo.binary main_v102 main_v104 main_v105 (addf : (⟨S16384x2x512, .f32⟩ : BufTy).Contents (Elt F) → (⟨S16384x2x512, .f32⟩ : BufTy).Contents (Elt F) → (⟨S16384x2x512, .f32⟩ : BufTy).Contents (Elt F))
  :: StableHlo.binary main_v102 main_v104 main_v106 (subf : (⟨S16384x2x512, .f32⟩ : BufTy).Contents (Elt F) → (⟨S16384x2x512, .f32⟩ : BufTy).Contents (Elt F) → (⟨S16384x2x512, .f32⟩ : BufTy).Contents (Elt F))
  :: StableHlo.unary main_v105 main_v107 (broadcastInDim S16384x2x1x512 ![0, 1, 3] bcast_S16384x2x512_S16384x2x1x512_0_1_3 : (⟨S16384x2x512, .f32⟩ : BufTy).Contents (Elt F) → (⟨S16384x2x1x512, .f32⟩ : BufTy).Contents (Elt F))
  :: StableHlo.unary main_v106 main_v108 (broadcastInDim S16384x2x1x512 ![0, 1, 3] bcast_S16384x2x512_S16384x2x1x512_0_1_3 : (⟨S16384x2x512, .f32⟩ : BufTy).Contents (Elt F) → (⟨S16384x2x1x512, .f32⟩ : BufTy).Contents (Elt F))
  :: StableHlo.binary main_v107 main_v108 main_v109 ((fun a b => concatenate S16384x2x2x512 2 [⟨S16384x2x1x512, a⟩, ⟨S16384x2x1x512, b⟩] concatenates_S16384x2x1x512_S16384x2x1x512_S16384x2x2x512_d2) : (⟨S16384x2x1x512, .f32⟩ : BufTy).Contents (Elt F) → (⟨S16384x2x1x512, .f32⟩ : BufTy).Contents (Elt F) → (⟨S16384x2x2x512, .f32⟩ : BufTy).Contents (Elt F))
  :: StableHlo.reshape main_v109 main_v110 rfl shapeCasts_S16384x2x2x512_S16384x2x1024
  :: StableHlo.reshape main_v110 main_v111 rfl shapeCasts_S16384x2x1024_S16384x1x2x1024
  :: StableHlo.unary main_v111 main_v112 ((extractStridedSlice S16384x1x1x1024 ![0, 0, 0, 0] · slices_S16384x1x2x1024_S16384x1x1x1024_0_0_0_0) : (⟨S16384x1x2x1024, .f32⟩ : BufTy).Contents (Elt F) → (⟨S16384x1x1x1024, .f32⟩ : BufTy).Contents (Elt F))
  :: StableHlo.reshape main_v112 main_v113 rfl shapeCasts_S16384x1x1x1024_S16384x1x1024
  :: StableHlo.unary main_v111 main_v114 ((extractStridedSlice S16384x1x1x1024 ![0, 0, 1, 0] · slices_S16384x1x2x1024_S16384x1x1x1024_0_0_1_0) : (⟨S16384x1x2x1024, .f32⟩ : BufTy).Contents (Elt F) → (⟨S16384x1x1x1024, .f32⟩ : BufTy).Contents (Elt F))
  :: StableHlo.reshape main_v114 main_v115 rfl shapeCasts_S16384x1x1x1024_S16384x1x1024
  :: StableHlo.binary main_v113 main_v115 main_v116 (addf : (⟨S16384x1x1024, .f32⟩ : BufTy).Contents (Elt F) → (⟨S16384x1x1024, .f32⟩ : BufTy).Contents (Elt F) → (⟨S16384x1x1024, .f32⟩ : BufTy).Contents (Elt F))
  :: StableHlo.binary main_v113 main_v115 main_v117 (subf : (⟨S16384x1x1024, .f32⟩ : BufTy).Contents (Elt F) → (⟨S16384x1x1024, .f32⟩ : BufTy).Contents (Elt F) → (⟨S16384x1x1024, .f32⟩ : BufTy).Contents (Elt F))
  :: StableHlo.unary main_v116 main_v118 (broadcastInDim S16384x1x1x1024 ![0, 1, 3] bcast_S16384x1x1024_S16384x1x1x1024_0_1_3 : (⟨S16384x1x1024, .f32⟩ : BufTy).Contents (Elt F) → (⟨S16384x1x1x1024, .f32⟩ : BufTy).Contents (Elt F))
  :: StableHlo.unary main_v117 main_v119 (broadcastInDim S16384x1x1x1024 ![0, 1, 3] bcast_S16384x1x1024_S16384x1x1x1024_0_1_3 : (⟨S16384x1x1024, .f32⟩ : BufTy).Contents (Elt F) → (⟨S16384x1x1x1024, .f32⟩ : BufTy).Contents (Elt F))
  :: StableHlo.binary main_v118 main_v119 main_v120 ((fun a b => concatenate S16384x1x2x1024 2 [⟨S16384x1x1x1024, a⟩, ⟨S16384x1x1x1024, b⟩] concatenates_S16384x1x1x1024_S16384x1x1x1024_S16384x1x2x1024_d2) : (⟨S16384x1x1x1024, .f32⟩ : BufTy).Contents (Elt F) → (⟨S16384x1x1x1024, .f32⟩ : BufTy).Contents (Elt F) → (⟨S16384x1x2x1024, .f32⟩ : BufTy).Contents (Elt F))
  :: StableHlo.reshape main_v120 main_v121 rfl shapeCasts_S16384x1x2x1024_S16384x1x2048
  :: StableHlo.reshape main_v121 main_v122 rfl shapeCasts_S16384x1x2048_S4x4096x2048
  :: StableHlo.nullary main_cst (constant S_ .f32 0x3CB504F3#32)
  :: StableHlo.unary main_cst main_v123 (broadcastInDim S4x4096x2048 ![] bcast_S_S4x4096x2048 : (⟨S_, .f32⟩ : BufTy).Contents (Elt F) → (⟨S4x4096x2048, .f32⟩ : BufTy).Contents (Elt F))
  :: StableHlo.binary main_v122 main_v123 main_v124 (mulf : (⟨S4x4096x2048, .f32⟩ : BufTy).Contents (Elt F) → (⟨S4x4096x2048, .f32⟩ : BufTy).Contents (Elt F) → (⟨S4x4096x2048, .f32⟩ : BufTy).Contents (Elt F))
  :: StableHlo.binary main_v124 main_arg1 main_v125 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F))
  :: StableHlo.unary main_arg2 main_v126 (broadcastInDim S1x1x2048 ![2] bcast_S2048_S1x1x2048_2 : (⟨S2048, .f32⟩ : BufTy).Contents (Elt F) → (⟨S1x1x2048, .f32⟩ : BufTy).Contents (Elt F))
  :: StableHlo.unary main_v126 main_v127 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F))
  :: StableHlo.binary main_v125 main_v127 main_v128 (addf : (⟨S4x4096x2048, .f32⟩ : BufTy).Contents (Elt F) → (⟨S4x4096x2048, .f32⟩ : BufTy).Contents (Elt F) → (⟨S4x4096x2048, .f32⟩ : BufTy).Contents (Elt F))
  :: [] )

set_option maxHeartbeats 40000000 in
/-- @main is these operations run one after the other. -/
theorem main_eq (c : Dev nD) : main (F := F) c = seq ops := rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxHeartbeats 40000000 in
/-- Each operation touches buffers of the device only. -/
theorem ops_sub : (ops : List (HloOp τ sig (Elt F))).Forall fun op => op.bufs ⊆ tcRefs τ sig :=
  ⟨StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

set_option maxHeartbeats 40000000 in
/-- On every device, for any float values, from any memory with zero counters: every weakly fair execution of @main
    terminates with each buffer at the operations' composed result over the contents at the launch. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.RefHost.lean ====
/-
  What the reference program's operations leave in the buffer the contraction reads, and in the result. The input is
  reshaped to `[16384, 1024, 2, 1]`, passed through eleven butterflies (stride 1, 2, …, 1024), scaled by the literal,
  contracted with the weight, and the bias is added. The operations are read here in chunks — the two reshapes of the
  input, one chunk per butterfly, the tail — each over ANY contents at the chunk's entry, and the chunks are then chained.
  No operation writes an argument, so the weight and the bias reach the tail as they were at the launch.
-/
import proofs.«124037_j57294863729375_1_alg».proof.Proof.RefRunBase
import proofs.«124037_j57294863729375_1_alg».proof.Proof.ButterflyDefs
import Idealize.ShloMosaic.Lib.StableHlo.Run

set_option maxRecDepth 16384

noncomputable section

namespace Cert.ReferenceIdeal.HostValue

open Cert.ReferenceIdeal Cert.ReferenceIdeal.Gen Cert.ReferenceIdeal.HandRun Idealize.ShloMosaic Idealize.ShloMosaic.TcCoe Idealize.SL.Sem Idealize.ShloMosaic.StableHlo Butterfly

variable {F : FTy → Type} [FloatOps F]

section Generic

/-- The contents after two lines of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The operations in chunks -/

/-- The two reshapes of the input into `[16384, 1024, 2, 1]`. -/
abbrev opsHead : List (HloOp τ sig (Elt F)) :=
  [ StableHlo.reshape main_arg0 main_v0 rfl shapeCasts_S4x4096x2048_S16384x2048x1,
    StableHlo.reshape main_v0 main_v1 rfl shapeCasts_S16384x2048x1_S16384x1024x2x1 ]

/-- Butterfly 1 (stride 1). -/
abbrev opsStage1 : List (HloOp τ sig (Elt F)) :=
  [ StableHlo.unary main_v1 main_v2 ((extractStridedSlice S16384x1024x1x1 ![0, 0, 0, 0] · slices_S16384x1024x2x1_S16384x1024x1x1_0_0_0_0) : (⟨S16384x1024x2x1, .f32⟩ : BufTy).Contents (Elt F) → (⟨S16384x1024x1x1, .f32⟩ : BufTy).Contents (Elt F)),
    StableHlo.reshape main_v2 main_v3 rfl shapeCasts_S16384x1024x1x1_S16384x1024x1,
    StableHlo.unary main_v1 main_v4 ((extractStridedSlice S16384x1024x1x1 ![0, 0, 1, 0] · slices_S16384x1024x2x1_S16384x1024x1x1_0_0_1_0) : (⟨S16384x1024x2x1, .f32⟩ : BufTy).Contents (Elt F) → (⟨S16384x1024x1x1, .f32⟩ : BufTy).Contents (Elt F)),
    StableHlo.reshape main_v4 main_v5 rfl shapeCasts_S16384x1024x1x1_S16384x1024x1,
    StableHlo.binary main_v3 main_v5 main_v6 (addf : (⟨S16384x1024x1, .f32⟩ : BufTy).Contents (Elt F) → (⟨S16384x1024x1, .f32⟩ : BufTy).Contents (Elt F) → (⟨S16384x1024x1, .f32⟩ : BufTy).Contents (Elt F)),
    StableHlo.binary main_v3 main_v5 main_v7 (subf : (⟨S16384x1024x1, .f32⟩ : BufTy).Contents (Elt F) → (⟨S16384x1024x1, .f32⟩ : BufTy).Contents (Elt F) → (⟨S16384x1024x1, .f32⟩ : BufTy).Contents (Elt F)),
    StableHlo.unary main_v6 main_v8 (broadcastInDim S16384x1024x1x1 ![0, 1, 3] bcast_S16384x1024x1_S16384x1024x1x1_0_1_3 : (⟨S16384x1024x1, .f32⟩ : BufTy).Contents (Elt F) → (⟨S16384x1024x1x1, .f32⟩ : BufTy).Contents (Elt F)),
    StableHlo.unary main_v7 main_v9 (broadcastInDim S16384x1024x1x1 ![0, 1, 3] bcast_S16384x1024x1_S16384x1024x1x1_0_1_3 : (⟨S16384x1024x1, .f32⟩ : BufTy).Contents (Elt F) → (⟨S16384x1024x1x1, .f32⟩ : BufTy).Contents (Elt F)),
    StableHlo.binary main_v8 main_v9 main_v10 ((fun a b => concatenate S16384x1024x2x1 2 [⟨S16384x1024x1x1, a⟩, ⟨S16384x1024x1x1, b⟩] concatenates_S16384x1024x1x1_S16384x1024x1x1_S16384x1024x2x1_d2) : (⟨S16384x1024x1x1, .f32⟩ : BufTy).Contents (Elt F) → (⟨S16384x1024x1x1, .f32⟩ : BufTy).Contents (Elt F) → (⟨S16384x1024x2x1, .f32⟩ : BufTy).Contents (Elt F)),
    StableHlo.reshape main_v10 main_v11 rfl shapeCasts_S16384x1024x2x1_S16384x1024x2,
    StableHlo.reshape main_v11 main_v12 rfl shapeCasts_S16384x1024x2_S16384x512x2x2 ]

/-- Butterfly 2 (stride 2). -/
abbrev opsStage2 : List (HloOp τ sig (Elt F)) :=
  [ StableHlo.unary main_v12 main_v13 ((extractStridedSlice S16384x512x1x2 ![0, 0, 0, 0] · slices_S16384x512x2x2_S16384x512x1x2_0_0_0_0) : (⟨S16384x512x2x2, .f32⟩ : BufTy).Contents (Elt F) → (⟨S16384x512x1x2, .f32⟩ : BufTy).Contents (Elt F)),
    StableHlo.reshape main_v13 main_v14 rfl shapeCasts_S16384x512x1x2_S16384x512x2,
    StableHlo.unary main_v12 main_v15 ((extractStridedSlice S16384x512x1x2 ![0, 0, 1, 0] · slices_S16384x512x2x2_S16384x512x1x2_0_0_1_0) : (⟨S16384x512x2x2, .f32⟩ : BufTy).Contents (Elt F) → (⟨S16384x512x1x2, .f32⟩ : BufTy).Contents (Elt F)),
    StableHlo.reshape main_v15 main_v16 rfl shapeCasts_S16384x512x1x2_S16384x512x2,
    StableHlo.binary main_v14 main_v16 main_v17 (addf : (⟨S16384x512x2, .f32⟩ : BufTy).Contents (Elt F) → (⟨S16384x512x2, .f32⟩ : BufTy).Contents (Elt F) → (⟨S16384x512x2, .f32⟩ : BufTy).Contents (Elt F)),
    StableHlo.binary main_v14 main_v16 main_v18 (subf : (⟨S16384x512x2, .f32⟩ : BufTy).Contents (Elt F) → (⟨S16384x512x2, .f32⟩ : BufTy).Contents (Elt F) → (⟨S16384x512x2, .f32⟩ : BufTy).Contents (Elt F)),
    StableHlo.unary main_v17 main_v19 (broadcastInDim S16384x512x1x2 ![0, 1, 3] bcast_S16384x512x2_S16384x512x1x2_0_1_3 : (⟨S16384x512x2, .f32⟩ : BufTy).Contents (Elt F) → (⟨S16384x512x1x2, .f32⟩ : BufTy).Contents (Elt F)),
    StableHlo.unary main_v18 main_v20 (broadcastInDim S16384x512x1x2 ![0, 1, 3] bcast_S16384x512x2_S16384x512x1x2_0_1_3 : (⟨S16384x512x2, .f32⟩ : BufTy).Contents (Elt F) → (⟨S16384x512x1x2, .f32⟩ : BufTy).Contents (Elt F)),
    StableHlo.binary main_v19 main_v20 main_v21 ((fun a b => concatenate S16384x512x2x2 2 [⟨S16384x512x1x2, a⟩, ⟨S16384x512x1x2, b⟩] concatenates_S16384x512x1x2_S16384x512x1x2_S16384x512x2x2_d2) : (⟨S16384x512x1x2, .f32⟩ : BufTy).Contents (Elt F) → (⟨S16384x512x1x2, .f32⟩ : BufTy).Contents (Elt F) → (⟨S16384x512x2x2, .f32⟩ : BufTy).Contents (Elt F)),
    StableHlo.reshape main_v21 main_v22 rfl shapeCasts_S16384x512x2x2_S16384x512x4,
    StableHlo.reshape main_v22 main_v23 rfl shapeCasts_S16384x512x4_S16384x256x2x4 ]

/-- Butterfly 3 (stride 4). -/
abbrev opsStage3 : List (HloOp τ sig (Elt F)) :=
  [ StableHlo.unary main_v23 main_v24 ((extractStridedSlice S16384x256x1x4 ![0, 0, 0, 0] · slices_S16384x256x2x4_S16384x256x1x4_0_0_0_0) : (⟨S16384x256x2x4, .f32⟩ : BufTy).Contents (Elt F) → (⟨S16384x256x1x4, .f32⟩ : BufTy).Contents (Elt F)),
    StableHlo.reshape main_v24 main_v25 rfl shapeCasts_S16384x256x1x4_S16384x256x4,
    StableHlo.unary main_v23 main_v26 ((extractStridedSlice S16384x256x1x4 ![0, 0, 1, 0] · slices_S16384x256x2x4_S16384x256x1x4_0_0_1_0) : (⟨S16384x256x2x4, .f32⟩ : BufTy).Contents (Elt F) → (⟨S16384x256x1x4, .f32⟩ : BufTy).Contents (Elt F)),
    StableHlo.reshape main_v26 main_v27 rfl shapeCasts_S16384x256x1x4_S16384x256x4,
    StableHlo.binary main_v25 main_v27 main_v28 (addf : (⟨S16384x256x4, .f32⟩ : BufTy).Contents (Elt F) → (⟨S16384x256x4, .f32⟩ : BufTy).Contents (Elt F) → (⟨S16384x256x4, .f32⟩ : BufTy).Contents (Elt F)),
    StableHlo.binary main_v25 main_v27 main_v29 (subf : (⟨S16384x256x4, .f32⟩ : BufTy).Contents (Elt F) → (⟨S16384x256x4, .f32⟩ : BufTy).Contents (Elt F) → (⟨S16384x256x4, .f32⟩ : BufTy).Contents (Elt F)),
    StableHlo.unary main_v28 main_v30 (broadcastInDim S16384x256x1x4 ![0, 1, 3] bcast_S16384x256x4_S16384x256x1x4_0_1_3 : (⟨S16384x256x4, .f32⟩ : BufTy).Contents (Elt F) → (⟨S16384x256x1x4, .f32⟩ : BufTy).Contents (Elt F)),
    StableHlo.unary main_v29 main_v31 (broadcastInDim S16384x256x1x4 ![0, 1, 3] bcast_S16384x256x4_S16384x256x1x4_0_1_3 : (⟨S16384x256x4, .f32⟩ : BufTy).Contents (Elt F) → (⟨S16384x256x1x4, .f32⟩ : BufTy).Contents (Elt F)),
    StableHlo.binary main_v30 main_v31 main_v32 ((fun a b => concatenate S16384x256x2x4 2 [⟨S16384x256x1x4, a⟩, ⟨S16384x256x1x4, b⟩] concatenates_S16384x256x1x4_S16384x256x1x4_S16384x256x2x4_d2) : (⟨S16384x256x1x4, .f32⟩ : BufTy).Contents (Elt F) → (⟨S16384x256x1x4, .f32⟩ : BufTy).Contents (Elt F) → (⟨S16384x256x2x4, .f32⟩ : BufTy).Contents (Elt F)),
    StableHlo.reshape main_v32 main_v33 rfl shapeCasts_S16384x256x2x4_S16384x256x8,
    StableHlo.reshape main_v33 main_v34 rfl shapeCasts_S16384x256x8_S16384x128x2x8 ]

/-- Butterfly 4 (stride 8). -/
abbrev opsStage4 : List (HloOp τ sig (Elt F)) :=
  [ StableHlo.unary main_v34 main_v35 ((extractStridedSlice S16384x128x1x8 ![0, 0, 0, 0] · slices_S16384x128x2x8_S16384x128x1x8_0_0_0_0) : (⟨S16384x128x2x8, .f32⟩ : BufTy).Contents (Elt F) → (⟨S16384x128x1x8, .f32⟩ : BufTy).Contents (Elt F)),
    StableHlo.reshape main_v35 main_v36 rfl shapeCasts_S16384x128x1x8_S16384x128x8,
    StableHlo.unary main_v34 main_v37 ((extractStridedSlice S16384x128x1x8 ![0, 0, 1, 0] · slices_S16384x128x2x8_S16384x128x1x8_0_0_1_0) : (⟨S16384x128x2x8, .f32⟩ : BufTy).Contents (Elt F) → (⟨S16384x128x1x8, .f32⟩ : BufTy).Contents (Elt F)),
    StableHlo.reshape main_v37 main_v38 rfl shapeCasts_S16384x128x1x8_S16384x128x8,
    StableHlo.binary main_v36 main_v38 main_v39 (addf : (⟨S16384x128x8, .f32⟩ : BufTy).Contents (Elt F) → (⟨S16384x128x8, .f32⟩ : BufTy).Contents (Elt F) → (⟨S16384x128x8, .f32⟩ : BufTy).Contents (Elt F)),
    StableHlo.binary main_v36 main_v38 main_v40 (subf : (⟨S16384x128x8, .f32⟩ : BufTy).Contents (Elt F) → (⟨S16384x128x8, .f32⟩ : BufTy).Contents (Elt F) → (⟨S16384x128x8, .f32⟩ : BufTy).Contents (Elt F)),
    StableHlo.unary main_v39 main_v41 (broadcastInDim S16384x128x1x8 ![0, 1, 3] bcast_S16384x128x8_S16384x128x1x8_0_1_3 : (⟨S16384x128x8, .f32⟩ : BufTy).Contents (Elt F) → (⟨S16384x128x1x8, .f32⟩ : BufTy).Contents (Elt F)),
    StableHlo.unary main_v40 main_v42 (broadcastInDim S16384x128x1x8 ![0, 1, 3] bcast_S16384x128x8_S16384x128x1x8_0_1_3 : (⟨S16384x128x8, .f32⟩ : BufTy).Contents (Elt F) → (⟨S16384x128x1x8, .f32⟩ : BufTy).Contents (Elt F)),
    StableHlo.binary main_v41 main_v42 main_v43 ((fun a b => concatenate S16384x128x2x8 2 [⟨S16384x128x1x8, a⟩, ⟨S16384x128x1x8, b⟩] concatenates_S16384x128x1x8_S16384x128x1x8_S16384x128x2x8_d2) : (⟨S16384x128x1x8, .f32⟩ : BufTy).Contents (Elt F) → (⟨S16384x128x1x8, .f32⟩ : BufTy).Contents (Elt F) → (⟨S16384x128x2x8, .f32⟩ : BufTy).Contents (Elt F)),
    StableHlo.reshape main_v43 main_v44 rfl shapeCasts_S16384x128x2x8_S16384x128x16,
    StableHlo.reshape main_v44 main_v45 rfl shapeCasts_S16384x128x16_S16384x64x2x16 ]

/-- Butterfly 5 (stride 16). -/
abbrev opsStage5 : List (HloOp τ sig (Elt F)) :=
  [ StableHlo.unary main_v45 main_v46 ((extractStridedSlice S16384x64x1x16 ![0, 0, 0, 0] · slices_S16384x64x2x16_S16384x64x1x16_0_0_0_0) : (⟨S16384x64x2x16, .f32⟩ : BufTy).Contents (Elt F) → (⟨S16384x64x1x16, .f32⟩ : BufTy).Contents (Elt F)),
    StableHlo.reshape main_v46 main_v47 rfl shapeCasts_S16384x64x1x16_S16384x64x16,
    StableHlo.unary main_v45 main_v48 ((extractStridedSlice S16384x64x1x16 ![0, 0, 1, 0] · slices_S16384x64x2x16_S16384x64x1x16_0_0_1_0) : (⟨S16384x64x2x16, .f32⟩ : BufTy).Contents (Elt F) → (⟨S16384x64x1x16, .f32⟩ : BufTy).Contents (Elt F)),
    StableHlo.reshape main_v48 main_v49 rfl shapeCasts_S16384x64x1x16_S16384x64x16,
    StableHlo.binary main_v47 main_v49 main_v50 (addf : (⟨S16384x64x16, .f32⟩ : BufTy).Contents (Elt F) → (⟨S16384x64x16, .f32⟩ : BufTy).Contents (Elt F) → (⟨S16384x64x16, .f32⟩ : BufTy).Contents (Elt F)),
    StableHlo.binary main_v47 main_v49 main_v51 (subf : (⟨S16384x64x16, .f32⟩ : BufTy).Contents (Elt F) → (⟨S16384x64x16, .f32⟩ : BufTy).Contents (Elt F) → (⟨S16384x64x16, .f32⟩ : BufTy).Contents (Elt F)),
    StableHlo.unary main_v50 main_v52 (broadcastInDim S16384x64x1x16 ![0, 1, 3] bcast_S16384x64x16_S16384x64x1x16_0_1_3 : (⟨S16384x64x16, .f32⟩ : BufTy).Contents (Elt F) → (⟨S16384x64x1x16, .f32⟩ : BufTy).Contents (Elt F)),
    StableHlo.unary main_v51 main_v53 (broadcastInDim S16384x64x1x16 ![0, 1, 3] bcast_S16384x64x16_S16384x64x1x16_0_1_3 : (⟨S16384x64x16, .f32⟩ : BufTy).Contents (Elt F) → (⟨S16384x64x1x16, .f32⟩ : BufTy).Contents (Elt F)),
    StableHlo.binary main_v52 main_v53 main_v54 ((fun a b => concatenate S16384x64x2x16 2 [⟨S16384x64x1x16, a⟩, ⟨S16384x64x1x16, b⟩] concatenates_S16384x64x1x16_S16384x64x1x16_S16384x64x2x16_d2) : (⟨S16384x64x1x16, .f32⟩ : BufTy).Contents (Elt F) → (⟨S16384x64x1x16, .f32⟩ : BufTy).Contents (Elt F) → (⟨S16384x64x2x16, .f32⟩ : BufTy).Contents (Elt F)),
    StableHlo.reshape main_v54 main_v55 rfl shapeCasts_S16384x64x2x16_S16384x64x32,
    StableHlo.reshape main_v55 main_v56 rfl shapeCasts_S16384x64x32_S16384x32x2x32 ]

/-- Butterfly 6 (stride 32). -/
abbrev opsStage6 : List (HloOp τ sig (Elt F)) :=
  [ StableHlo.unary main_v56 main_v57 ((extractStridedSlice S16384x32x1x32 ![0, 0, 0, 0] · slices_S16384x32x2x32_S16384x32x1x32_0_0_0_0) : (⟨S16384x32x2x32, .f32⟩ : BufTy).Contents (Elt F) → (⟨S16384x32x1x32, .f32⟩ : BufTy).Contents (Elt F)),
    StableHlo.reshape main_v57 main_v58 rfl shapeCasts_S16384x32x1x32_S16384x32x32,
    StableHlo.unary main_v56 main_v59 ((extractStridedSlice S16384x32x1x32 ![0, 0, 1, 0] · slices_S16384x32x2x32_S16384x32x1x32_0_0_1_0) : (⟨S16384x32x2x32, .f32⟩ : BufTy).Contents (Elt F) → (⟨S16384x32x1x32, .f32⟩ : BufTy).Contents (Elt F)),
    StableHlo.reshape main_v59 main_v60 rfl shapeCasts_S16384x32x1x32_S16384x32x32,
    StableHlo.binary main_v58 main_v60 main_v61 (addf : (⟨S16384x32x32, .f32⟩ : BufTy).Contents (Elt F) → (⟨S16384x32x32, .f32⟩ : BufTy).Contents (Elt F) → (⟨S16384x32x32, .f32⟩ : BufTy).Contents (Elt F)),
    StableHlo.binary main_v58 main_v60 main_v62 (subf : (⟨S16384x32x32, .f32⟩ : BufTy).Contents (Elt F) → (⟨S16384x32x32, .f32⟩ : BufTy).Contents (Elt F) → (⟨S16384x32x32, .f32⟩ : BufTy).Contents (Elt F)),
    StableHlo.unary main_v61 main_v63 (broadcastInDim S16384x32x1x32 ![0, 1, 3] bcast_S16384x32x32_S16384x32x1x32_0_1_3 : (⟨S16384x32x32, .f32⟩ : BufTy).Contents (Elt F) → (⟨S16384x32x1x32, .f32⟩ : BufTy).Contents (Elt F)),
    StableHlo.unary main_v62 main_v64 (broadcastInDim S16384x32x1x32 ![0, 1, 3] bcast_S16384x32x32_S16384x32x1x32_0_1_3 : (⟨S16384x32x32, .f32⟩ : BufTy).Contents (Elt F) → (⟨S16384x32x1x32, .f32⟩ : BufTy).Contents (Elt F)),
    StableHlo.binary main_v63 main_v64 main_v65 ((fun a b => concatenate S16384x32x2x32 2 [⟨S16384x32x1x32, a⟩, ⟨S16384x32x1x32, b⟩] concatenates_S16384x32x1x32_S16384x32x1x32_S16384x32x2x32_d2) : (⟨S16384x32x1x32, .f32⟩ : BufTy).Contents (Elt F) → (⟨S16384x32x1x32, .f32⟩ : BufTy).Contents (Elt F) → (⟨S16384x32x2x32, .f32⟩ : BufTy).Contents (Elt F)),
    StableHlo.reshape main_v65 main_v66 rfl shapeCasts_S16384x32x2x32_S16384x32x64,
    StableHlo.reshape main_v66 main_v67 rfl shapeCasts_S16384x32x64_S16384x16x2x64 ]

/-- Butterfly 7 (stride 64). -/
abbrev opsStage7 : List (HloOp τ sig (Elt F)) :=
  [ StableHlo.unary main_v67 main_v68 ((extractStridedSlice S16384x16x1x64 ![0, 0, 0, 0] · slices_S16384x16x2x64_S16384x16x1x64_0_0_0_0) : (⟨S16384x16x2x64, .f32⟩ : BufTy).Contents (Elt F) → (⟨S16384x16x1x64, .f32⟩ : BufTy).Contents (Elt F)),
    StableHlo.reshape main_v68 main_v69 rfl shapeCasts_S16384x16x1x64_S16384x16x64,
    StableHlo.unary main_v67 main_v70 ((extractStridedSlice S16384x16x1x64 ![0, 0, 1, 0] · slices_S16384x16x2x64_S16384x16x1x64_0_0_1_0) : (⟨S16384x16x2x64, .f32⟩ : BufTy).Contents (Elt F) → (⟨S16384x16x1x64, .f32⟩ : BufTy).Contents (Elt F)),
    StableHlo.reshape main_v70 main_v71 rfl shapeCasts_S16384x16x1x64_S16384x16x64,
    StableHlo.binary main_v69 main_v71 main_v72 (addf : (⟨S16384x16x64, .f32⟩ : BufTy).Contents (Elt F) → (⟨S16384x16x64, .f32⟩ : BufTy).Contents (Elt F) → (⟨S16384x16x64, .f32⟩ : BufTy).Contents (Elt F)),
    StableHlo.binary main_v69 main_v71 main_v73 (subf : (⟨S16384x16x64, .f32⟩ : BufTy).Contents (Elt F) → (⟨S16384x16x64, .f32⟩ : BufTy).Contents (Elt F) → (⟨S16384x16x64, .f32⟩ : BufTy).Contents (Elt F)),
    StableHlo.unary main_v72 main_v74 (broadcastInDim S16384x16x1x64 ![0, 1, 3] bcast_S16384x16x64_S16384x16x1x64_0_1_3 : (⟨S16384x16x64, .f32⟩ : BufTy).Contents (Elt F) → (⟨S16384x16x1x64, .f32⟩ : BufTy).Contents (Elt F)),
    StableHlo.unary main_v73 main_v75 (broadcastInDim S16384x16x1x64 ![0, 1, 3] bcast_S16384x16x64_S16384x16x1x64_0_1_3 : (⟨S16384x16x64, .f32⟩ : BufTy).Contents (Elt F) → (⟨S16384x16x1x64, .f32⟩ : BufTy).Contents (Elt F)),
    StableHlo.binary main_v74 main_v75 main_v76 ((fun a b => concatenate S16384x16x2x64 2 [⟨S16384x16x1x64, a⟩, ⟨S16384x16x1x64, b⟩] concatenates_S16384x16x1x64_S16384x16x1x64_S16384x16x2x64_d2) : (⟨S16384x16x1x64, .f32⟩ : BufTy).Contents (Elt F) → (⟨S16384x16x1x64, .f32⟩ : BufTy).Contents (Elt F) → (⟨S16384x16x2x64, .f32⟩ : BufTy).Contents (Elt F)),
    StableHlo.reshape main_v76 main_v77 rfl shapeCasts_S16384x16x2x64_S16384x16x128,
    StableHlo.reshape main_v77 main_v78 rfl shapeCasts_S16384x16x128_S16384x8x2x128 ]

/-- Butterfly 8 (stride 128). -/
abbrev opsStage8 : List (HloOp τ sig (Elt F)) :=
  [ StableHlo.unary main_v78 main_v79 ((extractStridedSlice S16384x8x1x128 ![0, 0, 0, 0] · slices_S16384x8x2x128_S16384x8x1x128_0_0_0_0) : (⟨S16384x8x2x128, .f32⟩ : BufTy).Contents (Elt F) → (⟨S16384x8x1x128, .f32⟩ : BufTy).Contents (Elt F)),
    StableHlo.reshape main_v79 main_v80 rfl shapeCasts_S16384x8x1x128_S16384x8x128,
    StableHlo.unary main_v78 main_v81 ((extractStridedSlice S16384x8x1x128 ![0, 0, 1, 0] · slices_S16384x8x2x128_S16384x8x1x128_0_0_1_0) : (⟨S16384x8x2x128, .f32⟩ : BufTy).Contents (Elt F) → (⟨S16384x8x1x128, .f32⟩ : BufTy).Contents (Elt F)),
    StableHlo.reshape main_v81 main_v82 rfl shapeCasts_S16384x8x1x128_S16384x8x128,
    StableHlo.binary main_v80 main_v82 main_v83 (addf : (⟨S16384x8x128, .f32⟩ : BufTy).Contents (Elt F) → (⟨S16384x8x128, .f32⟩ : BufTy).Contents (Elt F) → (⟨S16384x8x128, .f32⟩ : BufTy).Contents (Elt F)),
    StableHlo.binary main_v80 main_v82 main_v84 (subf : (⟨S16384x8x128, .f32⟩ : BufTy).Contents (Elt F) → (⟨S16384x8x128, .f32⟩ : BufTy).Contents (Elt F) → (⟨S16384x8x128, .f32⟩ : BufTy).Contents (Elt F)),
    StableHlo.unary main_v83 main_v85 (broadcastInDim S16384x8x1x128 ![0, 1, 3] bcast_S16384x8x128_S16384x8x1x128_0_1_3 : (⟨S16384x8x128, .f32⟩ : BufTy).Contents (Elt F) → (⟨S16384x8x1x128, .f32⟩ : BufTy).Contents (Elt F)),
    StableHlo.unary main_v84 main_v86 (broadcastInDim S16384x8x1x128 ![0, 1, 3] bcast_S16384x8x128_S16384x8x1x128_0_1_3 : (⟨S16384x8x128, .f32⟩ : BufTy).Contents (Elt F) → (⟨S16384x8x1x128, .f32⟩ : BufTy).Contents (Elt F)),
    StableHlo.binary main_v85 main_v86 main_v87 ((fun a b => concatenate S16384x8x2x128 2 [⟨S16384x8x1x128, a⟩, ⟨S16384x8x1x128, b⟩] concatenates_S16384x8x1x128_S16384x8x1x128_S16384x8x2x128_d2) : (⟨S16384x8x1x128, .f32⟩ : BufTy).Contents (Elt F) → (⟨S16384x8x1x128, .f32⟩ : BufTy).Contents (Elt F) → (⟨S16384x8x2x128, .f32⟩ : BufTy).Contents (Elt F)),
    StableHlo.reshape main_v87 main_v88 rfl shapeCasts_S16384x8x2x128_S16384x8x256,
    StableHlo.reshape main_v88 main_v89 rfl shapeCasts_S16384x8x256_S16384x4x2x256 ]

/-- Butterfly 9 (stride 256). -/
abbrev opsStage9 : List (HloOp τ sig (Elt F)) :=
  [ StableHlo.unary main_v89 main_v90 ((extractStridedSlice S16384x4x1x256 ![0, 0, 0, 0] · slices_S16384x4x2x256_S16384x4x1x256_0_0_0_0) : (⟨S16384x4x2x256, .f32⟩ : BufTy).Contents (Elt F) → (⟨S16384x4x1x256, .f32⟩ : BufTy).Contents (Elt F)),
    StableHlo.reshape main_v90 main_v91 rfl shapeCasts_S16384x4x1x256_S16384x4x256,
    StableHlo.unary main_v89 main_v92 ((extractStridedSlice S16384x4x1x256 ![0, 0, 1, 0] · slices_S16384x4x2x256_S16384x4x1x256_0_0_1_0) : (⟨S16384x4x2x256, .f32⟩ : BufTy).Contents (Elt F) → (⟨S16384x4x1x256, .f32⟩ : BufTy).Contents (Elt F)),
    StableHlo.reshape main_v92 main_v93 rfl shapeCasts_S16384x4x1x256_S16384x4x256,
    StableHlo.binary main_v91 main_v93 main_v94 (addf : (⟨S16384x4x256, .f32⟩ : BufTy).Contents (Elt F) → (⟨S16384x4x256, .f32⟩ : BufTy).Contents (Elt F) → (⟨S16384x4x256, .f32⟩ : BufTy).Contents (Elt F)),
    StableHlo.binary main_v91 main_v93 main_v95 (subf : (⟨S16384x4x256, .f32⟩ : BufTy).Contents (Elt F) → (⟨S16384x4x256, .f32⟩ : BufTy).Contents (Elt F) → (⟨S16384x4x256, .f32⟩ : BufTy).Contents (Elt F)),
    StableHlo.unary main_v94 main_v96 (broadcastInDim S16384x4x1x256 ![0, 1, 3] bcast_S16384x4x256_S16384x4x1x256_0_1_3 : (⟨S16384x4x256, .f32⟩ : BufTy).Contents (Elt F) → (⟨S16384x4x1x256, .f32⟩ : BufTy).Contents (Elt F)),
    StableHlo.unary main_v95 main_v97 (broadcastInDim S16384x4x1x256 ![0, 1, 3] bcast_S16384x4x256_S16384x4x1x256_0_1_3 : (⟨S16384x4x256, .f32⟩ : BufTy).Contents (Elt F) → (⟨S16384x4x1x256, .f32⟩ : BufTy).Contents (Elt F)),
    StableHlo.binary main_v96 main_v97 main_v98 ((fun a b => concatenate S16384x4x2x256 2 [⟨S16384x4x1x256, a⟩, ⟨S16384x4x1x256, b⟩] concatenates_S16384x4x1x256_S16384x4x1x256_S16384x4x2x256_d2) : (⟨S16384x4x1x256, .f32⟩ : BufTy).Contents (Elt F) → (⟨S16384x4x1x256, .f32⟩ : BufTy).Contents (Elt F) → (⟨S16384x4x2x256, .f32⟩ : BufTy).Contents (Elt F)),
    StableHlo.reshape main_v98 main_v99 rfl shapeCasts_S16384x4x2x256_S16384x4x512,
    StableHlo.reshape main_v99 main_v100 rfl shapeCasts_S16384x4x512_S16384x2x2x512 ]

/-- Butterfly 10 (stride 512). -/
abbrev opsStage10 : List (HloOp τ sig (Elt F)) :=
  [ StableHlo.unary main_v100 main_v101 ((extractStridedSlice S16384x2x1x512 ![0, 0, 0, 0] · slices_S16384x2x2x512_S16384x2x1x512_0_0_0_0) : (⟨S16384x2x2x512, .f32⟩ : BufTy).Contents (Elt F) → (⟨S16384x2x1x512, .f32⟩ : BufTy).Contents (Elt F)),
    StableHlo.reshape main_v101 main_v102 rfl shapeCasts_S16384x2x1x512_S16384x2x512,
    StableHlo.unary main_v100 main_v103 ((extractStridedSlice S16384x2x1x512 ![0, 0, 1, 0] · slices_S16384x2x2x512_S16384x2x1x512_0_0_1_0) : (⟨S16384x2x2x512, .f32⟩ : BufTy).Contents (Elt F) → (⟨S16384x2x1x512, .f32⟩ : BufTy).Contents (Elt F)),
    StableHlo.reshape main_v103 main_v104 rfl shapeCasts_S16384x2x1x512_S16384x2x512,
    StableHlo.binary main_v102 main_v104 main_v105 (addf : (⟨S16384x2x512, .f32⟩ : BufTy).Contents (Elt F) → (⟨S16384x2x512, .f32⟩ : BufTy).Contents (Elt F) → (⟨S16384x2x512, .f32⟩ : BufTy).Contents (Elt F)),
    StableHlo.binary main_v102 main_v104 main_v106 (subf : (⟨S16384x2x512, .f32⟩ : BufTy).Contents (Elt F) → (⟨S16384x2x512, .f32⟩ : BufTy).Contents (Elt F) → (⟨S16384x2x512, .f32⟩ : BufTy).Contents (Elt F)),
    StableHlo.unary main_v105 main_v107 (broadcastInDim S16384x2x1x512 ![0, 1, 3] bcast_S16384x2x512_S16384x2x1x512_0_1_3 : (⟨S16384x2x512, .f32⟩ : BufTy).Contents (Elt F) → (⟨S16384x2x1x512, .f32⟩ : BufTy).Contents (Elt F)),
    StableHlo.unary main_v106 main_v108 (broadcastInDim S16384x2x1x512 ![0, 1, 3] bcast_S16384x2x512_S16384x2x1x512_0_1_3 : (⟨S16384x2x512, .f32⟩ : BufTy).Contents (Elt F) → (⟨S16384x2x1x512, .f32⟩ : BufTy).Contents (Elt F)),
    StableHlo.binary main_v107 main_v108 main_v109 ((fun a b => concatenate S16384x2x2x512 2 [⟨S16384x2x1x512, a⟩, ⟨S16384x2x1x512, b⟩] concatenates_S16384x2x1x512_S16384x2x1x512_S16384x2x2x512_d2) : (⟨S16384x2x1x512, .f32⟩ : BufTy).Contents (Elt F) → (⟨S16384x2x1x512, .f32⟩ : BufTy).Contents (Elt F) → (⟨S16384x2x2x512, .f32⟩ : BufTy).Contents (Elt F)),
    StableHlo.reshape main_v109 main_v110 rfl shapeCasts_S16384x2x2x512_S16384x2x1024,
    StableHlo.reshape main_v110 main_v111 rfl shapeCasts_S16384x2x1024_S16384x1x2x1024 ]

/-- Butterfly 11 (stride 1024). -/
abbrev opsStage11 : List (HloOp τ sig (Elt F)) :=
  [ StableHlo.unary main_v111 main_v112 ((extractStridedSlice S16384x1x1x1024 ![0, 0, 0, 0] · slices_S16384x1x2x1024_S16384x1x1x1024_0_0_0_0) : (⟨S16384x1x2x1024, .f32⟩ : BufTy).Contents (Elt F) → (⟨S16384x1x1x1024, .f32⟩ : BufTy).Contents (Elt F)),
    StableHlo.reshape main_v112 main_v113 rfl shapeCasts_S16384x1x1x1024_S16384x1x1024,
    StableHlo.unary main_v111 main_v114 ((extractStridedSlice S16384x1x1x1024 ![0, 0, 1, 0] · slices_S16384x1x2x1024_S16384x1x1x1024_0_0_1_0) : (⟨S16384x1x2x1024, .f32⟩ : BufTy).Contents (Elt F) → (⟨S16384x1x1x1024, .f32⟩ : BufTy).Contents (Elt F)),
    StableHlo.reshape main_v114 main_v115 rfl shapeCasts_S16384x1x1x1024_S16384x1x1024,
    StableHlo.binary main_v113 main_v115 main_v116 (addf : (⟨S16384x1x1024, .f32⟩ : BufTy).Contents (Elt F) → (⟨S16384x1x1024, .f32⟩ : BufTy).Contents (Elt F) → (⟨S16384x1x1024, .f32⟩ : BufTy).Contents (Elt F)),
    StableHlo.binary main_v113 main_v115 main_v117 (subf : (⟨S16384x1x1024, .f32⟩ : BufTy).Contents (Elt F) → (⟨S16384x1x1024, .f32⟩ : BufTy).Contents (Elt F) → (⟨S16384x1x1024, .f32⟩ : BufTy).Contents (Elt F)),
    StableHlo.unary main_v116 main_v118 (broadcastInDim S16384x1x1x1024 ![0, 1, 3] bcast_S16384x1x1024_S16384x1x1x1024_0_1_3 : (⟨S16384x1x1024, .f32⟩ : BufTy).Contents (Elt F) → (⟨S16384x1x1x1024, .f32⟩ : BufTy).Contents (Elt F)),
    StableHlo.unary main_v117 main_v119 (broadcastInDim S16384x1x1x1024 ![0, 1, 3] bcast_S16384x1x1024_S16384x1x1x1024_0_1_3 : (⟨S16384x1x1024, .f32⟩ : BufTy).Contents (Elt F) → (⟨S16384x1x1x1024, .f32⟩ : BufTy).Contents (Elt F)),
    StableHlo.binary main_v118 main_v119 main_v120 ((fun a b => concatenate S16384x1x2x1024 2 [⟨S16384x1x1x1024, a⟩, ⟨S16384x1x1x1024, b⟩] concatenates_S16384x1x1x1024_S16384x1x1x1024_S16384x1x2x1024_d2) : (⟨S16384x1x1x1024, .f32⟩ : BufTy).Contents (Elt F) → (⟨S16384x1x1x1024, .f32⟩ : BufTy).Contents (Elt F) → (⟨S16384x1x2x1024, .f32⟩ : BufTy).Contents (Elt F)),
    StableHlo.reshape main_v120 main_v121 rfl shapeCasts_S16384x1x2x1024_S16384x1x2048,
    StableHlo.reshape main_v121 main_v122 rfl shapeCasts_S16384x1x2048_S4x4096x2048 ]

/-- The scale and the product, the contraction with the weight, the bias broadcast twice, the sum. -/
abbrev opsTail : List (HloOp τ sig (Elt F)) :=
  [ StableHlo.nullary main_cst (constant S_ .f32 0x3CB504F3#32),
    StableHlo.unary main_cst main_v123 (broadcastInDim S4x4096x2048 ![] bcast_S_S4x4096x2048 : (⟨S_, .f32⟩ : BufTy).Contents (Elt F) → (⟨S4x4096x2048, .f32⟩ : BufTy).Contents (Elt F)),
    StableHlo.binary main_v122 main_v123 main_v124 (mulf : (⟨S4x4096x2048, .f32⟩ : BufTy).Contents (Elt F) → (⟨S4x4096x2048, .f32⟩ : BufTy).Contents (Elt F) → (⟨S4x4096x2048, .f32⟩ : BufTy).Contents (Elt F)),
    StableHlo.binary main_v124 main_arg1 main_v125 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.unary main_arg2 main_v126 (broadcastInDim S1x1x2048 ![2] bcast_S2048_S1x1x2048_2 : (⟨S2048, .f32⟩ : BufTy).Contents (Elt F) → (⟨S1x1x2048, .f32⟩ : BufTy).Contents (Elt F)),
    StableHlo.unary main_v126 main_v127 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    StableHlo.binary main_v125 main_v127 main_v128 (addf : (⟨S4x4096x2048, .f32⟩ : BufTy).Contents (Elt F) → (⟨S4x4096x2048, .f32⟩ : BufTy).Contents (Elt F) → (⟨S4x4096x2048, .f32⟩ : BufTy).Contents (Elt F)) ]

set_option maxHeartbeats 40000000 in
/-- The program's operations are the chunks in order. -/
theorem ops_eq : (ops : List (HloOp τ sig (Elt F))) =
    opsHead ++ (opsStage1 ++ (opsStage2 ++ (opsStage3 ++ (opsStage4 ++ (opsStage5 ++ (opsStage6 ++ (opsStage7 ++ (opsStage8 ++ (opsStage9 ++ (opsStage10 ++ (opsStage11 ++ (opsTail)))))))))))) := rfl

end Generic

local notation "𝕀" => Ideal

/-- The contents at each chunk boundary, from contents `V0` at the launch. -/
def Uh (V0 : Valuation τ sig (Elt 𝕀)) : Valuation τ sig (Elt 𝕀) := after (opsHead (F := 𝕀)) V0
def Us1 (V0 : Valuation τ sig (Elt 𝕀)) : Valuation τ sig (Elt 𝕀) := after (opsStage1 (F := 𝕀)) (Uh V0)
def Us2 (V0 : Valuation τ sig (Elt 𝕀)) : Valuation τ sig (Elt 𝕀) := after (opsStage2 (F := 𝕀)) (Us1 V0)
def Us3 (V0 : Valuation τ sig (Elt 𝕀)) : Valuation τ sig (Elt 𝕀) := after (opsStage3 (F := 𝕀)) (Us2 V0)
def Us4 (V0 : Valuation τ sig (Elt 𝕀)) : Valuation τ sig (Elt 𝕀) := after (opsStage4 (F := 𝕀)) (Us3 V0)
def Us5 (V0 : Valuation τ sig (Elt 𝕀)) : Valuation τ sig (Elt 𝕀) := after (opsStage5 (F := 𝕀)) (Us4 V0)
def Us6 (V0 : Valuation τ sig (Elt 𝕀)) : Valuation τ sig (Elt 𝕀) := after (opsStage6 (F := 𝕀)) (Us5 V0)
def Us7 (V0 : Valuation τ sig (Elt 𝕀)) : Valuation τ sig (Elt 𝕀) := after (opsStage7 (F := 𝕀)) (Us6 V0)
def Us8 (V0 : Valuation τ sig (Elt 𝕀)) : Valuation τ sig (Elt 𝕀) := after (opsStage8 (F := 𝕀)) (Us7 V0)
def Us9 (V0 : Valuation τ sig (Elt 𝕀)) : Valuation τ sig (Elt 𝕀) := after (opsStage9 (F := 𝕀)) (Us8 V0)
def Us10 (V0 : Valuation τ sig (Elt 𝕀)) : Valuation τ sig (Elt 𝕀) := after (opsStage10 (F := 𝕀)) (Us9 V0)
def Us11 (V0 : Valuation τ sig (Elt 𝕀)) : Valuation τ sig (Elt 𝕀) := after (opsStage11 (F := 𝕀)) (Us10 V0)

theorem after_ops (V0 : Valuation τ sig (Elt 𝕀)) : after (ops (F := 𝕀)) V0 = after (opsTail (F := 𝕀)) (Us11 V0) := by
  rw [ops_eq]
  simp only [after_append]
  rfl

/-- The array entering butterfly `k + 1` (after `k` butterflies), as shape `[16384, 1024 / 2^k, 2, 2^k]`; the last one is
    the transformed input `[4, 4096, 2048]`. -/
def RX0 (V0 : Valuation τ sig (Elt 𝕀)) : (S4 16384 1024 1).Idx → EReal := Uh V0 (Proc.devRef .tc main_v1)
def RX1 (V0 : Valuation τ sig (Elt 𝕀)) : (S4 16384 512 2).Idx → EReal := Us1 V0 (Proc.devRef .tc main_v12)
def RX2 (V0 : Valuation τ sig (Elt 𝕀)) : (S4 16384 256 4).Idx → EReal := Us2 V0 (Proc.devRef .tc main_v23)
def RX3 (V0 : Valuation τ sig (Elt 𝕀)) : (S4 16384 128 8).Idx → EReal := Us3 V0 (Proc.devRef .tc main_v34)
def RX4 (V0 : Valuation τ sig (Elt 𝕀)) : (S4 16384 64 16).Idx → EReal := Us4 V0 (Proc.devRef .tc main_v45)
def RX5 (V0 : Valuation τ sig (Elt 𝕀)) : (S4 16384 32 32).Idx → EReal := Us5 V0 (Proc.devRef .tc main_v56)
def RX6 (V0 : Valuation τ sig (Elt 𝕀)) : (S4 16384 16 64).Idx → EReal := Us6 V0 (Proc.devRef .tc main_v67)
def RX7 (V0 : Valuation τ sig (Elt 𝕀)) : (S4 16384 8 128).Idx → EReal := Us7 V0 (Proc.devRef .tc main_v78)
def RX8 (V0 : Valuation τ sig (Elt 𝕀)) : (S4 16384 4 256).Idx → EReal := Us8 V0 (Proc.devRef .tc main_v89)
def RX9 (V0 : Valuation τ sig (Elt 𝕀)) : (S4 16384 2 512).Idx → EReal := Us9 V0 (Proc.devRef .tc main_v100)
def RX10 (V0 : Valuation τ sig (Elt 𝕀)) : (S4 16384 1 1024).Idx → EReal := Us10 V0 (Proc.devRef .tc main_v111)
def RX11 (V0 : Valuation τ sig (Elt 𝕀)) : S4x4096x2048.Idx → EReal := Us11 V0 (Proc.devRef .tc main_v122)

theorem RX0_eq (V0 : Valuation τ sig (Elt 𝕀)) :
    RX0 V0 = shapeCast S16384x1024x2x1 (shapeCast S16384x2048x1 (V0 (Proc.devRef .tc main_arg0)) shapeCasts_S4x4096x2048_S16384x2048x1) shapeCasts_S16384x2048x1_S16384x1024x2x1 := by
  unfold RX0 Uh
  after_results
  all_goals rfl

theorem RX1_eq (V0 : Valuation τ sig (Elt 𝕀)) :
    RX1 V0 = stage (R := 16384) (h := 1024) (t := 1) (S3o := S16384x1024x2) (T := S16384x512x2x2) (RX0 V0)
      (by decide) (by decide) (by decide) (by decide) (by decide) (by decide) (by decide) := by
  unfold RX1 Us1 RX0
  generalize Uh V0 = U
  after_results
  all_goals rfl

theorem RX2_eq (V0 : Valuation τ sig (Elt 𝕀)) :
    RX2 V0 = stage (R := 16384) (h := 512) (t := 2) (S3o := S16384x512x4) (T := S16384x256x2x4) (RX1 V0)
      (by decide) (by decide) (by decide) (by decide) (by decide) (by decide) (by decide) := by
  unfold RX2 Us2 RX1
  generalize Us1 V0 = U
  after_results
  all_goals rfl

theorem RX3_eq (V0 : Valuation τ sig (Elt 𝕀)) :
    RX3 V0 = stage (R := 16384) (h := 256) (t := 4) (S3o := S16384x256x8) (T := S16384x128x2x8) (RX2 V0)
      (by decide) (by decide) (by decide) (by decide) (by decide) (by decide) (by decide) := by
  unfold RX3 Us3 RX2
  generalize Us2 V0 = U
  after_results
  all_goals rfl

theorem RX4_eq (V0 : Valuation τ sig (Elt 𝕀)) :
    RX4 V0 = stage (R := 16384) (h := 128) (t := 8) (S3o := S16384x128x16) (T := S16384x64x2x16) (RX3 V0)
      (by decide) (by decide) (by decide) (by decide) (by decide) (by decide) (by decide) := by
  unfold RX4 Us4 RX3
  generalize Us3 V0 = U
  after_results
  all_goals rfl

theorem RX5_eq (V0 : Valuation τ sig (Elt 𝕀)) :
    RX5 V0 = stage (R := 16384) (h := 64) (t := 16) (S3o := S16384x64x32) (T := S16384x32x2x32) (RX4 V0)
      (by decide) (by decide) (by decide) (by decide) (by decide) (by decide) (by decide) := by
  unfold RX5 Us5 RX4
  generalize Us4 V0 = U
  after_results
  all_goals rfl

theorem RX6_eq (V0 : Valuation τ sig (Elt 𝕀)) :
    RX6 V0 = stage (R := 16384) (h := 32) (t := 32) (S3o := S16384x32x64) (T := S16384x16x2x64) (RX5 V0)
      (by decide) (by decide) (by decide) (by decide) (by decide) (by decide) (by decide) := by
  unfold RX6 Us6 RX5
  generalize Us5 V0 = U
  after_results
  all_goals rfl

theorem RX7_eq (V0 : Valuation τ sig (Elt 𝕀)) :
    RX7 V0 = stage (R := 16384) (h := 16) (t := 64) (S3o := S16384x16x128) (T := S16384x8x2x128) (RX6 V0)
      (by decide) (by decide) (by decide) (by decide) (by decide) (by decide) (by decide) := by
  unfold RX7 Us7 RX6
  generalize Us6 V0 = U
  after_results
  all_goals rfl

theorem RX8_eq (V0 : Valuation τ sig (Elt 𝕀)) :
    RX8 V0 = stage (R := 16384) (h := 8) (t := 128) (S3o := S16384x8x256) (T := S16384x4x2x256) (RX7 V0)
      (by decide) (by decide) (by decide) (by decide) (by decide) (by decide) (by decide) := by
  unfold RX8 Us8 RX7
  generalize Us7 V0 = U
  after_results
  all_goals rfl

theorem RX9_eq (V0 : Valuation τ sig (Elt 𝕀)) :
    RX9 V0 = stage (R := 16384) (h := 4) (t := 256) (S3o := S16384x4x512) (T := S16384x2x2x512) (RX8 V0)
      (by decide) (by decide) (by decide) (by decide) (by decide) (by decide) (by decide) := by
  unfold RX9 Us9 RX8
  generalize Us8 V0 = U
  after_results
  all_goals rfl

theorem RX10_eq (V0 : Valuation τ sig (Elt 𝕀)) :
    RX10 V0 = stage (R := 16384) (h := 2) (t := 512) (S3o := S16384x2x1024) (T := S16384x1x2x1024) (RX9 V0)
      (by decide) (by decide) (by decide) (by decide) (by decide) (by decide) (by decide) := by
  unfold RX10 Us10 RX9
  generalize Us9 V0 = U
  after_results
  all_goals rfl

theorem RX11_eq (V0 : Valuation τ sig (Elt 𝕀)) :
    RX11 V0 = stage (R := 16384) (h := 1) (t := 1024) (S3o := S16384x1x2048) (T := S4x4096x2048) (RX10 V0)
      (by decide) (by decide) (by decide) (by decide) (by decide) (by decide) (by decide) := by
  unfold RX11 Us11 RX10
  generalize Us10 V0 = U
  after_results
  all_goals rfl

/-! ## The arguments are never written -/
theorem opsHead_arg1 (U : Valuation τ sig (Elt 𝕀)) : after (opsHead (F := 𝕀)) U (Proc.devRef .tc main_arg1) = U (Proc.devRef .tc main_arg1) := by after_results
theorem opsStage1_arg1 (U : Valuation τ sig (Elt 𝕀)) : after (opsStage1 (F := 𝕀)) U (Proc.devRef .tc main_arg1) = U (Proc.devRef .tc main_arg1) := by after_results
theorem opsStage2_arg1 (U : Valuation τ sig (Elt 𝕀)) : after (opsStage2 (F := 𝕀)) U (Proc.devRef .tc main_arg1) = U (Proc.devRef .tc main_arg1) := by after_results
theorem opsStage3_arg1 (U : Valuation τ sig (Elt 𝕀)) : after (opsStage3 (F := 𝕀)) U (Proc.devRef .tc main_arg1) = U (Proc.devRef .tc main_arg1) := by after_results
theorem opsStage4_arg1 (U : Valuation τ sig (Elt 𝕀)) : after (opsStage4 (F := 𝕀)) U (Proc.devRef .tc main_arg1) = U (Proc.devRef .tc main_arg1) := by after_results
theorem opsStage5_arg1 (U : Valuation τ sig (Elt 𝕀)) : after (opsStage5 (F := 𝕀)) U (Proc.devRef .tc main_arg1) = U (Proc.devRef .tc main_arg1) := by after_results
theorem opsStage6_arg1 (U : Valuation τ sig (Elt 𝕀)) : after (opsStage6 (F := 𝕀)) U (Proc.devRef .tc main_arg1) = U (Proc.devRef .tc main_arg1) := by after_results
theorem opsStage7_arg1 (U : Valuation τ sig (Elt 𝕀)) : after (opsStage7 (F := 𝕀)) U (Proc.devRef .tc main_arg1) = U (Proc.devRef .tc main_arg1) := by after_results
theorem opsStage8_arg1 (U : Valuation τ sig (Elt 𝕀)) : after (opsStage8 (F := 𝕀)) U (Proc.devRef .tc main_arg1) = U (Proc.devRef .tc main_arg1) := by after_results
theorem opsStage9_arg1 (U : Valuation τ sig (Elt 𝕀)) : after (opsStage9 (F := 𝕀)) U (Proc.devRef .tc main_arg1) = U (Proc.devRef .tc main_arg1) := by after_results
theorem opsStage10_arg1 (U : Valuation τ sig (Elt 𝕀)) : after (opsStage10 (F := 𝕀)) U (Proc.devRef .tc main_arg1) = U (Proc.devRef .tc main_arg1) := by after_results
theorem opsStage11_arg1 (U : Valuation τ sig (Elt 𝕀)) : after (opsStage11 (F := 𝕀)) U (Proc.devRef .tc main_arg1) = U (Proc.devRef .tc main_arg1) := by after_results
/-- The chunks before the tail leave argument 1 as it was at the launch. -/
theorem Us11_arg1 (V0 : Valuation τ sig (Elt 𝕀)) : Us11 V0 (Proc.devRef .tc main_arg1) = V0 (Proc.devRef .tc main_arg1) := by
  unfold Us11 Us10 Us9 Us8 Us7 Us6 Us5 Us4 Us3 Us2 Us1 Uh
  rw [opsStage11_arg1, opsStage10_arg1, opsStage9_arg1, opsStage8_arg1, opsStage7_arg1, opsStage6_arg1, opsStage5_arg1, opsStage4_arg1, opsStage3_arg1, opsStage2_arg1, opsStage1_arg1, opsHead_arg1]
theorem opsHead_arg2 (U : Valuation τ sig (Elt 𝕀)) : after (opsHead (F := 𝕀)) U (Proc.devRef .tc main_arg2) = U (Proc.devRef .tc main_arg2) := by after_results
theorem opsStage1_arg2 (U : Valuation τ sig (Elt 𝕀)) : after (opsStage1 (F := 𝕀)) U (Proc.devRef .tc main_arg2) = U (Proc.devRef .tc main_arg2) := by after_results
theorem opsStage2_arg2 (U : Valuation τ sig (Elt 𝕀)) : after (opsStage2 (F := 𝕀)) U (Proc.devRef .tc main_arg2) = U (Proc.devRef .tc main_arg2) := by after_results
theorem opsStage3_arg2 (U : Valuation τ sig (Elt 𝕀)) : after (opsStage3 (F := 𝕀)) U (Proc.devRef .tc main_arg2) = U (Proc.devRef .tc main_arg2) := by after_results
theorem opsStage4_arg2 (U : Valuation τ sig (Elt 𝕀)) : after (opsStage4 (F := 𝕀)) U (Proc.devRef .tc main_arg2) = U (Proc.devRef .tc main_arg2) := by after_results
theorem opsStage5_arg2 (U : Valuation τ sig (Elt 𝕀)) : after (opsStage5 (F := 𝕀)) U (Proc.devRef .tc main_arg2) = U (Proc.devRef .tc main_arg2) := by after_results
theorem opsStage6_arg2 (U : Valuation τ sig (Elt 𝕀)) : after (opsStage6 (F := 𝕀)) U (Proc.devRef .tc main_arg2) = U (Proc.devRef .tc main_arg2) := by after_results
theorem opsStage7_arg2 (U : Valuation τ sig (Elt 𝕀)) : after (opsStage7 (F := 𝕀)) U (Proc.devRef .tc main_arg2) = U (Proc.devRef .tc main_arg2) := by after_results
theorem opsStage8_arg2 (U : Valuation τ sig (Elt 𝕀)) : after (opsStage8 (F := 𝕀)) U (Proc.devRef .tc main_arg2) = U (Proc.devRef .tc main_arg2) := by after_results
theorem opsStage9_arg2 (U : Valuation τ sig (Elt 𝕀)) : after (opsStage9 (F := 𝕀)) U (Proc.devRef .tc main_arg2) = U (Proc.devRef .tc main_arg2) := by after_results
theorem opsStage10_arg2 (U : Valuation τ sig (Elt 𝕀)) : after (opsStage10 (F := 𝕀)) U (Proc.devRef .tc main_arg2) = U (Proc.devRef .tc main_arg2) := by after_results
theorem opsStage11_arg2 (U : Valuation τ sig (Elt 𝕀)) : after (opsStage11 (F := 𝕀)) U (Proc.devRef .tc main_arg2) = U (Proc.devRef .tc main_arg2) := by after_results
/-- The chunks before the tail leave argument 2 as it was at the launch. -/
theorem Us11_arg2 (V0 : Valuation τ sig (Elt 𝕀)) : Us11 V0 (Proc.devRef .tc main_arg2) = V0 (Proc.devRef .tc main_arg2) := by
  unfold Us11 Us10 Us9 Us8 Us7 Us6 Us5 Us4 Us3 Us2 Us1 Uh
  rw [opsStage11_arg2, opsStage10_arg2, opsStage9_arg2, opsStage8_arg2, opsStage7_arg2, opsStage6_arg2, opsStage5_arg2, opsStage4_arg2, opsStage3_arg2, opsStage2_arg2, opsStage1_arg2, opsHead_arg2]

/-! ## The result -/

/-- The tail over any contents at its entry: the transformed input scaled, contracted with the weight, plus the bias. -/
theorem tail_v128 (U : Valuation τ sig (Elt 𝕀)) :
    after (opsTail (F := 𝕀)) U (Proc.devRef .tc main_v128)
      = addf (F := 𝕀) (φ := .f32) (Host.dotGeneral (F := 𝕀) (φ₂ := .f32) dot_S4x4096x2048_S2048x2048_S4x4096x2048_2_1_01_0_n_n none (mulf (F := 𝕀) (φ := .f32) (U (Proc.devRef .tc main_v122)) (broadcastInDim S4x4096x2048 ![] bcast_S_S4x4096x2048 (constant (F := 𝕀) S_ .f32 0x3CB504F3#32))) (U (Proc.devRef .tc main_arg1))) (broadcastInDim S4x4096x2048 ![0, 1, 2] bcast_S1x1x2048_S4x4096x2048_0_1_2 (broadcastInDim S1x1x2048 ![2] bcast_S2048_S1x1x2048_2 (U (Proc.devRef .tc main_arg2)))) := by
  after_results
  all_goals rfl

/-- The result buffer after the whole program, over the contents at the launch. -/
theorem result_eq (V0 : Valuation τ sig (Elt 𝕀)) :
    after (ops (F := 𝕀)) V0 (Proc.devRef .tc main_v128)
      = addf (F := 𝕀) (φ := .f32) (Host.dotGeneral (F := 𝕀) (φ₂ := .f32) dot_S4x4096x2048_S2048x2048_S4x4096x2048_2_1_01_0_n_n none (mulf (F := 𝕀) (φ := .f32) (RX11 V0) (broadcastInDim S4x4096x2048 ![] bcast_S_S4x4096x2048 (constant (F := 𝕀) S_ .f32 0x3CB504F3#32))) (V0 (Proc.devRef .tc main_arg1))) (broadcastInDim S4x4096x2048 ![0, 1, 2] bcast_S1x1x2048_S4x4096x2048_0_1_2 (broadcastInDim S1x1x2048 ![2] bcast_S2048_S1x1x2048_2 (V0 (Proc.devRef .tc main_arg2)))) := by
  rw [after_ops, tail_v128, Us11_arg1, Us11_arg2]
  rfl

set_option maxHeartbeats 40000000 in
/-- No operation writes argument 0: after the whole program it is as at the launch. -/
theorem arg0_kept (V0 : Valuation τ sig (Elt 𝕀)) : after (ops (F := 𝕀)) V0 (Proc.devRef .tc main_arg0) = V0 (Proc.devRef .tc main_arg0) :=
  after_of_forall_not_mem (b := Proc.devRef .tc main_arg0) _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))

set_option maxHeartbeats 40000000 in
/-- No operation writes argument 1: after the whole program it is as at the launch. -/
theorem arg1_kept (V0 : Valuation τ sig (Elt 𝕀)) : after (ops (F := 𝕀)) V0 (Proc.devRef .tc main_arg1) = V0 (Proc.devRef .tc main_arg1) :=
  after_of_forall_not_mem (b := Proc.devRef .tc main_arg1) _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))

set_option maxHeartbeats 40000000 in
/-- No operation writes argument 2: after the whole program it is as at the launch. -/
theorem arg2_kept (V0 : Valuation τ sig (Elt 𝕀)) : after (ops (F := 𝕀)) V0 (Proc.devRef .tc main_arg2) = V0 (Proc.devRef .tc main_arg2) :=
  after_of_forall_not_mem (b := Proc.devRef .tc main_arg2) _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))

/-- On every device, from any memory with zero counters: every weakly fair execution of @main terminates with the result
    buffer at the scaled transform of the input contracted with the weight plus the bias, and the arguments unchanged. -/
theorem run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v128)
        = addf (F := 𝕀) (φ := .f32) (Host.dotGeneral (F := 𝕀) (φ₂ := .f32) dot_S4x4096x2048_S2048x2048_S4x4096x2048_2_1_01_0_n_n none (mulf (F := 𝕀) (φ := .f32) (RX11 (launchContents m c)) (broadcastInDim S4x4096x2048 ![] bcast_S_S4x4096x2048 (constant (F := 𝕀) S_ .f32 0x3CB504F3#32))) (launchContents m c (Proc.devRef .tc main_arg1))) (broadcastInDim S4x4096x2048 ![0, 1, 2] bcast_S1x1x2048_S4x4096x2048_0_1_2 (broadcastInDim S1x1x2048 ![2] bcast_S2048_S1x1x2048_2 (launchContents m c (Proc.devRef .tc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v128).trans (result_eq _),
      (h c main_arg0).trans (arg0_kept _), (h c main_arg1).trans (arg1_kept _), (h c main_arg2).trans (arg2_kept _)⟩)
    (run_all m ρ)

end Cert.ReferenceIdeal.HostValue

end
-- ==== Proof.RefChain.lean ====
/-
  The reference's transformed input, read by row-major position, is the eleven butterflies of the input's real sequence:
  the two reshapes in front do not move a position, and each butterfly of an array of coerced reals is the butterfly of the
  real sequence.
-/
import proofs.«124037_j57294863729375_1_alg».proof.Proof.RefHost
import proofs.«124037_j57294863729375_1_alg».proof.Proof.LibFlatButterfly
import proofs.«124037_j57294863729375_1_alg».proof.Proof.LibHadamardRows

set_option maxRecDepth 16384

noncomputable section

namespace Cert.ReferenceIdeal.Chain

open Cert.ReferenceIdeal Cert.ReferenceIdeal.Gen Cert.ReferenceIdeal.HostValue Idealize.ShloMosaic Idealize.ShloMosaic.StableHlo Butterfly

/-- The input with its two reshapes, by position, is the input by position. -/
theorem lin_RX0 (V0 : Valuation τ sig (Elt Ideal)) :
    lin (RX0 V0) = lin (V0 (Proc.devRef .tc main_arg0) : S4x4096x2048.Idx → EReal) := by
  rw [RX0_eq, lin_shapeCast, lin_shapeCast]

/-- After the eleven butterflies: if the input, by position, is the real sequence `g`, the transformed input is `fwht g`. -/
theorem lin_RX11 (V0 : Valuation τ sig (Elt Ideal)) (g : ℕ → ℝ)
    (hg : ∀ p, p < 4 * 4096 * 2048 → lin (V0 (Proc.devRef .tc main_arg0) : S4x4096x2048.Idx → EReal) p = ((g p : ℝ) : EReal))
    (p : ℕ) (hp : p < 4 * 4096 * 2048) :
    lin (RX11 V0) p = ((fwht g p : ℝ) : EReal) := by
  have h0 : ∀ p, p < 16384 * 1024 * 2 * 1 → lin (RX0 V0) p = ((g p : ℝ) : EReal) :=
    fun p hp => by rw [lin_RX0]; exact hg p (by omega)
  have h1 : ∀ p, p < 16384 * 512 * 2 * 2 → lin (RX1 V0) p = ((bf 1 (g) p : ℝ) : EReal) := fun p hp => by
    rw [RX1_eq]
    exact stage_coe _ _ _ _ _ _ _ _ (g) h0 p (by omega)
  have h2 : ∀ p, p < 16384 * 256 * 2 * 4 → lin (RX2 V0) p = ((bf 2 (bf 1 (g)) p : ℝ) : EReal) := fun p hp => by
    rw [RX2_eq]
    exact stage_coe _ _ _ _ _ _ _ _ (bf 1 (g)) h1 p (by omega)
  have h3 : ∀ p, p < 16384 * 128 * 2 * 8 → lin (RX3 V0) p = ((bf 4 (bf 2 (bf 1 (g))) p : ℝ) : EReal) := fun p hp => by
    rw [RX3_eq]
    exact stage_coe _ _ _ _ _ _ _ _ (bf 2 (bf 1 (g))) h2 p (by omega)
  have h4 : ∀ p, p < 16384 * 64 * 2 * 16 → lin (RX4 V0) p = ((bf 8 (bf 4 (bf 2 (bf 1 (g)))) p : ℝ) : EReal) := fun p hp => by
    rw [RX4_eq]
    exact stage_coe _ _ _ _ _ _ _ _ (bf 4 (bf 2 (bf 1 (g)))) h3 p (by omega)
  have h5 : ∀ p, p < 16384 * 32 * 2 * 32 → lin (RX5 V0) p = ((bf 16 (bf 8 (bf 4 (bf 2 (bf 1 (g))))) p : ℝ) : EReal) := fun p hp => by
    rw [RX5_eq]
    exact stage_coe _ _ _ _ _ _ _ _ (bf 8 (bf 4 (bf 2 (bf 1 (g))))) h4 p (by omega)
  have h6 : ∀ p, p < 16384 * 16 * 2 * 64 → lin (RX6 V0) p = ((bf 32 (bf 16 (bf 8 (bf 4 (bf 2 (bf 1 (g)))))) p : ℝ) : EReal) := fun p hp => by
    rw [RX6_eq]
    exact stage_coe _ _ _ _ _ _ _ _ (bf 16 (bf 8 (bf 4 (bf 2 (bf 1 (g)))))) h5 p (by omega)
  have h7 : ∀ p, p < 16384 * 8 * 2 * 128 → lin (RX7 V0) p = ((bf 64 (bf 32 (bf 16 (bf 8 (bf 4 (bf 2 (bf 1 (g))))))) p : ℝ) : EReal) := fun p hp => by
    rw [RX7_eq]
    exact stage_coe _ _ _ _ _ _ _ _ (bf 32 (bf 16 (bf 8 (bf 4 (bf 2 (bf 1 (g))))))) h6 p (by omega)
  have h8 : ∀ p, p < 16384 * 4 * 2 * 256 → lin (RX8 V0) p = ((bf 128 (bf 64 (bf 32 (bf 16 (bf 8 (bf 4 (bf 2 (bf 1 (g)))))))) p : ℝ) : EReal) := fun p hp => by
    rw [RX8_eq]
    exact stage_coe _ _ _ _ _ _ _ _ (bf 64 (bf 32 (bf 16 (bf 8 (bf 4 (bf 2 (bf 1 (g)))))))) h7 p (by omega)
  have h9 : ∀ p, p < 16384 * 2 * 2 * 512 → lin (RX9 V0) p = ((bf 256 (bf 128 (bf 64 (bf 32 (bf 16 (bf 8 (bf 4 (bf 2 (bf 1 (g))))))))) p : ℝ) : EReal) := fun p hp => by
    rw [RX9_eq]
    exact stage_coe _ _ _ _ _ _ _ _ (bf 128 (bf 64 (bf 32 (bf 16 (bf 8 (bf 4 (bf 2 (bf 1 (g))))))))) h8 p (by omega)
  have h10 : ∀ p, p < 16384 * 1 * 2 * 1024 → lin (RX10 V0) p = ((bf 512 (bf 256 (bf 128 (bf 64 (bf 32 (bf 16 (bf 8 (bf 4 (bf 2 (bf 1 (g)))))))))) p : ℝ) : EReal) := fun p hp => by
    rw [RX10_eq]
    exact stage_coe _ _ _ _ _ _ _ _ (bf 256 (bf 128 (bf 64 (bf 32 (bf 16 (bf 8 (bf 4 (bf 2 (bf 1 (g)))))))))) h9 p (by omega)
  have h11 : ∀ p, p < 4 * 4096 * 2048 → lin (RX11 V0) p = ((bf 1024 (bf 512 (bf 256 (bf 128 (bf 64 (bf 32 (bf 16 (bf 8 (bf 4 (bf 2 (bf 1 (g))))))))))) p : ℝ) : EReal) := fun p hp => by
    rw [RX11_eq]
    exact stage_coe _ _ _ _ _ _ _ _ (bf 512 (bf 256 (bf 128 (bf 64 (bf 32 (bf 16 (bf 8 (bf 4 (bf 2 (bf 1 (g))))))))))) h10 p (by omega)
  exact h11 p hp

end Cert.ReferenceIdeal.Chain

end
-- ==== Proof.FiniteInputs.lean ====
/-
  The printed predicate all(|x| < +∞) ∧ all(|w| < +∞) ∧ all(|b| < +∞), read back on the extended reals: when it is
  true, every entry of the three arrays is a real number.

  The predicate is a conjunction of three reductions by "and" of the entrywise comparisons |v| < +∞, where |v| is the
  larger of v and −v and +∞ is what the bit pattern 0x7F800000 denotes.  A conjunction that is 1 has both parts 1; a
  reduction by "and" over all axes that is 1 met only 1s; and an extended real v with max(v, −v) < ⊤ is neither ⊤
  (then max(v, −v) = ⊤) nor ⊥ (then −v = ⊤), so it is a real number.
-/
import proofs.«124037_j57294863729375_1_alg».proof.Pre_finite_inputs
import proofs.«124037_j57294863729375_1_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- A rank-0 array has one index. -/
instance : Subsingleton S_.Idx := ⟨fun a b => funext fun d => d.elim0⟩

/-- An extended real whose absolute value (the larger of it and its negation) is below +∞ is a real number. -/
theorem real_of_abs_lt (v : EReal)
    (h : Ideal.cmp .olt (max v (-v)) (Ideal.ofBits .f32 0x7F800000#32) = 1#1) : ∃ r : ℝ, v = ((r : ℝ) : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- An array all of whose entries are real numbers is a real array read on the extended reals. -/
theorem real_array {s : Shape} (v : s.Idx → EReal) (h : ∀ i, ∃ r : ℝ, v i = ((r : ℝ) : EReal)) :
    ∃ vr : s.Idx → ℝ, v = fun i => ((vr i : ℝ) : EReal) := by
  choose vr hvr using h
  exact ⟨vr, funext hvr⟩

/-- The precondition read back: every entry of the three inputs is a real number. -/
theorem real_of_pre [Cert.Pre_finite_inputs.Facts] (x : FVec Ideal S4x4096x2048 .f32) (w : FVec Ideal S2048x2048 .f32) (b : FVec Ideal S2048 .f32)
    (h : Cert.Pre_finite_inputs.fn (F := Ideal) x w b = fun _ => 1#1) :
    (∃ xr : S4x4096x2048.Idx → ℝ, x = fun i => ((xr i : ℝ) : EReal)) ∧
    (∃ wr : S2048x2048.Idx → ℝ, w = fun i => ((wr i : ℝ) : EReal)) ∧
    (∃ br : S2048.Idx → ℝ, b = fun i => ((br i : ℝ) : EReal)) := by
  have e := congrFun h ValueIdx.ix0
  dsimp only [Cert.Pre_finite_inputs.fn] at e
  -- the conjunction of the three reductions
  obtain ⟨e12, e3⟩ := IntOp.andi_eq_one.1 e
  obtain ⟨e1, e2⟩ := IntOp.andi_eq_one.1 e12
  refine ⟨real_array x fun i => ?_, real_array w fun i => ?_, real_array b fun i => ?_⟩
  · exact real_of_abs_lt (x i) (Host.reduce_andi_all _ _ _ _ _ e1 i)
  · exact real_of_abs_lt (w i) (Host.reduce_andi_all _ _ _ _ _ e2 i)
  · exact real_of_abs_lt (b i) (Host.reduce_andi_all _ _ _ _ _ e3 i)

end Cert.Finite

end
-- ==== Proof.RefTail.lean ====
/-
  The end of the reference, read at one output entry.

  The reference's last steps scale its transformed activations by one constant c, contract the result with the weight
  matrix W over the feature axis (the left operand's last axis against the right operand's SECOND axis, so that the
  output feature o reads row o of W), and add the bias broadcast over the leading axes.  Read at the entry (b, s, o):

      out (b, s, o) = Σ_{d < 2048} (X (b, s, d) · c) · W (o, d) + β (o).

  The contraction's index set has one axis, of extent 2048; the sum over it is re-indexed by its one coordinate.  The
  left operand's index keeps the output's first two coordinates, the right operand's first coordinate is the output's
  third.  The two broadcasts of the bias read β at the output's last coordinate, the broadcast of the scalar reads it
  everywhere.

  Also here: the scaling constant's bit pattern 0x3CB504F3 denotes a real number (a normal number: its exponent field
  is neither all ones nor zero), and the all-zero pattern denotes 0.
-/
import proofs.«124037_j57294863729375_1_alg».proof.ReferenceIdeal
import proofs.«124037_j57294863729375_1_alg».proof.Proof.Gen.ReferenceIdeal
import Idealize.ShloMosaic.Lib.Pipeline.Value
import Idealize.ShloMosaic.Lib.ValueIdx
import Idealize.ShloMosaic.PureOps.Ideal.Laws

noncomputable section

namespace Cert.RefTail

open Cert.ReferenceIdeal Idealize.ShloMosaic Idealize.ShloMosaic.ValueIdx
open Cert.ReferenceIdeal.Facts₀

/-- The scaling constant's bit pattern denotes a real number: its exponent field is 121, neither all ones (an
    infinity or junk) nor zero (a subnormal), so the pattern is a normal number. -/
theorem scale_real : ∃ σ : ℝ, Ideal.ofBits .f32 0x3CB504F3#32 = ((σ : ℝ) : EReal) := by
  have hex : ((0x3CB504F3#32 : BitVec 32).extractLsb' 23 8).toNat = 121 := by decide
  show ∃ σ : ℝ, Ideal.ieee 8 23 (0x3CB504F3#32 : BitVec 32) = ((σ : ℝ) : EReal)
  unfold Ideal.ieee
  simp only [hex]
  rw [if_neg (by norm_num), if_neg (by norm_num)]
  exact ⟨_, rfl⟩

/-- The all-zero pattern denotes 0. -/
theorem zero_word : Ideal.ofBits .f32 0x00000000#32 = 0 := Ideal.ofBits_zero_f32

variable [Cert.ReferenceIdeal.Facts]

/-- The reference's contraction: [4, 4096, 2048] by [2048, 2048] over the last axis of each. -/
abbrev D : DotDims S4x4096x2048 S2048x2048 S4x4096x2048 := dot_S4x4096x2048_S2048x2048_S4x4096x2048_2_1_01_0_n_n

theorem D_rank : (D).contr.rank = 1 := rfl
theorem D_size : (D).contr.size ⟨0, by rw [D_rank]; exact Nat.one_pos⟩ = 2048 := rfl

/-- The contraction's sum over its index set, read at the output entry (b, s, o), is the sum over the feature. -/
theorem sum_contr (L : S4x4096x2048.Idx → EReal) (R : S2048x2048.Idx → EReal) (b : Fin 4) (s : Fin 4096) (o : Fin 2048) :
    ∑ k : (D).contr.Idx, L ((D).lhsIdx (ix3 b s o) k) * R ((D).rhsIdx (ix3 b s o) k)
      = ∑ d : Fin 2048, L (ix3 b s d) * R (ix2 o d) := by
  rw [← Equiv.sum_comp (contrEquiv1 D 2048 D_rank D_size).symm]
  refine Finset.sum_congr rfl fun k _ => ?_
  have el : (D).lhsIdx (ix3 b s o) ((contrEquiv1 D 2048 D_rank D_size).symm k) = ix3 b s k := by
    funext a; apply Fin.ext
    match a with
    | ⟨0, _⟩ => rfl
    | ⟨1, _⟩ => rfl
    | ⟨2, _⟩ =>
      show ((D).lhsIdx (ix3 b s o) ((contrEquiv1 D 2048 D_rank D_size).symm k) 2).val = k.val
      rw [(D).lhsIdx_val_of_single rfl]
      exact contrEquiv1_symm_val D 2048 D_rank D_size k
  have er : (D).rhsIdx (ix3 b s o) ((contrEquiv1 D 2048 D_rank D_size).symm k) = ix2 o k := by
    funext a; apply Fin.ext
    match a with
    | ⟨0, _⟩ => rfl
    | ⟨1, _⟩ =>
      show ((D).rhsIdx (ix3 b s o) ((contrEquiv1 D 2048 D_rank D_size).symm k) 1).val = k.val
      rw [(D).rhsIdx_val_of_single rfl]
      exact contrEquiv1_symm_val D 2048 D_rank D_size k
  rw [el, er]

/-- The reference's last three operations read at the entry (b, s, o). -/
theorem tail_apply (X : S4x4096x2048.Idx → EReal) (W : S2048x2048.Idx → EReal) (β : S2048.Idx → EReal)
    (b : Fin 4) (s : Fin 4096) (o : Fin 2048) :
    addf (F := Ideal) (φ := .f32)
        (Host.dotGeneral (F := Ideal) (φ₂ := .f32) dot_S4x4096x2048_S2048x2048_S4x4096x2048_2_1_01_0_n_n none
          (mulf (F := Ideal) (φ := .f32) X
            (broadcastInDim S4x4096x2048 ![] bcast_S_S4x4096x2048 (constant (F := Ideal) S_ .f32 0x3CB504F3#32))) W)
        (broadcastInDim S4x4096x2048 ![0, 1, 2] bcast_S1x1x2048_S4x4096x2048_0_1_2
          (broadcastInDim S1x1x2048 ![2] bcast_S2048_S1x1x2048_2 β)) (ix3 b s o)
      = (∑ d : Fin 2048, (X (ix3 b s d) * Ideal.ofBits .f32 0x3CB504F3#32) * W (ix2 o d)) + β (ix1 o) := by
  -- the sum of the contraction and the bias, each read at the entry
  show FloatOps.dotGeneral (F := Ideal) D none .single
        (mulf (F := Ideal) (φ := .f32) X
          (broadcastInDim S4x4096x2048 ![] bcast_S_S4x4096x2048 (constant (F := Ideal) S_ .f32 0x3CB504F3#32))) W (ix3 b s o)
      + broadcastInDim S4x4096x2048 ![0, 1, 2] bcast_S1x1x2048_S4x4096x2048_0_1_2
          (broadcastInDim S1x1x2048 ![2] bcast_S2048_S1x1x2048_2 β) (ix3 b s o) = _
  rw [Ideal.dotGeneral_apply, sum_contr]
  -- the bias: the outer broadcast reads the [1, 1, 2048] array at (0, 0, o), the inner one reads β at o
  have hb : broadcastInDim S4x4096x2048 ![0, 1, 2] bcast_S1x1x2048_S4x4096x2048_0_1_2
      (broadcastInDim S1x1x2048 ![2] bcast_S2048_S1x1x2048_2 β) (ix3 b s o) = β (ix1 o) := by
    rw [broadcastInDim_apply _ _ _ _ (ix3 (0 : Fin 1) (0 : Fin 1) o) (fun a => by
      match a with
      | ⟨0, _⟩ => rfl
      | ⟨1, _⟩ => rfl
      | ⟨2, _⟩ => rfl)]
    rw [broadcastInDim_apply _ _ _ _ (ix1 o) (fun a => by
      match a with
      | ⟨0, _⟩ => rfl)]
  rw [hb]
  -- the scaled operand at an entry is the entry times the constant
  rfl

/-- The reference's last three operations as a function of the transformed activations, the weight and the bias. -/
def refFun (RX : S4x4096x2048.Idx → EReal) (W : S2048x2048.Idx → EReal) (β : S2048.Idx → EReal) :
    S4x4096x2048.Idx → EReal :=
  addf (F := Ideal) (φ := .f32)
    (Host.dotGeneral (F := Ideal) (φ₂ := .f32) dot_S4x4096x2048_S2048x2048_S4x4096x2048_2_1_01_0_n_n none
      (mulf (F := Ideal) (φ := .f32) RX
        (broadcastInDim S4x4096x2048 ![] bcast_S_S4x4096x2048 (constant (F := Ideal) S_ .f32 0x3CB504F3#32))) W)
    (broadcastInDim S4x4096x2048 ![0, 1, 2] bcast_S1x1x2048_S4x4096x2048_0_1_2
      (broadcastInDim S1x1x2048 ![2] bcast_S2048_S1x1x2048_2 β))

/-- That function read at the entry (b, s, o). -/
theorem refFun_apply (RX : S4x4096x2048.Idx → EReal) (W : S2048x2048.Idx → EReal) (β : S2048.Idx → EReal)
    (b : Fin 4) (s : Fin 4096) (o : Fin 2048) :
    refFun RX W β (ix3 b s o)
      = (∑ d : Fin 2048, (RX (ix3 b s d) * Ideal.ofBits .f32 0x3CB504F3#32) * W (ix2 o d)) + β (ix1 o) :=
  tail_apply RX W β b s o

end Cert.RefTail

end
-- ==== Proof.Bridge.lean ====
/-
  The two programs compute the same function: the kernel's result, as a function of its arguments and of the
  transformed identity matrix, is the reference's tail applied to the transformed activations.

  Read at the entry (b, s, o), with r = b · 4096 + s the flattened row and n = 2048:

    kernel     Σ_i x(b, s, i) · ( Σ_k (K(i, k) · c) · w(o, k) + 0 ) + β(o)
    reference  Σ_d (RX(b, s, d) · c) · w(o, d) + β(o)

  where K is the transformed identity matrix, K(i, k) = T δ (i·n + k); RX is the transformed activations,
  RX(b, s, d) = T g (r·n + d) for g the activations read by position; and c is the scaling constant.  All entries of
  x, w, β are real numbers, c is a real number, and T is the same linear map on every row:
  T g (r·n + d) = Σ_i g(r·n + i) · T δ (i·n + d).  With that the two sides are the two sides of the law that joins a
  contraction with a scaled matrix to a scaled contraction followed by the second contraction.

  The readings: a reshape keeps row-major positions ((b, s, o) and (r, o) sit at the same position r·n + o, and (0, o)
  of the bias row at the position o of the bias); the scaling multiplies every entry by c; the transposed weight at
  (k, o) is the weight at (o, k); the added row is zero.
-/
import proofs.«124037_j57294863729375_1_alg».proof.Proof.KernelFun
import proofs.«124037_j57294863729375_1_alg».proof.Proof.LibHadamardRows
import proofs.«124037_j57294863729375_1_alg».proof.Proof.LibFlatButterfly
import proofs.«124037_j57294863729375_1_alg».proof.Proof.Gen.ReferenceIdeal
import proofs.«124037_j57294863729375_1_alg».proof.Proof.Gen.KernelIdeal
import proofs.«124037_j57294863729375_1_alg».proof.Proof.RefTail
import Idealize.ShloMosaic.Lib.Pipeline.Value
import Idealize.ShloMosaic.Lib.ValueIdx

noncomputable section

namespace Cert.Bridge

open Idealize.ShloMosaic Idealize.ShloMosaic.ValueIdx Butterfly
open Cert.KernelIdeal.RegionValue

/-- The shapes: the activations, the activations as rows, the square matrices, the bias, the bias row, a scalar. -/
abbrev SX : Shape := ⟨3, ![4, 4096, 2048]⟩
abbrev SF : Shape := ⟨2, ![16384, 2048]⟩
abbrev SW : Shape := ⟨2, ![2048, 2048]⟩
abbrev SB : Shape := ⟨1, ![2048]⟩
abbrev SR : Shape := ⟨2, ![1, 2048]⟩
abbrev S0 : Shape := ⟨0, ![]⟩

/-- The flattened row of the entry (b, s, ·). -/
theorem row_lt (b : Fin 4) (s : Fin 4096) : b.val * 4096 + s.val < 16384 := by
  have hb := b.isLt
  have hs := s.isLt
  omega

/-- The row-major position of (b, s, o) in the activations. -/
theorem pos3 (b : Fin 4) (s : Fin 4096) (o : Fin 2048) :
    (SX.rowMajor (ix3 b s o)).val = (b.val * 4096 + s.val) * 2048 + o.val := by
  rw [Shape.rowMajor_val_three]; rfl

/-- The row-major position of (r, o) in an array of rows of length 2048. -/
theorem pos2 {M : ℕ} (r : Fin M) (o : Fin 2048) :
    ((⟨2, ![M, 2048]⟩ : Shape).rowMajor (ix2 r o)).val = r.val * 2048 + o.val := by
  rw [Shape.rowMajor_val_two]; rfl

/-- The activations reshaped to rows, read at (b·4096 + s, i). -/
theorem flat_apply (x : SX.Idx → EReal) (h : SX.ShapeCasts SF) (b : Fin 4) (s : Fin 4096) (i : Fin 2048) :
    shapeCast SF x h (ix2 (⟨b.val * 4096 + s.val, row_lt b s⟩ : Fin 16384) i) = x (ix3 b s i) :=
  shapeCast_apply x h _ (ix3 b s i) (by rw [pos3, pos2])

/-- Rows reshaped to the activations' shape, read at (b, s, o). -/
theorem unflat_apply (y : SF.Idx → EReal) (h : SF.ShapeCasts SX) (b : Fin 4) (s : Fin 4096) (o : Fin 2048) :
    shapeCast SX y h (ix3 b s o) = y (ix2 (⟨b.val * 4096 + s.val, row_lt b s⟩ : Fin 16384) o) :=
  shapeCast_apply y h _ (ix2 (⟨b.val * 4096 + s.val, row_lt b s⟩ : Fin 16384) o) (by rw [pos3, pos2])

/-- The bias reshaped to one row, read at (0, o). -/
theorem biasrow_apply (β : SB.Idx → EReal) (h : SB.ShapeCasts SR) (o : Fin 2048) :
    shapeCast SR β h (ix2 (0 : Fin 1) o) = β (ix1 o) :=
  shapeCast_apply β h _ (ix1 o) (by
    rw [Shape.rowMajor_val_one, pos2]
    show o.val = 0 * 2048 + o.val
    omega)

/-- The transposed weight read at (k, o) is the weight at (o, k). -/
theorem transpose_at (w : SW.Idx → EReal) (h : SW.Transposes [1, 0] SW) (k o : Fin 2048) :
    transpose SW [1, 0] w h (ix2 k o) = w (ix2 o k) :=
  transpose_apply [1, 0] w h _ (ix2 o k) (fun b => by
    match b with
    | ⟨0, _⟩ => rfl
    | ⟨1, _⟩ => rfl)

/-- The kernel's result read at the entry (b, s, o). -/
theorem kernel_apply (x : SX.Idx → EReal) (w : SW.Idx → EReal) (β : SB.Idx → EReal) (K : SW.Idx → EReal)
    (h1 : SX.ShapeCasts SF) (h2 : SF.ShapeCasts SX) (hb : S0.BroadcastsInDim SW ![]) (ht : SW.Transposes [1, 0] SW)
    (hz : S0.BroadcastsInDim SR ![]) (hr : SB.ShapeCasts SR) (b : Fin 4) (s : Fin 4096) (o : Fin 2048) :
    shapeCast SX
        (rowsTimes (M := 16384) (shapeCast SF x h1)
          (rowsTimes (M := 2048)
            (mulf (F := Ideal) (φ := .f32) K (broadcastInDim SW ![] hb (constant (F := Ideal) S0 .f32 0x3CB504F3#32)))
            (transpose SW [1, 0] w ht)
            (broadcastInDim SR ![] hz (constant (F := Ideal) S0 .f32 0x00000000#32)))
          (shapeCast SR β hr)) h2 (ix3 b s o)
      = (∑ i : Fin 2048, x (ix3 b s i)
            * ((∑ k : Fin 2048, (K (ix2 i k) * Ideal.ofBits .f32 0x3CB504F3#32) * w (ix2 o k)) + 0))
          + β (ix1 o) := by
  rw [unflat_apply]
  -- rows times the matrix plus the bias row, read at (b·4096 + s, o)
  show (∑ i : Fin 2048, shapeCast SF x h1 (ix2 (⟨b.val * 4096 + s.val, row_lt b s⟩ : Fin 16384) i)
          * ((∑ k : Fin 2048, (K (ix2 i k) * Ideal.ofBits .f32 0x3CB504F3#32) * transpose SW [1, 0] w ht (ix2 k o))
              + Ideal.ofBits .f32 0x00000000#32))
        + shapeCast SR β hr (ix2 (0 : Fin 1) o) = _
  rw [biasrow_apply, Ideal.ofBits_zero_f32]
  congr 1
  refine Finset.sum_congr rfl fun i _ => ?_
  rw [flat_apply]
  congr 2
  exact Finset.sum_congr rfl fun k _ => by rw [transpose_at]

/-- The activations' number of entries. -/
theorem numel_SX : SX.numel = 4 * 4096 * 2048 := by decide

/-- An array of real numbers, read by position below its number of entries, is a real number. -/
theorem lin_real {s : Shape} (x : s.Idx → EReal) (hx : ∃ xr : s.Idx → ℝ, x = fun i => ((xr i : ℝ) : EReal))
    (p : ℕ) (hp : p < s.numel) : lin x p = (((lin x p).toReal : ℝ) : EReal) := by
  obtain ⟨xr, rfl⟩ := hx
  rw [lin_of_lt _ p hp, EReal.toReal_coe]

/-- THE BRIDGE: the kernel's function of its arguments and the transformed identity matrix is the reference's tail at
    the transformed activations. -/
theorem bridge (x : SX.Idx → EReal) (w : SW.Idx → EReal) (β : SB.Idx → EReal) (K : SW.Idx → EReal) (RX : SX.Idx → EReal)
    (hx : ∃ xr : SX.Idx → ℝ, x = fun i => ((xr i : ℝ) : EReal))
    (hw : ∃ wr : SW.Idx → ℝ, w = fun i => ((wr i : ℝ) : EReal))
    (hβ : ∃ br : SB.Idx → ℝ, β = fun i => ((br i : ℝ) : EReal))
    (hK : ∀ p, p < 2048 * 2048 → lin K p = ((fwht delta p : ℝ) : EReal))
    (hRX : ∀ g : ℕ → ℝ, (∀ p, p < 4 * 4096 * 2048 → lin x p = ((g p : ℝ) : EReal)) →
      ∀ p, p < 4 * 4096 * 2048 → lin RX p = ((fwht g p : ℝ) : EReal)) :
    Cert.KernelIdeal.Result.kernelFun x w β K = Cert.RefTail.refFun RX w β := by
  funext j
  obtain ⟨b, s, o, rfl⟩ : ∃ b s o, j = ix3 b s o := ⟨j 0, j 1, j 2, eq_ix3 j⟩
  have hbl := b.isLt
  have hsl := s.isLt
  rw [Cert.RefTail.refFun_apply]
  unfold Cert.KernelIdeal.Result.kernelFun
  rw [kernel_apply]
  -- the activations by position, as real numbers
  have hg : ∀ p, p < 4 * 4096 * 2048 → lin x p = (((fun q => (lin x q).toReal) p : ℝ) : EReal) :=
    fun p hp => lin_real x hx p (by rw [numel_SX]; exact hp)
  have hxi : ∀ i : Fin 2048, x (ix3 b s i) = (((lin x ((b.val * 4096 + s.val) * 2048 + i.val)).toReal : ℝ) : EReal) := by
    intro i
    have hi := i.isLt
    rw [← lin_rowMajor x (ix3 b s i), pos3]
    exact hg _ (by omega)
  have hKi : ∀ i k : Fin 2048, K (ix2 i k) = ((fwht delta (i.val * 2048 + k.val) : ℝ) : EReal) := by
    intro i k
    have hi := i.isLt
    have hk := k.isLt
    rw [← lin_rowMajor K (ix2 i k), pos2]
    exact hK _ (by omega)
  have hRXd : ∀ d : Fin 2048, RX (ix3 b s d)
      = ((fwht (fun q => (lin x q).toReal) ((b.val * 4096 + s.val) * 2048 + d.val) : ℝ) : EReal) := by
    intro d
    have hd := d.isLt
    rw [← lin_rowMajor RX (ix3 b s d), pos3]
    exact hRX _ hg _ (by omega)
  -- the transform of row r as the combination of the transformed rows of the identity matrix
  have hF : ∀ d : Fin 2048,
      ((fwht (fun q => (lin x q).toReal) ((b.val * 4096 + s.val) * 2048 + d.val) : ℝ) : EReal)
        = ∑ i : Fin 2048, (((lin x ((b.val * 4096 + s.val) * 2048 + i.val)).toReal : ℝ) : EReal)
            * ((fwht delta (i.val * 2048 + d.val) : ℝ) : EReal) := by
    intro d
    rw [fwht_rows_fin _ (b.val * 4096 + s.val) d.val d.isLt, ← coe_sum_mul]
  obtain ⟨σ, hσ⟩ := Cert.RefTail.scale_real
  obtain ⟨wr, rfl⟩ := hw
  obtain ⟨br, rfl⟩ := hβ
  simp only [hxi, hKi, hRXd, hF, hσ]
  exact assoc_scale_coe' (fun i : Fin 2048 => (lin x ((b.val * 4096 + s.val) * 2048 + i.val)).toReal)
    (fun i k : Fin 2048 => fwht delta (i.val * 2048 + k.val)) (fun k : Fin 2048 => wr (ix2 o k)) σ (br (ix1 o))

end Cert.Bridge

end
-- ==== Proof.lean ====
/-
  The certificate: the kernel computes `x ↦ x · (H σ · Wᵀ) + b`, the reference `x ↦ (x · H) σ · Wᵀ + b`, where `H` is the
  2048-point Walsh–Hadamard transform computed by eleven radix-2 butterflies and `σ` one float literal. The kernel obtains
  `H σ` by transforming the rows of the identity matrix; the reference transforms the rows of `x`. The transform is the
  same linear map on every row, so row `r` of `x · H` is `∑ i, x (r, i) · H (i, ·)`, and the two results agree by
  associativity of the matrix product and distributivity — laws that hold on the extended reals because every input is a
  finite real (the precondition). The three frames are the generated frame certificates and the reference's run;
  nothing was rewritten by the idealization, so `preserves` is trivial.
-/
import proofs.«124037_j57294863729375_1_alg».proof.Defs
import proofs.«124037_j57294863729375_1_alg».proof.Proof.Gen.Kernel
import proofs.«124037_j57294863729375_1_alg».proof.Proof.Gen.Kernel.Frame
import proofs.«124037_j57294863729375_1_alg».proof.Proof.Gen.KernelIdeal
import proofs.«124037_j57294863729375_1_alg».proof.Proof.Gen.KernelIdeal.Frame
import proofs.«124037_j57294863729375_1_alg».proof.Proof.Gen.ReferenceIdeal
import proofs.«124037_j57294863729375_1_alg».proof.Proof.Gen.Pre_finite_inputs
import proofs.«124037_j57294863729375_1_alg».proof.Proof.KernelResult
import proofs.«124037_j57294863729375_1_alg».proof.Proof.KernelChain
import proofs.«124037_j57294863729375_1_alg».proof.Proof.RefHost
import proofs.«124037_j57294863729375_1_alg».proof.Proof.RefChain
import proofs.«124037_j57294863729375_1_alg».proof.Proof.FiniteInputs
import proofs.«124037_j57294863729375_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HostValue.run m ρ)

/-- Both programs run; the kernel's result is `kernelFun` of the arguments, the reference's its own composite of the
    arguments, and the two are one function of finite arguments (the bridge). -/
theorem algebraic : Cert.algebraic_KernelIdeal_ReferenceIdeal := by
  intro m ρ m' ρ' hpre hagree
  refine ⟨fun c => Cert.KernelIdeal.Result.kernelFun (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.HostValue.KX11 (Cert.KernelIdeal.Gen.W0 m ρ c)), Cert.KernelIdeal.Result.run m ρ, ?_⟩
  refine (θ_run Cert.ReferenceIdeal.defs _ _).mono (fun r h c => ⟨(h c).1.trans ?_, (h c).2⟩)
    (Cert.ReferenceIdeal.HostValue.run m' ρ')
  obtain ⟨hx, hw, hb⟩ := Cert.Finite.real_of_pre _ _ _ (hpre c)
  have e0 := (hagree c).1
  have e1 := (hagree c).2.1
  have e2 := (hagree c).2.2
  -- the reference's composite, with its arguments replaced by the kernel's
  have href : Cert.RefTail.refFun (Cert.ReferenceIdeal.HostValue.RX11 (Idealize.ShloMosaic.StableHlo.launchContents m' c))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.Result.kernelFun (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (Cert.KernelIdeal.HostValue.KX11 (Cert.KernelIdeal.Gen.W0 m ρ c)) := by
    rw [e1, e2]
    exact (Cert.Bridge.bridge _ _ _ _ _ hx hw hb
      (fun p hp => Cert.KernelIdeal.Chain.lin_KX11 _ p hp)
      (fun g hg p hp => Cert.ReferenceIdeal.Chain.lin_RX11 (Idealize.ShloMosaic.StableHlo.launchContents m' c) g
        (fun q hq => by
          rw [show (Idealize.ShloMosaic.StableHlo.launchContents m' c (Proc.devRef .tc Cert.ReferenceIdeal.main_arg0))
              = m ((c.tc : Thread Cert.KernelIdeal.nD Cert.KernelIdeal.τ).loc Cert.KernelIdeal.main_arg0) from e0]
          exact hg q hq) p hp)).symm
  exact href

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
